-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v81)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v81) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v113) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S384x8 : Shape := ⟨2, ![384, 8]⟩
abbrev S8 : Shape := ⟨1, ![8]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S384x8 : S_.BroadcastsInDim S384x8 (![] : Fin 0 → Fin S384x8.rank)
  reducesTo_S384x8_S_d0_1 : S384x8.ReducesTo [0, 1] S_
  bcast_S_S8 : S_.BroadcastsInDim S8 (![] : Fin 0 → Fin S8.rank)
  reducesTo_S8_S_d0 : S8.ReducesTo [0] S_

variable [Facts]

def fn_part2 {F : FTy → Type} [FloatOps F] (main_arg8 : FVec F S384x8 .f32) (main_arg9 : FVec F S8 .f32) (main_v33 : IVec S_ 1) : IVec S_ 1 :=
  let main_v34 : FVec F S384x8 .f32 := Host.absf main_arg8
  let main_cst_12 : FVec F S_ .f32 := constant S_ .f32 0x7F800000#32
  let main_v35 : FVec F S384x8 .f32 := broadcastInDim S384x8 ![] bcast_S_S384x8 main_cst_12
  let main_v36 : IVec S384x8 1 := cmpf .olt main_v34 main_v35
  let main_c_13 : IVec S_ 1 := constantI S_ 1 1#1
  let main_v37 : IVec S_ 1 := (fun x v => Host.reduce IntOp.andi x v reducesTo_S384x8_S_d0_1 h_S_) main_v36 main_c_13
  let main_v38 : IVec S_ 1 := andi main_v33 main_v37
  let main_v39 : FVec F S8 .f32 := Host.absf main_arg9
  let main_cst_14 : FVec F S_ .f32 := constant S_ .f32 0x7F800000#32
  let main_v40 : FVec F S8 .f32 := broadcastInDim S8 ![] bcast_S_S8 main_cst_14
  let main_v41 : IVec S8 1 := cmpf .olt main_v39 main_v40
  let main_c_15 : IVec S_ 1 := constantI S_ 1 1#1
  let main_v42 : IVec S_ 1 := (fun x v => Host.reduce IntOp.andi x v reducesTo_S8_S_d0 h_S_) main_v41 main_c_15
  let main_v43 : IVec S_ 1 := andi main_v38 main_v42
  main_v43

def fn_part1 {F : FTy → Type} [FloatOps F] (main_arg5 : FVec F S128 .f32) (main_arg6 : FVec F S128x128 .f32) (main_arg7 : FVec F S128 .f32) (main_arg8 : FVec F S384x8 .f32) (main_arg9 : FVec F S8 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) (main_arg6 : FVec F S128x128 .f32) (main_arg7 : FVec F S128 .f32) (main_arg8 : FVec F S384x8 .f32) (main_arg9 : FVec F S8 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S384x8 : Shape := ⟨2, ![384, 8]⟩
abbrev S8 : Shape := ⟨1, ![8]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S128x8 : Shape := ⟨2, ![128, 8]⟩
abbrev S5000x128 : Shape := ⟨2, ![5000, 128]⟩
abbrev S1700000x128 : Shape := ⟨2, ![1700000, 128]⟩
abbrev S1x128 : Shape := ⟨2, ![1, 128]⟩
abbrev S5000 : Shape := ⟨1, ![5000]⟩
abbrev S5000x1 : Shape := ⟨2, ![5000, 1]⟩
abbrev S100000x8 : Shape := ⟨2, ![100000, 8]⟩
abbrev S5000x8 : Shape := ⟨2, ![5000, 8]⟩
abbrev S1x8 : Shape := ⟨2, ![1, 8]⟩

abbrev nBuf : Space → Nat
  | .hbm => 113
  | .vmem => 38
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S384x8, .f32⟩
  | .hbm, ⟨9, _⟩ => ⟨S8, .f32⟩
  | .hbm, ⟨10, _⟩ => ⟨S100000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S1x1600000, .i32⟩
  | .hbm, ⟨15, _⟩ => ⟨S1600000, .i32⟩
  | .hbm, ⟨16, _⟩ => ⟨S1700000, .i32⟩
  | .hbm, ⟨17, _⟩ => ⟨S_, .f32⟩
  | .hbm, ⟨18, _⟩ => ⟨S1700000, .f32⟩
  | .hbm, ⟨19, _⟩ => ⟨S_, .f32⟩
  | .hbm, ⟨20, _⟩ => ⟨S100000, .f32⟩
  | .hbm, ⟨21, _⟩ => ⟨S1700000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000, .f32⟩
  | .hbm, ⟨40, _⟩ => ⟨S_, .i32⟩
  | .hbm, ⟨41, _⟩ => ⟨S1700000, .i32⟩
  | .hbm, ⟨42, _⟩ => ⟨S1700000, .i1⟩
  | .hbm, ⟨43, _⟩ => ⟨S_, .i32⟩
  | .hbm, ⟨44, _⟩ => ⟨S1700000, .i32⟩
  | .hbm, ⟨45, _⟩ => ⟨S1700000, .i32⟩
  | .hbm, ⟨46, _⟩ => ⟨S1700000, .i32⟩
  | .hbm, ⟨47, _⟩ => ⟨S1700000x1, .i32⟩
  | .hbm, ⟨48, _⟩ => ⟨S1700000, .f32⟩
  | .hbm, ⟨49, _⟩ => ⟨S1700000, .f32⟩
  | .hbm, ⟨50, _⟩ => ⟨S1700000x1, .f32⟩
  | .hbm, ⟨51, _⟩ => ⟨S128x128, .bf16⟩
  | .hbm, ⟨52, _⟩ => ⟨S128x128, .bf16⟩
  | .hbm, ⟨53, _⟩ => ⟨S128x128, .bf16⟩
  | .hbm, ⟨54, _⟩ => ⟨S384x8, .bf16⟩
  | .hbm, ⟨55, _⟩ => ⟨S128x8, .bf16⟩
  | .hbm, ⟨56, _⟩ => ⟨S128x8, .bf16⟩
  | .hbm, ⟨57, _⟩ => ⟨S128x8, .bf16⟩
  | .hbm, ⟨58, _⟩ => ⟨S100000x128, .bf16⟩
  | .hbm, ⟨59, _⟩ => ⟨S_, .i32⟩
  | .hbm, ⟨60, _⟩ => ⟨S1700000, .i32⟩
  | .hbm, ⟨61, _⟩ => ⟨S1700000, .i1⟩
  | .hbm, ⟨62, _⟩ => ⟨S_, .i32⟩
  | .hbm, ⟨63, _⟩ => ⟨S1700000, .i32⟩
  | .hbm, ⟨64, _⟩ => ⟨S1700000, .i32⟩
  | .hbm, ⟨65, _⟩ => ⟨S1700000, .i32⟩
  | .hbm, ⟨66, _⟩ => ⟨S1700000x1, .i32⟩
  | .hbm, ⟨67, _⟩ => ⟨S1700000x128, .bf16⟩
  | .hbm, ⟨68, _⟩ => ⟨S1700000x128, .f32⟩
  | .hbm, ⟨69, _⟩ => ⟨S1700000x128, .f32⟩
  | .hbm, ⟨70, _⟩ => ⟨S1700000x128, .f32⟩
  | .hbm, ⟨71, _⟩ => ⟨S_, .f32⟩
  | .hbm, ⟨72, _⟩ => ⟨S100000x128, .f32⟩
  | .hbm, ⟨73, _⟩ => ⟨S1700000x1, .i32⟩
  | .hbm, ⟨74, _⟩ => ⟨S100000x128, .f32⟩
  | .hbm, ⟨75, _⟩ => ⟨S100000x128, .f32⟩
  | .hbm, ⟨76, _⟩ => ⟨S100000x128, .bf16⟩
  | .hbm, ⟨77, _⟩ => ⟨S_, .i32⟩
  | .hbm, ⟨78, _⟩ => ⟨S1700000, .i32⟩
  | .hbm, ⟨79, _⟩ => ⟨S1700000, .i1⟩
  | .hbm, ⟨80, _⟩ => ⟨S_, .i32⟩
  | .hbm, ⟨81, _⟩ => ⟨S1700000, .i32⟩
  | .hbm, ⟨82, _⟩ => ⟨S1700000, .i32⟩
  | .hbm, ⟨83, _⟩ => ⟨S1700000, .i32⟩
  | .hbm, ⟨84, _⟩ => ⟨S1700000x1, .i32⟩
  | .hbm, ⟨85, _⟩ => ⟨S1700000x128, .bf16⟩
  | .hbm, ⟨86, _⟩ => ⟨S1700000x128, .f32⟩
  | .hbm, ⟨87, _⟩ => ⟨S1700000x128, .f32⟩
  | .hbm, ⟨88, _⟩ => ⟨S1700000x128, .f32⟩
  | .hbm, ⟨89, _⟩ => ⟨S_, .f32⟩
  | .hbm, ⟨90, _⟩ => ⟨S100000x128, .f32⟩
  | .hbm, ⟨91, _⟩ => ⟨S1700000x1, .i32⟩
  | .hbm, ⟨92, _⟩ => ⟨S100000x128, .f32⟩
  | .hbm, ⟨93, _⟩ => ⟨S100000x128, .f32⟩
  | .hbm, ⟨94, _⟩ => ⟨S100000x128, .bf16⟩
  | .hbm, ⟨95, _⟩ => ⟨S_, .i32⟩
  | .hbm, ⟨96, _⟩ => ⟨S1700000, .i32⟩
  | .hbm, ⟨97, _⟩ => ⟨S1700000, .i1⟩
  | .hbm, ⟨98, _⟩ => ⟨S_, .i32⟩
  | .hbm, ⟨99, _⟩ => ⟨S1700000, .i32⟩
  | .hbm, ⟨100, _⟩ => ⟨S1700000, .i32⟩
  | .hbm, ⟨101, _⟩ => ⟨S1700000, .i32⟩
  | .hbm, ⟨102, _⟩ => ⟨S1700000x1, .i32⟩
  | .hbm, ⟨103, _⟩ => ⟨S1700000x128, .bf16⟩
  | .hbm, ⟨104, _⟩ => ⟨S1700000x128, .f32⟩
  | .hbm, ⟨105, _⟩ => ⟨S1700000x128, .f32⟩
  | .hbm, ⟨106, _⟩ => ⟨S1700000x128, .f32⟩
  | .hbm, ⟨107, _⟩ => ⟨S_, .f32⟩
  | .hbm, ⟨108, _⟩ => ⟨S100000x128, .f32⟩
  | .hbm, ⟨109, _⟩ => ⟨S1700000x1, .i32⟩
  | .hbm, ⟨110, _⟩ => ⟨S100000x128, .f32⟩
  | .hbm, ⟨111, _⟩ => ⟨S100000x128, .f32⟩
  | .hbm, ⟨112, _⟩ => ⟨S100000x8, .f32⟩
  | .local _ .vmem, ⟨0, _⟩ => ⟨S5000x128, .f32⟩
  | .local _ .vmem, ⟨1, _⟩ => ⟨S5000x128, .f32⟩
  | .local _ .vmem, ⟨2, _⟩ => ⟨S128x128, .bf16⟩
  | .local _ .vmem, ⟨3, _⟩ => ⟨S5000x128, .bf16⟩
  | .local _ .vmem, ⟨4, _⟩ => ⟨S5000x128, .bf16⟩
  | .local _ .vmem, ⟨5, _⟩ => ⟨S5000x128, .f32⟩
  | .local _ .vmem, ⟨6, _⟩ => ⟨S5000x128, .f32⟩
  | .local _ .vmem, ⟨7, _⟩ => ⟨S128, .f32⟩
  | .local _ .vmem, ⟨8, _⟩ => ⟨S128x128, .bf16⟩
  | .local _ .vmem, ⟨9, _⟩ => ⟨S5000x128, .f32⟩
  | .local _ .vmem, ⟨10, _⟩ => ⟨S5000x128, .f32⟩
  | .local _ .vmem, ⟨11, _⟩ => ⟨S5000x128, .bf16⟩
  | .local _ .vmem, ⟨12, _⟩ => ⟨S5000x128, .bf16⟩
  | .local _ .vmem, ⟨13, _⟩ => ⟨S5000x128, .f32⟩
  | .local _ .vmem, ⟨14, _⟩ => ⟨S5000x128, .f32⟩
  | .local _ .vmem, ⟨15, _⟩ => ⟨S128, .f32⟩
  | .local _ .vmem, ⟨16, _⟩ => ⟨S128x128, .bf16⟩
  | .local _ .vmem, ⟨17, _⟩ => ⟨S5000x128, .f32⟩
  | .local _ .vmem, ⟨18, _⟩ => ⟨S5000x128, .f32⟩
  | .local _ .vmem, ⟨19, _⟩ => ⟨S5000x128, .bf16⟩
  | .local _ .vmem, ⟨20, _⟩ => ⟨S5000x128, .bf16⟩
  | .local _ .vmem, ⟨21, _⟩ => ⟨S5000x128, .f32⟩
  | .local _ .vmem, ⟨22, _⟩ => ⟨S5000x128, .f32⟩
  | .local _ .vmem, ⟨23, _⟩ => ⟨S128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S128x8, .bf16⟩
  | .local _ .vmem, ⟨33, _⟩ => ⟨S128x8, .bf16⟩
  | .local _ .vmem, ⟨34, _⟩ => ⟨S128x8, .bf16⟩
  | .local _ .vmem, ⟨35, _⟩ => ⟨S8, .f32⟩
  | .local _ .vmem, ⟨36, _⟩ => ⟨S5000x8, .f32⟩
  | .local _ .vmem, ⟨37, _⟩ => ⟨S5000x8, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_c_6 : Ref sig .tc := ⟨.hbm, 59, rfl⟩
abbrev main_v39 : Ref sig .tc := ⟨.hbm, 60, rfl⟩
abbrev main_v40 : Ref sig .tc := ⟨.hbm, 61, rfl⟩
abbrev main_c_7 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_8 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52_0 : Ref sig .tc := ⟨.hbm, 75, rfl⟩
abbrev main_v52_1 : Ref sig .tc := ⟨.hbm, 76, rfl⟩
abbrev main_c_9 : Ref sig .tc := ⟨.hbm, 77, rfl⟩
abbrev main_v53 : Ref sig .tc := ⟨.hbm, 78, rfl⟩
abbrev main_v54 : Ref sig .tc := ⟨.hbm, 79, rfl⟩
abbrev main_c_10 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_cst_11 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66_0 : Ref sig .tc := ⟨.hbm, 93, rfl⟩
abbrev main_v66_1 : Ref sig .tc := ⟨.hbm, 94, rfl⟩
abbrev main_c_12 : Ref sig .tc := ⟨.hbm, 95, rfl⟩
abbrev main_v67 : Ref sig .tc := ⟨.hbm, 96, rfl⟩
abbrev main_v68 : Ref sig .tc := ⟨.hbm, 97, rfl⟩
abbrev main_c_13 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_cst_14 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc1_stg4_0 : Ref sig .tc := ⟨.vmem, 11, rfl⟩
abbrev cc1_stg4_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg3_1 : Ref sig .tc := ⟨.vmem, 18, rfl⟩
abbrev cc2_stg4_0 : Ref sig .tc := ⟨.vmem, 19, rfl⟩
abbrev cc2_stg4_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg2_0 : Ref sig .tc := ⟨.vmem, 24, rfl⟩
abbrev cc3_stg2_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg1_1 : Ref sig .tc := ⟨.vmem, 29, rfl⟩
abbrev cc4_stg2_0 : Ref sig .tc := ⟨.vmem, 30, rfl⟩
abbrev cc4_stg2_1 : Ref sig .tc := ⟨.vmem, 31, rfl⟩
abbrev cc4_stg3_0 : Ref sig .tc := ⟨.vmem, 32, rfl⟩
abbrev cc4_stg4_0 : Ref sig .tc := ⟨.vmem, 33, rfl⟩
abbrev cc4_stg5_0 : Ref sig .tc := ⟨.vmem, 34, rfl⟩
abbrev cc4_stg6_0 : Ref sig .tc := ⟨.vmem, 35, rfl⟩
abbrev cc4_stg7_0 : Ref sig .tc := ⟨.vmem, 36, rfl⟩
abbrev cc4_stg7_1 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc1_sem4_0 : DmaSem sig := 11
abbrev cc1_sem4_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem3_0 : DmaSem sig := 17
abbrev cc2_sem3_1 : DmaSem sig := 18
abbrev cc2_sem4_0 : DmaSem sig := 19
abbrev cc2_sem4_1 : DmaSem sig := 20
abbrev cc3_sem0_0 : DmaSem sig := 21
abbrev cc3_sem0_1 : DmaSem sig := 22
abbrev cc3_sem1_0 : DmaSem sig := 23
abbrev cc3_sem2_0 : DmaSem sig := 24
abbrev cc3_sem2_1 : DmaSem sig := 25
abbrev cc4_sem0_0 : DmaSem sig := 26
abbrev cc4_sem0_1 : DmaSem sig := 27
abbrev cc4_sem1_0 : DmaSem sig := 28
abbrev cc4_sem1_1 : DmaSem sig := 29
abbrev cc4_sem2_0 : DmaSem sig := 30
abbrev cc4_sem2_1 : DmaSem sig := 31
abbrev cc4_sem3_0 : DmaSem sig := 32
abbrev cc4_sem4_0 : DmaSem sig := 33
abbrev cc4_sem5_0 : DmaSem sig := 34
abbrev cc4_sem6_0 : DmaSem sig := 35
abbrev cc4_sem7_0 : DmaSem sig := 36
abbrev cc4_sem7_1 : DmaSem sig := 37

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S5000x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x128 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S5000x128 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S128x8 .bf16 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128x8 .bf16 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S128x8 .bf16 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S8 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S5000x8 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bitsLt_bf16_f32 : FTy.bits .bf16 < FTy.bits .f32
  slices_S384x8_S128x8_0_0 : S384x8.Slices ![0, 0] S128x8
  slices_S384x8_S128x8_128_0 : S384x8.Slices ![128, 0] S128x8
  slices_S384x8_S128x8_256_0 : S384x8.Slices ![256, 0] S128x8
  inb_S5000x128_S5000x128_0_0 : ∀ a, (![0, 0] : Fin 2 → Nat) a + S5000x128.size a ≤ S5000x128.size a
  h_S5000x128 : 0 < S5000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  packedbf16_S5000x128_S5000x128_0_0 : (Rect.unit (s := S5000x128) ![0, 0] S5000x128.size inb_S5000x128_S5000x128_0_0).PackedRows (EltTy.packing .bf16)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S5000x128_S5000x128 : S5000x128.ShapeCasts S5000x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  reduces_S5000x128_S5000 : S5000x128.Reduces [1] S5000
  shapeCasts_S5000_S5000x1 : S5000.ShapeCasts S5000x1
  broadcasts_S5000x1_S5000x128 : S5000x1.Broadcasts S5000x128
  inb_S128x8_S128x8_0_0 : ∀ a, (![0, 0] : Fin 2 → Nat) a + S128x8.size a ≤ S128x8.size a
  h_S128x8 : 0 < S128x8.numel
  shapeCasts_S128x8_S128x8 : S128x8.ShapeCasts S128x8
  inb_S8_S8_0 : ∀ a, (![0] : Fin 1 → Nat) a + S8.size a ≤ S8.size a
  h_S8 : 0 < S8.numel
  shapeCasts_S8_S1x8 : S8.ShapeCasts S1x8
  broadcasts_S1x8_S5000x8 : S1x8.Broadcasts S5000x8
  reduces_S5000x8_S5000 : S5000x8.Reduces [1] S5000
  broadcasts_S5000x1_S5000x8 : S5000x1.Broadcasts S5000x8
  inb_S5000x8_S5000x8_0_0 : ∀ a, (![0, 0] : Fin 2 → Nat) a + S5000x8.size a ≤ S5000x8.size a
  h_S5000x8 : 0 < S5000x8.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x8_S5000x8_1_0_0_1_n_n_wf : DotDims.WF S5000x128 S128x8 S5000x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .bf16 = 32 ∨ (Rect.block (s := S100000x128) S5000x128.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128.size a ≤ S128.size a
  hwx1_1 : ∀ i : grid1.Coords, EltTy.bits .f32 = 32 ∨ (Rect.block (s := S128) S128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .bf16 = 32 ∨ (Rect.block (s := S128x128) S128x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .bf16 = 32 ∨ (Rect.block (s := S100000x128) S5000x128.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128.size a ≤ S128.size a
  hwx2_1 : ∀ i : grid2.Coords, EltTy.bits .f32 = 32 ∨ (Rect.block (s := S128) S128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .bf16 = 32 ∨ (Rect.block (s := S128x128) S128x128.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S100000x128.size a
  hwx2_3 : ∀ i : grid2.Coords, EltTy.bits .f32 = 32 ∨ (Rect.block (s := S100000x128) S5000x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x128.size a ≤ S100000x128.size a
  hwx2_4 : ∀ i : grid2.Coords, EltTy.bits .bf16 = 32 ∨ (Rect.block (s := S100000x128) S5000x128.size (cc2_transform_4 i) (hinb2_4 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128.size a ≤ S128.size a
  hwx3_1 : ∀ i : grid3.Coords, EltTy.bits .f32 = 32 ∨ (Rect.block (s := S128) S128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S100000x128.size a
  hwx4_1 : ∀ i : grid4.Coords, EltTy.bits .f32 = 32 ∨ (Rect.block (s := S100000x128) S5000x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S100000x128.size a
  hwx4_2 : ∀ i : grid4.Coords, EltTy.bits .f32 = 32 ∨ (Rect.block (s := S100000x128) S5000x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x8.size a ≤ S128x8.size a
  hwx4_3 : ∀ i : grid4.Coords, EltTy.bits .bf16 = 32 ∨ (Rect.block (s := S128x8) S128x8.size (cc4_transform_3 i) (hinb4_3 i)).WholeWords (EltTy.packing .bf16)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128x8.size a ≤ S128x8.size a
  hwx4_4 : ∀ i : grid4.Coords, EltTy.bits .bf16 = 32 ∨ (Rect.block (s := S128x8) S128x8.size (cc4_transform_4 i) (hinb4_4 i)).WholeWords (EltTy.packing .bf16)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S128x8.size a ≤ S128x8.size a
  hwx4_5 : ∀ i : grid4.Coords, EltTy.bits .bf16 = 32 ∨ (Rect.block (s := S128x8) S128x8.size (cc4_transform_5 i) (hinb4_5 i)).WholeWords (EltTy.packing .bf16)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S8.size a ≤ S8.size a
  hwx4_6 : ∀ i : grid4.Coords, EltTy.bits .f32 = 32 ∨ (Rect.block (s := S8) S8.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S5000x8.size a ≤ S100000x8.size a
  hwx4_7 : ∀ i : grid4.Coords, EltTy.bits .f32 = 32 ∨ (Rect.block (s := S100000x8) S5000x8.size (cc4_transform_7 i) (hinb4_7 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x8_S5000x8_1_0_0_1_n_n : DotDims S5000x128 S128x8 S5000x8 where
  lhsContracting := [1]
  rhsContracting := [0]
  lhsNonContracting := [0]
  rhsNonContracting := [1]
  lhsBatch := []
  rhsBatch := []
  wf := dot_S5000x128_S128x8_S5000x8_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v31) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v38) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v51) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v32) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v52_0) S5000x128.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v52_1) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v65) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v33) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v66_0) S5000x128.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v66_1) S5000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v79) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg7) S128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v80) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v52_0) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v66_0) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v80) S5000x128.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v35) S128x8.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v36) S128x8.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v37) S128x8.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_arg9) S8.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v81) S5000x8.size cc4_transform_7 reads4_7 true false 2 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S384x8 : Shape := ⟨2, ![384, 8]⟩
abbrev S8 : Shape := ⟨1, ![8]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x1 : Shape := ⟨2, ![100000, 1]⟩
abbrev S100000x384 : Shape := ⟨2, ![100000, 384]⟩
abbrev S100000x8 : Shape := ⟨2, ![100000, 8]⟩
abbrev S1x8 : Shape := ⟨2, ![1, 8]⟩

abbrev nBuf : Space → Nat
  | .hbm => 169
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S384x8, .f32⟩
  | 9 => ⟨S8, .f32⟩
  | 10 => ⟨S100000, .i32⟩
  | 11 => ⟨S1x1600000, .i32⟩
  | 12 => ⟨S1600000, .i32⟩
  | 13 => ⟨S1700000, .i32⟩
  | 14 => ⟨S1x1600000, .i32⟩
  | 15 => ⟨S1600000, .i32⟩
  | 16 => ⟨S1700000, .i32⟩
  | 17 => ⟨S_, .f32⟩
  | 18 => ⟨S1700000, .f32⟩
  | 19 => ⟨S_, .f32⟩
  | 20 => ⟨S100000, .f32⟩
  | 21 => ⟨S1700000x1, .i32⟩
  | 22 => ⟨S100000, .f32⟩
  | 23 => ⟨S_, .f32⟩
  | 24 => ⟨S100000, .f32⟩
  | 25 => ⟨S100000, .i1⟩
  | 26 => ⟨S100000, .f32⟩
  | 27 => ⟨S_, .f32⟩
  | 28 => ⟨S_, .f32⟩
  | 29 => ⟨S100000, .f32⟩
  | 30 => ⟨S100000, .f32⟩
  | 31 => ⟨S_, .i32⟩
  | 32 => ⟨S1700000, .i32⟩
  | 33 => ⟨S1700000, .i1⟩
  | 34 => ⟨S_, .i32⟩
  | 35 => ⟨S1700000, .i32⟩
  | 36 => ⟨S1700000, .i32⟩
  | 37 => ⟨S1700000, .i32⟩
  | 38 => ⟨S1700000x1, .i32⟩
  | 39 => ⟨S1700000, .f32⟩
  | 40 => ⟨S_, .i32⟩
  | 41 => ⟨S1700000, .i32⟩
  | 42 => ⟨S1700000, .i1⟩
  | 43 => ⟨S_, .i32⟩
  | 44 => ⟨S1700000, .i32⟩
  | 45 => ⟨S1700000, .i32⟩
  | 46 => ⟨S1700000, .i32⟩
  | 47 => ⟨S1700000x1, .i32⟩
  | 48 => ⟨S1700000, .f32⟩
  | 49 => ⟨S1700000, .f32⟩
  | 50 => ⟨S100000x128, .f32⟩
  | 51 => ⟨S_, .i32⟩
  | 52 => ⟨S1700000, .i32⟩
  | 53 => ⟨S1700000, .i1⟩
  | 54 => ⟨S_, .i32⟩
  | 55 => ⟨S1700000, .i32⟩
  | 56 => ⟨S1700000, .i32⟩
  | 57 => ⟨S1700000, .i32⟩
  | 58 => ⟨S1700000x1, .i32⟩
  | 59 => ⟨S1700000x128, .f32⟩
  | 60 => ⟨S1700000x1, .f32⟩
  | 61 => ⟨S1700000x128, .f32⟩
  | 62 => ⟨S1700000x128, .f32⟩
  | 63 => ⟨S_, .f32⟩
  | 64 => ⟨S100000x128, .f32⟩
  | 65 => ⟨S1700000x1, .i32⟩
  | 66 => ⟨S100000x128, .f32⟩
  | 67 => ⟨S1x128, .f32⟩
  | 68 => ⟨S100000x128, .f32⟩
  | 69 => ⟨S100000x128, .f32⟩
  | 70 => ⟨S_, .f32⟩
  | 71 => ⟨S100000x128, .f32⟩
  | 72 => ⟨S100000x128, .f32⟩
  | 73 => ⟨S100000x128, .f32⟩
  | 74 => ⟨S_, .f32⟩
  | 75 => ⟨S100000, .f32⟩
  | 76 => ⟨S100000x1, .f32⟩
  | 77 => ⟨S100000x1, .f32⟩
  | 78 => ⟨S_, .f32⟩
  | 79 => ⟨S100000x1, .f32⟩
  | 80 => ⟨S100000x1, .f32⟩
  | 81 => ⟨S100000x128, .f32⟩
  | 82 => ⟨S100000x128, .f32⟩
  | 83 => ⟨S100000x128, .f32⟩
  | 84 => ⟨S_, .i32⟩
  | 85 => ⟨S1700000, .i32⟩
  | 86 => ⟨S1700000, .i1⟩
  | 87 => ⟨S_, .i32⟩
  | 88 => ⟨S1700000, .i32⟩
  | 89 => ⟨S1700000, .i32⟩
  | 90 => ⟨S1700000, .i32⟩
  | 91 => ⟨S1700000x1, .i32⟩
  | 92 => ⟨S1700000x128, .f32⟩
  | 93 => ⟨S1700000x1, .f32⟩
  | 94 => ⟨S1700000x128, .f32⟩
  | 95 => ⟨S1700000x128, .f32⟩
  | 96 => ⟨S_, .f32⟩
  | 97 => ⟨S100000x128, .f32⟩
  | 98 => ⟨S1700000x1, .i32⟩
  | 99 => ⟨S100000x128, .f32⟩
  | 100 => ⟨S1x128, .f32⟩
  | 101 => ⟨S100000x128, .f32⟩
  | 102 => ⟨S100000x128, .f32⟩
  | 103 => ⟨S_, .f32⟩
  | 104 => ⟨S100000x128, .f32⟩
  | 105 => ⟨S100000x128, .f32⟩
  | 106 => ⟨S100000x128, .f32⟩
  | 107 => ⟨S_, .f32⟩
  | 108 => ⟨S100000, .f32⟩
  | 109 => ⟨S100000x1, .f32⟩
  | 110 => ⟨S100000x1, .f32⟩
  | 111 => ⟨S_, .f32⟩
  | 112 => ⟨S100000x1, .f32⟩
  | 113 => ⟨S100000x1, .f32⟩
  | 114 => ⟨S100000x128, .f32⟩
  | 115 => ⟨S100000x128, .f32⟩
  | 116 => ⟨S100000x128, .f32⟩
  | 117 => ⟨S_, .i32⟩
  | 118 => ⟨S1700000, .i32⟩
  | 119 => ⟨S1700000, .i1⟩
  | 120 => ⟨S_, .i32⟩
  | 121 => ⟨S1700000, .i32⟩
  | 122 => ⟨S1700000, .i32⟩
  | 123 => ⟨S1700000, .i32⟩
  | 124 => ⟨S1700000x1, .i32⟩
  | 125 => ⟨S1700000x128, .f32⟩
  | 126 => ⟨S1700000x1, .f32⟩
  | 127 => ⟨S1700000x128, .f32⟩
  | _ => ⟨S100000x128, .f32⟩

abbrev hbmTy0_1 (i : Nat) : BufTy := match i % 128 with
  | 0 => ⟨S1700000x128, .f32⟩
  | 1 => ⟨S_, .f32⟩
  | 2 => ⟨S100000x128, .f32⟩
  | 3 => ⟨S1700000x1, .i32⟩
  | 4 => ⟨S100000x128, .f32⟩
  | 5 => ⟨S1x128, .f32⟩
  | 6 => ⟨S100000x128, .f32⟩
  | 7 => ⟨S100000x128, .f32⟩
  | 8 => ⟨S_, .f32⟩
  | 9 => ⟨S100000x128, .f32⟩
  | 10 => ⟨S100000x128, .f32⟩
  | 11 => ⟨S100000x128, .f32⟩
  | 12 => ⟨S_, .f32⟩
  | 13 => ⟨S100000, .f32⟩
  | 14 => ⟨S100000x1, .f32⟩
  | 15 => ⟨S100000x1, .f32⟩
  | 16 => ⟨S_, .f32⟩
  | 17 => ⟨S100000x1, .f32⟩
  | 18 => ⟨S100000x1, .f32⟩
  | 19 => ⟨S100000x128, .f32⟩
  | 20 => ⟨S100000x128, .f32⟩
  | 21 => ⟨S100000x384, .f32⟩
  | 22 => ⟨S100000x8, .f32⟩
  | 23 => ⟨S1x8, .f32⟩
  | 24 => ⟨S100000x8, .f32⟩
  | 25 => ⟨S100000x8, .f32⟩
  | 26 => ⟨S_, .f32⟩
  | 27 => ⟨S100000, .f32⟩
  | 28 => ⟨S_, .f32⟩
  | 29 => ⟨S100000, .f32⟩
  | 30 => ⟨S100000, .f32⟩
  | 31 => ⟨S100000x1, .f32⟩
  | 32 => ⟨S100000x8, .f32⟩
  | 33 => ⟨S100000x8, .f32⟩
  | 34 => ⟨S100000x8, .f32⟩
  | 35 => ⟨S_, .f32⟩
  | 36 => ⟨S100000, .f32⟩
  | 37 => ⟨S100000x1, .f32⟩
  | 38 => ⟨S100000x1, .f32⟩
  | 39 => ⟨S100000x8, .f32⟩
  | 40 => ⟨S100000x8, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_call1_cst : Ref sig .tc := ⟨.hbm, 70, rfl⟩
abbrev main_call1_v0 : Ref sig .tc := ⟨.hbm, 71, rfl⟩
abbrev main_v47 : Ref sig .tc := ⟨.hbm, 72, rfl⟩
abbrev main_v48 : Ref sig .tc := ⟨.hbm, 73, rfl⟩
abbrev main_cst_9 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_cst_10 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_c_11 : Ref sig .tc := ⟨.hbm, 84, rfl⟩
abbrev main_v57 : Ref sig .tc := ⟨.hbm, 85, rfl⟩
abbrev main_v58 : Ref sig .tc := ⟨.hbm, 86, rfl⟩
abbrev main_c_12 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_cst_13 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_call2_cst : Ref sig .tc := ⟨.hbm, 103, rfl⟩
abbrev main_call2_v0 : Ref sig .tc := ⟨.hbm, 104, rfl⟩
abbrev main_v73 : Ref sig .tc := ⟨.hbm, 105, rfl⟩
abbrev main_v74 : Ref sig .tc := ⟨.hbm, 106, rfl⟩
abbrev main_cst_14 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_cst_15 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_c_16 : Ref sig .tc := ⟨.hbm, 117, rfl⟩
abbrev main_v83 : Ref sig .tc := ⟨.hbm, 118, rfl⟩
abbrev main_v84 : Ref sig .tc := ⟨.hbm, 119, rfl⟩
abbrev main_c_17 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_cst_18 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_call3_cst : Ref sig .tc := ⟨.hbm, 136, rfl⟩
abbrev main_call3_v0 : Ref sig .tc := ⟨.hbm, 137, rfl⟩
abbrev main_v99 : Ref sig .tc := ⟨.hbm, 138, rfl⟩
abbrev main_v100 : Ref sig .tc := ⟨.hbm, 139, rfl⟩
abbrev main_cst_19 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_cst_20 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_call4_cst : Ref sig .tc := ⟨.hbm, 154, rfl⟩
abbrev main_call4_v0 : Ref sig .tc := ⟨.hbm, 155, rfl⟩
abbrev main_call4_cst_0 : Ref sig .tc := ⟨.hbm, 156, rfl⟩
abbrev main_call4_v1 : Ref sig .tc := ⟨.hbm, 157, rfl⟩
abbrev main_call4_v2 : Ref sig .tc := ⟨.hbm, 158, rfl⟩
abbrev main_call4_v3 : Ref sig .tc := ⟨.hbm, 159, rfl⟩
abbrev main_call4_v4 : Ref sig .tc := ⟨.hbm, 160, rfl⟩
abbrev main_call4_v5 : Ref sig .tc := ⟨.hbm, 161, rfl⟩
abbrev main_call4_v6 : Ref sig .tc := ⟨.hbm, 162, rfl⟩
abbrev main_call4_cst_1 : Ref sig .tc := ⟨.hbm, 163, rfl⟩
abbrev main_call4_v7 : Ref sig .tc := ⟨.hbm, 164, rfl⟩
abbrev main_call4_v8 : Ref sig .tc := ⟨.hbm, 165, rfl⟩
abbrev main_call4_v9 : Ref sig .tc := ⟨.hbm, 166, rfl⟩
abbrev main_call4_v10 : Ref sig .tc := ⟨.hbm, 167, rfl⟩
abbrev main_v113 : Ref sig .tc := ⟨.hbm, 168, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S100000_d1 : S100000x128.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  concatenates_S100000x128_S100000x128_S100000x128_S100000x384_d1 : Shape.Concatenates [S100000x128, S100000x128, S100000x128] S100000x384 1
  bcast_S8_S1x8_1 : S8.BroadcastsInDim S1x8 (![1] : Fin 1 → Fin S1x8.rank)
  bcast_S1x8_S100000x8_0_1 : S1x8.BroadcastsInDim S100000x8 (![0, 1] : Fin 2 → Fin S100000x8.rank)
  reducesTo_S100000x8_S100000_d1 : S100000x8.ReducesTo [1] S100000
  bcast_S100000x1_S100000x8_0_1 : S100000x1.BroadcastsInDim S100000x8 (![0, 1] : Fin 2 → Fin S100000x8.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x384_S384x8_S100000x8_1_0_0_1_n_n_wf : DotDims.WF S100000x384 S384x8 S100000x8 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x384_S384x8_S100000x8_1_0_0_1_n_n : DotDims S100000x384 S384x8 S100000x8 where
  lhsContracting := [1]
  rhsContracting := [0]
  lhsNonContracting := [0]
  rhsNonContracting := [1]
  lhsBatch := []
  rhsBatch := []
  wf := dot_S100000x384_S384x8_S100000x8_1_0_0_1_n_n_wf

class Facts : Prop extends Facts₀ where

variable [Facts]
-- ==== Proof.KernelRun.lean ====
/-
  The idealized kernel program's run, with the result array named. @main is eleven segments — stretches of host
  operations and five kernel regions — and the buffer contents at each segment boundary form a chain `W0 … W11` from
  the launch memory: a host stretch applies its operations, a region replaces its arrays by what its write-backs leave.
  Every weakly fair execution terminates, nothing faulting, and the final memory holds `W11` at every unscoped buffer:
  so the result buffer ends at `W11` of it, and each argument, which nothing writes, as launched.
-/
import proofs.«112115_j58961311039942_2_alg».proof.Proof.Gen.KernelIdeal.Frame

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of @main terminates, nothing faulting; the result
    buffer ends at the last boundary's contents of it, and the ten argument arrays end as launched. -/
theorem run_named : θ_run defs (onTc (τ := τ) (main (F := F))) ⟨m, fun _ => 0, ρ⟩ (fun r => ∀ c : Dev nD,
      r.2.mem ((c.tc : Thread nD τ).loc main_v81) = W11 m ρ c (Proc.devRef .tc main_v81)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v81 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c),
       (h c _ (mem_uc main_arg9 (by decide))).trans (W11_main_arg9 m ρ c)⟩)

end Cert.KernelIdeal.Val

end
-- ==== Proof.Spec.lean ====
/-
  The mathematics both programs compute, one entry at a time, on the extended reals.

  A node matrix is an array [n, d]; a layer sends the aggregated features `a` and a bias `b` to the row-normalised
  activation  act(a,b)[p,q] / max(sqrt(sum_j act(a,b)[p,j]^2), eps)  with  act(a,b)[p,j] = max(a[p,j] + b[j], 0),
  and a dense transform sends `x` and `w` to  sum_k x[p,k] * w[k,q].  The last stage adds three dense transforms
  (one per layer's output, against three row blocks of one 384 x 8 matrix) and a bias, and takes the logarithm of the
  row's softmax:  (z[q] - max z) - log (sum_r exp (z[r] - max z)).
  Nothing here mentions a program: both sides are proved equal to these functions.
-/
import Idealize.ShloMosaic.PureOps.Ideal
import Idealize.ShloMosaic.Lib.ValueIdx

noncomputable section

open scoped BigOperators

namespace Cert.Spec

open Idealize.ShloMosaic Idealize.ShloMosaic.ValueIdx

/-- A matrix of extended reals with `a` rows and `b` columns. -/
abbrev Mat (a b : Nat) := (⟨2, ![a, b]⟩ : Shape).Idx → EReal
/-- A vector of extended reals of length `a`. -/
abbrev Vec1 (a : Nat) := (⟨1, ![a]⟩ : Shape).Idx → EReal

/-- The float zero, as the programs spell it. -/
def zero : EReal := Ideal.ofBits .f32 0x00000000#32
/-- The normalisation floor (the f32 nearest 1e-12), the same word in both programs. -/
def eps : EReal := Ideal.ofBits .f32 0x2B8CBCCC#32
/-- The value a row maximum starts from (the f32 word of minus infinity). -/
def negInf : EReal := Ideal.ofBits .f32 0xFF800000#32

/-- Entry (p, q) of the product x w: the sum over the shared axis. -/
def dense {n d e : Nat} (x : Mat n d) (w : Mat d e) (p : Fin n) (q : Fin e) : EReal :=
  ∑ k : Fin d, x (ix2 p k) * w (ix2 k q)

/-- Entry (p, j) of max(a + b, 0), the bias added along each row. -/
def act {n d : Nat} (a : Mat n d) (b : Vec1 d) (p : Fin n) (j : Fin d) : EReal :=
  max (a (ix2 p j) + b (ix1 j)) zero

/-- The divisor of row p: the Euclidean norm of the activated row, floored at eps. -/
def rowNorm {n d : Nat} (a : Mat n d) (b : Vec1 d) (p : Fin n) : EReal :=
  max (Ideal.sqrt (∑ j : Fin d, act a b p j * act a b p j)) eps

/-- Entry (p, q) of the row-normalised activation. -/
def normed {n d : Nat} (a : Mat n d) (b : Vec1 d) (p : Fin n) (q : Fin d) : EReal :=
  Ideal.div (act a b p q) (rowNorm a b p)

/-- The product as an array. -/
def denseArr {n d e : Nat} (x : Mat n d) (w : Mat d e) : Mat n e := fun i => dense x w (i 0) (i 1)

/-- The row-normalised activation as an array. -/
def normedArr {n d : Nat} (a : Mat n d) (b : Vec1 d) : Mat n d := fun i => normed a b (i 0) (i 1)

/-- Rows off … off+127 of a 384 x 8 matrix, as a 128 x 8 matrix. -/
def rows (w : Mat 384 8) (off : Nat) (h : off + 128 ≤ 384) : Mat 128 8 :=
  fun i => w (ix2 ⟨off + (i 0).val, by have := idx2_lt0 i; omega⟩ ⟨(i 1).val, idx2_lt1 i⟩)

/-- Entry (p, q) of the logits: three products, added left to right, then the bias. -/
def logit {n : Nat} (o1 o2 o3 : Mat n 128) (w1 w2 w3 : Mat 128 8) (b : Vec1 8) (p : Fin n) (q : Fin 8) : EReal :=
  ((dense o1 w1 p q + dense o2 w2 p q) + dense o3 w3 p q) + b (ix1 q)

/-- The largest of eight values, folded from minus infinity. -/
def rowMax (z : Fin 8 → EReal) : EReal := (Finset.univ : Finset (Fin 8)).fold max negInf z

/-- The logarithm of the softmax of eight values, at position q. -/
def logSoftmax (z : Fin 8 → EReal) (q : Fin 8) : EReal :=
  (z q - rowMax z) - Ideal.log (∑ r : Fin 8, Ideal.exp (z r - rowMax z))

/-- Entry (p, q) of the result. -/
def out {n : Nat} (o1 o2 o3 : Mat n 128) (w1 w2 w3 : Mat 128 8) (b : Vec1 8) (p : Fin n) (q : Fin 8) : EReal :=
  logSoftmax (fun r => logit o1 o2 o3 w1 w2 w3 b p r) q

/-- The result as an array. -/
def outArr {n : Nat} (o1 o2 o3 : Mat n 128) (w1 w2 w3 : Mat 128 8) (b : Vec1 8) : Mat n 8 :=
  fun i => out o1 o2 o3 w1 w2 w3 b (i 0) (i 1)

theorem denseArr_ix2 {n d e : Nat} (x : Mat n d) (w : Mat d e) (p : Fin n) (q : Fin e) :
    denseArr x w (ix2 p q) = dense x w p q := rfl
theorem normedArr_ix2 {n d : Nat} (a : Mat n d) (b : Vec1 d) (p : Fin n) (q : Fin d) :
    normedArr a b (ix2 p q) = normed a b p q := rfl
theorem outArr_ix2 {n : Nat} (o1 o2 o3 : Mat n 128) (w1 w2 w3 : Mat 128 8) (b : Vec1 8) (p : Fin n) (q : Fin 8) :
    outArr o1 o2 o3 w1 w2 w3 b (ix2 p q) = out o1 o2 o3 w1 w2 w3 b p q := rfl

end Cert.Spec

end
-- ==== Proof.RefAgg.lean ====
/-
  One round of message passing on the graph, as the reference spells it: every edge (and every node's self loop)
  gathers the row of `h` at its source node, scales it by the edge's weight (the product of the inverse square roots of
  its two end nodes' degrees), and adds it into the row of its target node; rows start from zero. The edge list, the
  weights and the index arithmetic depend on the edge array `x1` alone; `h` is the only float input.
-/
import proofs.«112115_j58961311039942_2_alg».proof.Proof.RefRead
import proofs.«112115_j58961311039942_2_alg».proof.Proof.Spec

noncomputable section

namespace Cert.RefSide

open Cert.ReferenceIdeal Cert.ReferenceIdeal.Read Idealize.ShloMosaic Idealize.ShloMosaic.TcCoe

/-- The aggregated features: scatter-add, into zero rows at the edges' targets, of the rows of `h` gathered at the
    edges' sources and scaled by the edges' weights. -/
def agg (x1 : (⟨S2x1600000, .i32⟩ : BufTy).Contents (Elt Ideal)) (h : (⟨S100000x128, .f32⟩ : BufTy).Contents (Elt Ideal)) :
    (⟨S100000x128, .f32⟩ : BufTy).Contents (Elt Ideal) :=
  Host.scatterAdd (F := Ideal) (φ := .f32) scatter_S100000x128_S1700000x1_S1700000x128_1_0_0_1 (val_main_v41 (F := Ideal)) (val_main_v42 (F := Ideal) x1)
    (mulf (F := Ideal) (φ := .f32) (Host.gather gather_S100000x128_S1700000x1_S1700000x128_1_0_n_n_0_1_1128 h (val_main_v36 (F := Ideal) x1))
      (val_main_v39 (F := Ideal) x1))

/-- The first layer's output: the row-normalised activation of the aggregated dense transform of the node features. -/
def o1 (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) :
    Cert.Spec.Mat 100000 128 :=
  Cert.Spec.normedArr (agg x1 (Cert.Spec.denseArr x0 x2)) x3

/-- The second layer's output, from the first layer's. -/
def o2 (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal)) : Cert.Spec.Mat 100000 128 :=
  Cert.Spec.normedArr (agg x1 (Cert.Spec.denseArr (o1 x0 x1 x2 x3) x4)) x5

/-- The third layer's output, from the second layer's. -/
def o3 (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) :
    Cert.Spec.Mat 100000 128 :=
  Cert.Spec.normedArr (agg x1 (Cert.Spec.denseArr (o2 x0 x1 x2 x3 x4 x5) x6)) x7

end Cert.RefSide

end
-- ==== Proof.HostKeeps.lean ====
/-
  A host stretch changes only the buffers its operations write: any other buffer holds after the stretch what it held
  before. The tactic below proves one such fact for a literal buffer and a literal list of operations, by checking the
  buffer against each operation's result buffer.
-/
import Idealize.ShloMosaic.Lib.StableHlo.Run

namespace Cert.KernelIdeal.Val

open Idealize.ShloMosaic

/-- A buffer that no operation of a host stretch writes keeps its contents across the stretch. -/
macro "host_keeps" ops:ident : tactic => `(tactic| (
  refine StableHlo.after_of_forall_not_mem _ _ (List.forall_iff_forall_mem.mp ?_)
  simp only [$ops:ident, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)))

end Cert.KernelIdeal.Val
-- ==== Proof.HostPrelude.lean ====
/-
  What the host operations of the idealized kernel program compute around the kernel regions, in the reference's own
  terms. Before the first region the program builds, from the edge array alone, the source and target node of every
  edge (with a self loop per node), each node's degree, its inverse square root (zero at degree zero), and the edge
  weight: the product of the two end nodes' inverse root degrees. These are the same operations as the reference's,
  so each buffer holds the reference's stage of the same name, read through the three stretches of host operations.
  Between two regions the program runs one round of message passing on the dense output of the region before:
  gather at the sources, scale by the weights, scatter-add at the targets — the function `Cert.RefSide.agg`.
-/
import proofs.«112115_j58961311039942_2_alg».proof.Proof.Gen.KernelIdeal.Frame
import proofs.«112115_j58961311039942_2_alg».proof.Proof.RefAgg
import proofs.«112115_j58961311039942_2_alg».proof.Proof.HostKeeps

set_option maxRecDepth 16384

noncomputable section

namespace Cert.KernelIdeal.Val

open Cert.KernelIdeal Cert.KernelIdeal.Gen
open Idealize.ShloMosaic Idealize.ShloMosaic.TcCoe Idealize.ShloMosaic.Tactic Idealize.ShloMosaic.StableHlo
open Idealize.SL.Sem
open Idealize.ShloMosaic.Pipeline (Dat Cfg Window)

variable (m : (ℓ : Loc nD τ sig) → Buf (Elt Ideal) ℓ) (ρ : Dev nD → PrngReg)

/-! The typed references of the inlined call are the buffers themselves: their casts are the identity. -/
theorem toBuf_v14 (v : (⟨S100000, .f32⟩ : BufTy).Contents (Elt Ideal)) :
    (TRef.of (sig := sig) (T := ⟨S100000, .f32⟩) main_v14).toBuf v = v := rfl
theorem ofBuf_v12 (v : (⟨S100000, .i1⟩ : BufTy).Contents (Elt Ideal)) :
    (TRef.of (sig := sig) (T := ⟨S100000, .i1⟩) main_v12).ofBuf v = v := rfl
theorem ofBuf_v13 (v : (⟨S100000, .f32⟩ : BufTy).Contents (Elt Ideal)) :
    (TRef.of (sig := sig) (T := ⟨S100000, .f32⟩) main_v13).ofBuf v = v := rfl
theorem ofBuf_cst_2 (v : (⟨S_, .f32⟩ : BufTy).Contents (Elt Ideal)) :
    (TRef.of (sig := sig) (T := ⟨S_, .f32⟩) main_cst_2).ofBuf v = v := rfl
theorem toBuf_call0_v0 (v : (⟨S_, .f32⟩ : BufTy).Contents (Elt Ideal)) :
    (TRef.of (sig := sig) (T := ⟨S_, .f32⟩) main_call0_v0).toBuf v = v := rfl
theorem ofBuf_call0_v0 (v : (⟨S_, .f32⟩ : BufTy).Contents (Elt Ideal)) :
    (TRef.of (sig := sig) (T := ⟨S_, .f32⟩) main_call0_v0).ofBuf v = v := rfl
theorem toBuf_call0_v1 (v : (⟨S100000, .f32⟩ : BufTy).Contents (Elt Ideal)) :
    (TRef.of (sig := sig) (T := ⟨S100000, .f32⟩) main_call0_v1).toBuf v = v := rfl
theorem ofBuf_call0_v1 (v : (⟨S100000, .f32⟩ : BufTy).Contents (Elt Ideal)) :
    (TRef.of (sig := sig) (T := ⟨S100000, .f32⟩) main_call0_v1).ofBuf v = v := rfl

open Cert.ReferenceIdeal.Read in
theorem W1_v3 (c : Dev nD) : W1 m ρ c (Proc.devRef .tc main_v3) = val_main_v3 (F := Ideal) (m ((c : Thread nD τ).loc main_arg1)) := by
  show StableHlo.after hostOps0 (W0 m ρ c) (Proc.devRef .tc main_v3) = _
  after_results_simp
  rfl

open Cert.ReferenceIdeal.Read in
theorem W1_v6 (c : Dev nD) : W1 m ρ c (Proc.devRef .tc main_v6) = val_main_v6 (F := Ideal) (m ((c : Thread nD τ).loc main_arg1)) := by
  show StableHlo.after hostOps0 (W0 m ρ c) (Proc.devRef .tc main_v6) = _
  after_results_simp
  rfl

open Cert.ReferenceIdeal.Read in
theorem W1_v12 (c : Dev nD) : W1 m ρ c (Proc.devRef .tc main_v12) = val_main_v12 (F := Ideal) (m ((c : Thread nD τ).loc main_arg1)) := by
  show StableHlo.after hostOps0 (W0 m ρ c) (Proc.devRef .tc main_v12) = _
  after_results_simp
  rfl

open Cert.ReferenceIdeal.Read in
theorem W1_v13 (c : Dev nD) : W1 m ρ c (Proc.devRef .tc main_v13) = val_main_v13 (F := Ideal) (m ((c : Thread nD τ).loc main_arg1)) := by
  show StableHlo.after hostOps0 (W0 m ρ c) (Proc.devRef .tc main_v13) = _
  after_results_simp
  rfl

open Cert.ReferenceIdeal.Read in
theorem W1_cst_2 (c : Dev nD) : W1 m ρ c (Proc.devRef .tc main_cst_2) = val_main_cst_2 (F := Ideal) := by
  show StableHlo.after hostOps0 (W0 m ρ c) (Proc.devRef .tc main_cst_2) = _
  after_results_simp
  rfl

open Cert.ReferenceIdeal.Read in
theorem W2_v3 (c : Dev nD) : W2 m ρ c (Proc.devRef .tc main_v3) = val_main_v3 (F := Ideal) (m ((c : Thread nD τ).loc main_arg1)) :=
  (show StableHlo.after hostOps0_1 (W1 m ρ c) (Proc.devRef .tc main_v3) = W1 m ρ c (Proc.devRef .tc main_v3) by host_keeps hostOps0_1).trans (W1_v3 m ρ c)

open Cert.ReferenceIdeal.Read in
theorem W2_v6 (c : Dev nD) : W2 m ρ c (Proc.devRef .tc main_v6) = val_main_v6 (F := Ideal) (m ((c : Thread nD τ).loc main_arg1)) :=
  (show StableHlo.after hostOps0_1 (W1 m ρ c) (Proc.devRef .tc main_v6) = W1 m ρ c (Proc.devRef .tc main_v6) by host_keeps hostOps0_1).trans (W1_v6 m ρ c)

open Cert.ReferenceIdeal.Read in
/-- The inverse square root of each node's degree (zero where the degree is not positive). -/
theorem W2_v14 (c : Dev nD) : W2 m ρ c (Proc.devRef .tc main_v14) = val_main_v14 (F := Ideal) (m ((c : Thread nD τ).loc main_arg1)) := by
  show StableHlo.after hostOps0_1 (W1 m ρ c) (Proc.devRef .tc main_v14) = _
  have h12 := W1_v12 m ρ c
  have h13 := W1_v13 m ρ c
  have h0 := W1_cst_2 m ρ c
  generalize W1 m ρ c = X at h12 h13 h0 ⊢
  after_results_simp
  rw [h12, h13, h0]
  rw [toBuf_v14, ofBuf_v12, ofBuf_v13, ofBuf_call0_v1, toBuf_call0_v1, ofBuf_call0_v0, toBuf_call0_v0, ofBuf_cst_2]
  rfl

open Cert.ReferenceIdeal.Read in
theorem W3_v3 (c : Dev nD) : W3 m ρ c (Proc.devRef .tc main_v3) = val_main_v3 (F := Ideal) (m ((c : Thread nD τ).loc main_arg1)) :=
  (show StableHlo.after hostOps0_2 (W2 m ρ c) (Proc.devRef .tc main_v3) = W2 m ρ c (Proc.devRef .tc main_v3) by host_keeps hostOps0_2).trans (W2_v3 m ρ c)

open Cert.ReferenceIdeal.Read in
theorem W3_v6 (c : Dev nD) : W3 m ρ c (Proc.devRef .tc main_v6) = val_main_v6 (F := Ideal) (m ((c : Thread nD τ).loc main_arg1)) :=
  (show StableHlo.after hostOps0_2 (W2 m ρ c) (Proc.devRef .tc main_v6) = W2 m ρ c (Proc.devRef .tc main_v6) by host_keeps hostOps0_2).trans (W2_v6 m ρ c)

open Cert.ReferenceIdeal.Read in
/-- The edge weights as a column: the product of the two end nodes' inverse root degrees. -/
theorem W3_v30 (c : Dev nD) : W3 m ρ c (Proc.devRef .tc main_v30) = val_main_v38 (F := Ideal) (m ((c : Thread nD τ).loc main_arg1)) := by
  show StableHlo.after hostOps0_2 (W2 m ρ c) (Proc.devRef .tc main_v30) = _
  have h3 := W2_v3 m ρ c
  have h6 := W2_v6 m ρ c
  have h14 := W2_v14 m ρ c
  generalize W2 m ρ c = X at h3 h6 h14 ⊢
  after_results_simp
  rw [h3, h6, h14]
  rfl

open Cert.ReferenceIdeal.Read in
theorem W4_v3 (c : Dev nD) : W4 m ρ c (Proc.devRef .tc main_v3) = val_main_v3 (F := Ideal) (m ((c : Thread nD τ).loc main_arg1)) :=
  (W4_of_ne m ρ c main_v3 (by decide)).trans (W3_v3 m ρ c)
open Cert.ReferenceIdeal.Read in
theorem W6_v3 (c : Dev nD) : W6 m ρ c (Proc.devRef .tc main_v3) = val_main_v3 (F := Ideal) (m ((c : Thread nD τ).loc main_arg1)) :=
  (W6_of_ne m ρ c main_v3 (by decide)).trans
    ((show StableHlo.after hostOps1 (W4 m ρ c) (Proc.devRef .tc main_v3) = W4 m ρ c (Proc.devRef .tc main_v3) by host_keeps hostOps1).trans (W4_v3 m ρ c))
open Cert.ReferenceIdeal.Read in
theorem W8_v3 (c : Dev nD) : W8 m ρ c (Proc.devRef .tc main_v3) = val_main_v3 (F := Ideal) (m ((c : Thread nD τ).loc main_arg1)) :=
  (W8_of_ne m ρ c main_v3 (by decide)).trans
    ((show StableHlo.after hostOps2 (W6 m ρ c) (Proc.devRef .tc main_v3) = W6 m ρ c (Proc.devRef .tc main_v3) by host_keeps hostOps2).trans (W6_v3 m ρ c))

open Cert.ReferenceIdeal.Read in
theorem W4_v6 (c : Dev nD) : W4 m ρ c (Proc.devRef .tc main_v6) = val_main_v6 (F := Ideal) (m ((c : Thread nD τ).loc main_arg1)) :=
  (W4_of_ne m ρ c main_v6 (by decide)).trans (W3_v6 m ρ c)
open Cert.ReferenceIdeal.Read in
theorem W6_v6 (c : Dev nD) : W6 m ρ c (Proc.devRef .tc main_v6) = val_main_v6 (F := Ideal) (m ((c : Thread nD τ).loc main_arg1)) :=
  (W6_of_ne m ρ c main_v6 (by decide)).trans
    ((show StableHlo.after hostOps1 (W4 m ρ c) (Proc.devRef .tc main_v6) = W4 m ρ c (Proc.devRef .tc main_v6) by host_keeps hostOps1).trans (W4_v6 m ρ c))
open Cert.ReferenceIdeal.Read in
theorem W8_v6 (c : Dev nD) : W8 m ρ c (Proc.devRef .tc main_v6) = val_main_v6 (F := Ideal) (m ((c : Thread nD τ).loc main_arg1)) :=
  (W8_of_ne m ρ c main_v6 (by decide)).trans
    ((show StableHlo.after hostOps2 (W6 m ρ c) (Proc.devRef .tc main_v6) = W6 m ρ c (Proc.devRef .tc main_v6) by host_keeps hostOps2).trans (W6_v6 m ρ c))

open Cert.ReferenceIdeal.Read in
theorem W4_v30 (c : Dev nD) : W4 m ρ c (Proc.devRef .tc main_v30) = val_main_v38 (F := Ideal) (m ((c : Thread nD τ).loc main_arg1)) :=
  (W4_of_ne m ρ c main_v30 (by decide)).trans (W3_v30 m ρ c)
open Cert.ReferenceIdeal.Read in
theorem W6_v30 (c : Dev nD) : W6 m ρ c (Proc.devRef .tc main_v30) = val_main_v38 (F := Ideal) (m ((c : Thread nD τ).loc main_arg1)) :=
  (W6_of_ne m ρ c main_v30 (by decide)).trans
    ((show StableHlo.after hostOps1 (W4 m ρ c) (Proc.devRef .tc main_v30) = W4 m ρ c (Proc.devRef .tc main_v30) by host_keeps hostOps1).trans (W4_v30 m ρ c))
open Cert.ReferenceIdeal.Read in
theorem W8_v30 (c : Dev nD) : W8 m ρ c (Proc.devRef .tc main_v30) = val_main_v38 (F := Ideal) (m ((c : Thread nD τ).loc main_arg1)) :=
  (W8_of_ne m ρ c main_v30 (by decide)).trans
    ((show StableHlo.after hostOps2 (W6 m ρ c) (Proc.devRef .tc main_v30) = W6 m ρ c (Proc.devRef .tc main_v30) by host_keeps hostOps2).trans (W6_v30 m ρ c))

/-- The host stretch between two regions is one round of message passing applied to the dense output before it. -/
theorem W5_v51 (c : Dev nD) : W5 m ρ c (Proc.devRef .tc main_v51)
    = Cert.RefSide.agg (m ((c : Thread nD τ).loc main_arg1)) (W4 m ρ c (Proc.devRef .tc main_v38)) := by
  show StableHlo.after hostOps1 (W4 m ρ c) (Proc.devRef .tc main_v51) = _
  after_results_simp
  rw [W4_v3 m ρ c, W4_v6 m ρ c, W4_v30 m ρ c]
  rfl

/-- The host stretch between two regions is one round of message passing applied to the dense output before it. -/
theorem W7_v65 (c : Dev nD) : W7 m ρ c (Proc.devRef .tc main_v65)
    = Cert.RefSide.agg (m ((c : Thread nD τ).loc main_arg1)) (W6 m ρ c (Proc.devRef .tc main_v52_1)) := by
  show StableHlo.after hostOps2 (W6 m ρ c) (Proc.devRef .tc main_v65) = _
  after_results_simp
  rw [W6_v3 m ρ c, W6_v6 m ρ c, W6_v30 m ρ c]
  rfl

/-- The host stretch between two regions is one round of message passing applied to the dense output before it. -/
theorem W9_v79 (c : Dev nD) : W9 m ρ c (Proc.devRef .tc main_v79)
    = Cert.RefSide.agg (m ((c : Thread nD τ).loc main_arg1)) (W8 m ρ c (Proc.devRef .tc main_v66_1)) := by
  show StableHlo.after hostOps3 (W8 m ρ c) (Proc.devRef .tc main_v79) = _
  after_results_simp
  rw [W8_v3 m ρ c, W8_v6 m ρ c, W8_v30 m ρ c]
  rfl

end Cert.KernelIdeal.Val

end
-- ==== Proof.HostCarry.lean ====
/-
  Buffers carried unchanged to where a kernel region reads them. A bias vector is an argument of the program and no
  operation writes it; a weight matrix is handed to its region as the argument itself (the change of float format is
  the identity on the extended reals), the last weight as three blocks of 128 rows; a layer's output, written by one
  region, is read again by the last one. Each fact walks the chain of segment boundaries back to where the buffer
  was written: a region leaves every buffer that is not one of its arrays as it found it, a host stretch every buffer
  that none of its operations writes.
-/
import proofs.«112115_j58961311039942_2_alg».proof.Proof.Gen.KernelIdeal.Frame
import proofs.«112115_j58961311039942_2_alg».proof.Proof.Spec
import proofs.«112115_j58961311039942_2_alg».proof.Proof.HostKeeps
import Idealize.ShloMosaic.Lib.Pipeline.Value
import Idealize.ShloMosaic.Lib.ValueIdx

set_option maxRecDepth 16384

noncomputable section

namespace Cert.KernelIdeal.Val

open Cert.KernelIdeal Cert.KernelIdeal.Gen
open Idealize.ShloMosaic Idealize.ShloMosaic.TcCoe Idealize.ShloMosaic.Tactic Idealize.ShloMosaic.StableHlo
open Idealize.SL.Sem
open Idealize.ShloMosaic.Pipeline (Dat Cfg Window)

variable (m : (ℓ : Loc nD τ sig) → Buf (Elt Ideal) ℓ) (ρ : Dev nD → PrngReg)

theorem W3_arg0_from0 (c : Dev nD) : W3 m ρ c (Proc.devRef .tc main_arg0) = W0 m ρ c (Proc.devRef .tc main_arg0) :=
  (show StableHlo.after hostOps0_2 (W2 m ρ c) (Proc.devRef .tc main_arg0) = W2 m ρ c (Proc.devRef .tc main_arg0) by host_keeps hostOps0_2).trans
    ((show StableHlo.after hostOps0_1 (W1 m ρ c) (Proc.devRef .tc main_arg0) = W1 m ρ c (Proc.devRef .tc main_arg0) by host_keeps hostOps0_1).trans
    ((show StableHlo.after hostOps0 (W0 m ρ c) (Proc.devRef .tc main_arg0) = W0 m ρ c (Proc.devRef .tc main_arg0) by host_keeps hostOps0)))

theorem W3_arg0 (c : Dev nD) : W3 m ρ c (Proc.devRef .tc main_arg0) = (m ((c : Thread nD τ).loc main_arg0)) :=
  (W3_arg0_from0 m ρ c).trans rfl

theorem W2_arg2_from0 (c : Dev nD) : W2 m ρ c (Proc.devRef .tc main_arg2) = W0 m ρ c (Proc.devRef .tc main_arg2) :=
  (show StableHlo.after hostOps0_1 (W1 m ρ c) (Proc.devRef .tc main_arg2) = W1 m ρ c (Proc.devRef .tc main_arg2) by host_keeps hostOps0_1).trans
    ((show StableHlo.after hostOps0 (W0 m ρ c) (Proc.devRef .tc main_arg2) = W0 m ρ c (Proc.devRef .tc main_arg2) by host_keeps hostOps0))

theorem W2_arg2 (c : Dev nD) : W2 m ρ c (Proc.devRef .tc main_arg2) = (m ((c : Thread nD τ).loc main_arg2)) :=
  (W2_arg2_from0 m ρ c).trans rfl

theorem W2_arg4_from0 (c : Dev nD) : W2 m ρ c (Proc.devRef .tc main_arg4) = W0 m ρ c (Proc.devRef .tc main_arg4) :=
  (show StableHlo.after hostOps0_1 (W1 m ρ c) (Proc.devRef .tc main_arg4) = W1 m ρ c (Proc.devRef .tc main_arg4) by host_keeps hostOps0_1).trans
    ((show StableHlo.after hostOps0 (W0 m ρ c) (Proc.devRef .tc main_arg4) = W0 m ρ c (Proc.devRef .tc main_arg4) by host_keeps hostOps0))

theorem W2_arg4 (c : Dev nD) : W2 m ρ c (Proc.devRef .tc main_arg4) = (m ((c : Thread nD τ).loc main_arg4)) :=
  (W2_arg4_from0 m ρ c).trans rfl

theorem W2_arg6_from0 (c : Dev nD) : W2 m ρ c (Proc.devRef .tc main_arg6) = W0 m ρ c (Proc.devRef .tc main_arg6) :=
  (show StableHlo.after hostOps0_1 (W1 m ρ c) (Proc.devRef .tc main_arg6) = W1 m ρ c (Proc.devRef .tc main_arg6) by host_keeps hostOps0_1).trans
    ((show StableHlo.after hostOps0 (W0 m ρ c) (Proc.devRef .tc main_arg6) = W0 m ρ c (Proc.devRef .tc main_arg6) by host_keeps hostOps0))

theorem W2_arg6 (c : Dev nD) : W2 m ρ c (Proc.devRef .tc main_arg6) = (m ((c : Thread nD τ).loc main_arg6)) :=
  (W2_arg6_from0 m ρ c).trans rfl

theorem W2_arg8_from0 (c : Dev nD) : W2 m ρ c (Proc.devRef .tc main_arg8) = W0 m ρ c (Proc.devRef .tc main_arg8) :=
  (show StableHlo.after hostOps0_1 (W1 m ρ c) (Proc.devRef .tc main_arg8) = W1 m ρ c (Proc.devRef .tc main_arg8) by host_keeps hostOps0_1).trans
    ((show StableHlo.after hostOps0 (W0 m ρ c) (Proc.devRef .tc main_arg8) = W0 m ρ c (Proc.devRef .tc main_arg8) by host_keeps hostOps0))

theorem W2_arg8 (c : Dev nD) : W2 m ρ c (Proc.devRef .tc main_arg8) = (m ((c : Thread nD τ).loc main_arg8)) :=
  (W2_arg8_from0 m ρ c).trans rfl

/-- A weight handed to a kernel is the argument itself: the change of float format is the identity. -/
theorem W3_v31 (c : Dev nD) : W3 m ρ c (Proc.devRef .tc main_v31) = (m ((c : Thread nD τ).loc main_arg2)) := by
  show StableHlo.after hostOps0_2 (W2 m ρ c) (Proc.devRef .tc main_v31) = _
  have h := W2_arg2 m ρ c
  generalize W2 m ρ c = X at h ⊢
  after_results_simp
  rw [h]
  rfl

/-- A weight handed to a kernel is the argument itself: the change of float format is the identity. -/
theorem W3_v32 (c : Dev nD) : W3 m ρ c (Proc.devRef .tc main_v32) = (m ((c : Thread nD τ).loc main_arg4)) := by
  show StableHlo.after hostOps0_2 (W2 m ρ c) (Proc.devRef .tc main_v32) = _
  have h := W2_arg4 m ρ c
  generalize W2 m ρ c = X at h ⊢
  after_results_simp
  rw [h]
  rfl

/-- A weight handed to a kernel is the argument itself: the change of float format is the identity. -/
theorem W3_v33 (c : Dev nD) : W3 m ρ c (Proc.devRef .tc main_v33) = (m ((c : Thread nD τ).loc main_arg6)) := by
  show StableHlo.after hostOps0_2 (W2 m ρ c) (Proc.devRef .tc main_v33) = _
  have h := W2_arg6 m ρ c
  generalize W2 m ρ c = X at h ⊢
  after_results_simp
  rw [h]
  rfl

/-- Rows 0 … 127 of the last weight, as the final kernel receives them. -/
theorem W3_v35 (c : Dev nD) : W3 m ρ c (Proc.devRef .tc main_v35) = Cert.Spec.rows (m ((c : Thread nD τ).loc main_arg8)) 0 (by omega) := by
  show StableHlo.after hostOps0_2 (W2 m ρ c) (Proc.devRef .tc main_v35) = _
  have h := W2_arg8 m ρ c
  generalize W2 m ρ c = X at h ⊢
  after_results_simp
  rw [h]
  funext i
  exact extractStridedSlice_apply ![0, 0] _ slices_S384x8_S128x8_0_0 i
    (ValueIdx.ix2 ⟨0 + (i 0).val, by have := ValueIdx.idx2_lt0 i; omega⟩ ⟨(i 1).val, ValueIdx.idx2_lt1 i⟩)
    (fun a => match a with
      | ⟨0, _⟩ => by show 0 + (i 0).val = 0 + (i 0).val; rfl
      | ⟨1, _⟩ => by show (i 1).val = 0 + (i 1).val; omega)

/-- Rows 128 … 255 of the last weight, as the final kernel receives them. -/
theorem W3_v36 (c : Dev nD) : W3 m ρ c (Proc.devRef .tc main_v36) = Cert.Spec.rows (m ((c : Thread nD τ).loc main_arg8)) 128 (by omega) := by
  show StableHlo.after hostOps0_2 (W2 m ρ c) (Proc.devRef .tc main_v36) = _
  have h := W2_arg8 m ρ c
  generalize W2 m ρ c = X at h ⊢
  after_results_simp
  rw [h]
  funext i
  exact extractStridedSlice_apply ![128, 0] _ slices_S384x8_S128x8_128_0 i
    (ValueIdx.ix2 ⟨128 + (i 0).val, by have := ValueIdx.idx2_lt0 i; omega⟩ ⟨(i 1).val, ValueIdx.idx2_lt1 i⟩)
    (fun a => match a with
      | ⟨0, _⟩ => by show 128 + (i 0).val = 128 + (i 0).val; rfl
      | ⟨1, _⟩ => by show (i 1).val = 0 + (i 1).val; omega)

/-- Rows 256 … 383 of the last weight, as the final kernel receives them. -/
theorem W3_v37 (c : Dev nD) : W3 m ρ c (Proc.devRef .tc main_v37) = Cert.Spec.rows (m ((c : Thread nD τ).loc main_arg8)) 256 (by omega) := by
  show StableHlo.after hostOps0_2 (W2 m ρ c) (Proc.devRef .tc main_v37) = _
  have h := W2_arg8 m ρ c
  generalize W2 m ρ c = X at h ⊢
  after_results_simp
  rw [h]
  funext i
  exact extractStridedSlice_apply ![256, 0] _ slices_S384x8_S128x8_256_0 i
    (ValueIdx.ix2 ⟨256 + (i 0).val, by have := ValueIdx.idx2_lt0 i; omega⟩ ⟨(i 1).val, ValueIdx.idx2_lt1 i⟩)
    (fun a => match a with
      | ⟨0, _⟩ => by show 256 + (i 0).val = 256 + (i 0).val; rfl
      | ⟨1, _⟩ => by show (i 1).val = 0 + (i 1).val; omega)

theorem W5_arg3_from0 (c : Dev nD) : W5 m ρ c (Proc.devRef .tc main_arg3) = W0 m ρ c (Proc.devRef .tc main_arg3) :=
  (show StableHlo.after hostOps1 (W4 m ρ c) (Proc.devRef .tc main_arg3) = W4 m ρ c (Proc.devRef .tc main_arg3) by host_keeps hostOps1).trans
    ((W4_of_ne m ρ c main_arg3 (by decide)).trans
    ((show StableHlo.after hostOps0_2 (W2 m ρ c) (Proc.devRef .tc main_arg3) = W2 m ρ c (Proc.devRef .tc main_arg3) by host_keeps hostOps0_2).trans
    ((show StableHlo.after hostOps0_1 (W1 m ρ c) (Proc.devRef .tc main_arg3) = W1 m ρ c (Proc.devRef .tc main_arg3) by host_keeps hostOps0_1).trans
    ((show StableHlo.after hostOps0 (W0 m ρ c) (Proc.devRef .tc main_arg3) = W0 m ρ c (Proc.devRef .tc main_arg3) by host_keeps hostOps0)))))

theorem W5_arg3 (c : Dev nD) : W5 m ρ c (Proc.devRef .tc main_arg3) = (m ((c : Thread nD τ).loc main_arg3)) :=
  (W5_arg3_from0 m ρ c).trans rfl

theorem W5_v32_from3 (c : Dev nD) : W5 m ρ c (Proc.devRef .tc main_v32) = W3 m ρ c (Proc.devRef .tc main_v32) :=
  (show StableHlo.after hostOps1 (W4 m ρ c) (Proc.devRef .tc main_v32) = W4 m ρ c (Proc.devRef .tc main_v32) by host_keeps hostOps1).trans
    ((W4_of_ne m ρ c main_v32 (by decide)))

theorem W7_arg5_from0 (c : Dev nD) : W7 m ρ c (Proc.devRef .tc main_arg5) = W0 m ρ c (Proc.devRef .tc main_arg5) :=
  (show StableHlo.after hostOps2 (W6 m ρ c) (Proc.devRef .tc main_arg5) = W6 m ρ c (Proc.devRef .tc main_arg5) by host_keeps hostOps2).trans
    ((W6_of_ne m ρ c main_arg5 (by decide)).trans
    ((show StableHlo.after hostOps1 (W4 m ρ c) (Proc.devRef .tc main_arg5) = W4 m ρ c (Proc.devRef .tc main_arg5) by host_keeps hostOps1).trans
    ((W4_of_ne m ρ c main_arg5 (by decide)).trans
    ((show StableHlo.after hostOps0_2 (W2 m ρ c) (Proc.devRef .tc main_arg5) = W2 m ρ c (Proc.devRef .tc main_arg5) by host_keeps hostOps0_2).trans
    ((show StableHlo.after hostOps0_1 (W1 m ρ c) (Proc.devRef .tc main_arg5) = W1 m ρ c (Proc.devRef .tc main_arg5) by host_keeps hostOps0_1).trans
    ((show StableHlo.after hostOps0 (W0 m ρ c) (Proc.devRef .tc main_arg5) = W0 m ρ c (Proc.devRef .tc main_arg5) by host_keeps hostOps0)))))))

theorem W7_arg5 (c : Dev nD) : W7 m ρ c (Proc.devRef .tc main_arg5) = (m ((c : Thread nD τ).loc main_arg5)) :=
  (W7_arg5_from0 m ρ c).trans rfl

theorem W7_v33_from3 (c : Dev nD) : W7 m ρ c (Proc.devRef .tc main_v33) = W3 m ρ c (Proc.devRef .tc main_v33) :=
  (show StableHlo.after hostOps2 (W6 m ρ c) (Proc.devRef .tc main_v33) = W6 m ρ c (Proc.devRef .tc main_v33) by host_keeps hostOps2).trans
    ((W6_of_ne m ρ c main_v33 (by decide)).trans
    ((show StableHlo.after hostOps1 (W4 m ρ c) (Proc.devRef .tc main_v33) = W4 m ρ c (Proc.devRef .tc main_v33) by host_keeps hostOps1).trans
    ((W4_of_ne m ρ c main_v33 (by decide)))))

theorem W9_arg7_from0 (c : Dev nD) : W9 m ρ c (Proc.devRef .tc main_arg7) = W0 m ρ c (Proc.devRef .tc main_arg7) :=
  (show StableHlo.after hostOps3 (W8 m ρ c) (Proc.devRef .tc main_arg7) = W8 m ρ c (Proc.devRef .tc main_arg7) by host_keeps hostOps3).trans
    ((W8_of_ne m ρ c main_arg7 (by decide)).trans
    ((show StableHlo.after hostOps2 (W6 m ρ c) (Proc.devRef .tc main_arg7) = W6 m ρ c (Proc.devRef .tc main_arg7) by host_keeps hostOps2).trans
    ((W6_of_ne m ρ c main_arg7 (by decide)).trans
    ((show StableHlo.after hostOps1 (W4 m ρ c) (Proc.devRef .tc main_arg7) = W4 m ρ c (Proc.devRef .tc main_arg7) by host_keeps hostOps1).trans
    ((W4_of_ne m ρ c main_arg7 (by decide)).trans
    ((show StableHlo.after hostOps0_2 (W2 m ρ c) (Proc.devRef .tc main_arg7) = W2 m ρ c (Proc.devRef .tc main_arg7) by host_keeps hostOps0_2).trans
    ((show StableHlo.after hostOps0_1 (W1 m ρ c) (Proc.devRef .tc main_arg7) = W1 m ρ c (Proc.devRef .tc main_arg7) by host_keeps hostOps0_1).trans
    ((show StableHlo.after hostOps0 (W0 m ρ c) (Proc.devRef .tc main_arg7) = W0 m ρ c (Proc.devRef .tc main_arg7) by host_keeps hostOps0)))))))))

theorem W9_arg7 (c : Dev nD) : W9 m ρ c (Proc.devRef .tc main_arg7) = (m ((c : Thread nD τ).loc main_arg7)) :=
  (W9_arg7_from0 m ρ c).trans rfl

theorem W10_arg9_from0 (c : Dev nD) : W10 m ρ c (Proc.devRef .tc main_arg9) = W0 m ρ c (Proc.devRef .tc main_arg9) :=
  (W10_of_ne m ρ c main_arg9 (by decide)).trans
    ((show StableHlo.after hostOps3 (W8 m ρ c) (Proc.devRef .tc main_arg9) = W8 m ρ c (Proc.devRef .tc main_arg9) by host_keeps hostOps3).trans
    ((W8_of_ne m ρ c main_arg9 (by decide)).trans
    ((show StableHlo.after hostOps2 (W6 m ρ c) (Proc.devRef .tc main_arg9) = W6 m ρ c (Proc.devRef .tc main_arg9) by host_keeps hostOps2).trans
    ((W6_of_ne m ρ c main_arg9 (by decide)).trans
    ((show StableHlo.after hostOps1 (W4 m ρ c) (Proc.devRef .tc main_arg9) = W4 m ρ c (Proc.devRef .tc main_arg9) by host_keeps hostOps1).trans
    ((W4_of_ne m ρ c main_arg9 (by decide)).trans
    ((show StableHlo.after hostOps0_2 (W2 m ρ c) (Proc.devRef .tc main_arg9) = W2 m ρ c (Proc.devRef .tc main_arg9) by host_keeps hostOps0_2).trans
    ((show StableHlo.after hostOps0_1 (W1 m ρ c) (Proc.devRef .tc main_arg9) = W1 m ρ c (Proc.devRef .tc main_arg9) by host_keeps hostOps0_1).trans
    ((show StableHlo.after hostOps0 (W0 m ρ c) (Proc.devRef .tc main_arg9) = W0 m ρ c (Proc.devRef .tc main_arg9) by host_keeps hostOps0))))))))))

theorem W10_arg9 (c : Dev nD) : W10 m ρ c (Proc.devRef .tc main_arg9) = (m ((c : Thread nD τ).loc main_arg9)) :=
  (W10_arg9_from0 m ρ c).trans rfl

theorem W10_v35_from3 (c : Dev nD) : W10 m ρ c (Proc.devRef .tc main_v35) = W3 m ρ c (Proc.devRef .tc main_v35) :=
  (W10_of_ne m ρ c main_v35 (by decide)).trans
    ((show StableHlo.after hostOps3 (W8 m ρ c) (Proc.devRef .tc main_v35) = W8 m ρ c (Proc.devRef .tc main_v35) by host_keeps hostOps3).trans
    ((W8_of_ne m ρ c main_v35 (by decide)).trans
    ((show StableHlo.after hostOps2 (W6 m ρ c) (Proc.devRef .tc main_v35) = W6 m ρ c (Proc.devRef .tc main_v35) by host_keeps hostOps2).trans
    ((W6_of_ne m ρ c main_v35 (by decide)).trans
    ((show StableHlo.after hostOps1 (W4 m ρ c) (Proc.devRef .tc main_v35) = W4 m ρ c (Proc.devRef .tc main_v35) by host_keeps hostOps1).trans
    ((W4_of_ne m ρ c main_v35 (by decide))))))))

theorem W10_v36_from3 (c : Dev nD) : W10 m ρ c (Proc.devRef .tc main_v36) = W3 m ρ c (Proc.devRef .tc main_v36) :=
  (W10_of_ne m ρ c main_v36 (by decide)).trans
    ((show StableHlo.after hostOps3 (W8 m ρ c) (Proc.devRef .tc main_v36) = W8 m ρ c (Proc.devRef .tc main_v36) by host_keeps hostOps3).trans
    ((W8_of_ne m ρ c main_v36 (by decide)).trans
    ((show StableHlo.after hostOps2 (W6 m ρ c) (Proc.devRef .tc main_v36) = W6 m ρ c (Proc.devRef .tc main_v36) by host_keeps hostOps2).trans
    ((W6_of_ne m ρ c main_v36 (by decide)).trans
    ((show StableHlo.after hostOps1 (W4 m ρ c) (Proc.devRef .tc main_v36) = W4 m ρ c (Proc.devRef .tc main_v36) by host_keeps hostOps1).trans
    ((W4_of_ne m ρ c main_v36 (by decide))))))))

theorem W10_v37_from3 (c : Dev nD) : W10 m ρ c (Proc.devRef .tc main_v37) = W3 m ρ c (Proc.devRef .tc main_v37) :=
  (W10_of_ne m ρ c main_v37 (by decide)).trans
    ((show StableHlo.after hostOps3 (W8 m ρ c) (Proc.devRef .tc main_v37) = W8 m ρ c (Proc.devRef .tc main_v37) by host_keeps hostOps3).trans
    ((W8_of_ne m ρ c main_v37 (by decide)).trans
    ((show StableHlo.after hostOps2 (W6 m ρ c) (Proc.devRef .tc main_v37) = W6 m ρ c (Proc.devRef .tc main_v37) by host_keeps hostOps2).trans
    ((W6_of_ne m ρ c main_v37 (by decide)).trans
    ((show StableHlo.after hostOps1 (W4 m ρ c) (Proc.devRef .tc main_v37) = W4 m ρ c (Proc.devRef .tc main_v37) by host_keeps hostOps1).trans
    ((W4_of_ne m ρ c main_v37 (by decide))))))))

theorem W10_v52_0_from6 (c : Dev nD) : W10 m ρ c (Proc.devRef .tc main_v52_0) = W6 m ρ c (Proc.devRef .tc main_v52_0) :=
  (W10_of_ne m ρ c main_v52_0 (by decide)).trans
    ((show StableHlo.after hostOps3 (W8 m ρ c) (Proc.devRef .tc main_v52_0) = W8 m ρ c (Proc.devRef .tc main_v52_0) by host_keeps hostOps3).trans
    ((W8_of_ne m ρ c main_v52_0 (by decide)).trans
    ((show StableHlo.after hostOps2 (W6 m ρ c) (Proc.devRef .tc main_v52_0) = W6 m ρ c (Proc.devRef .tc main_v52_0) by host_keeps hostOps2))))

theorem W10_v66_0_from8 (c : Dev nD) : W10 m ρ c (Proc.devRef .tc main_v66_0) = W8 m ρ c (Proc.devRef .tc main_v66_0) :=
  (W10_of_ne m ρ c main_v66_0 (by decide)).trans
    ((show StableHlo.after hostOps3 (W8 m ρ c) (Proc.devRef .tc main_v66_0) = W8 m ρ c (Proc.devRef .tc main_v66_0) by host_keeps hostOps3))

end Cert.KernelIdeal.Val

end
-- ==== Proof.DenseBlock.lean ====
/-
  The product of a 5000 x 128 block with a 128 x 128 weight, added into a zero accumulator, read one entry at a
  time: entry (r, q) is the sum over the shared axis k of block[r, k] * weight[k, q].  The operand indices of the
  contraction are identified coordinate by coordinate, and the one-axis contraction index is re-indexed by its
  coordinate.  Also here: the row-normalised activation of a matrix at row p depends only on row p of the matrix
  (its sum runs along the row), so two matrices that agree on a row have the same normalised row.
-/
import proofs.«112115_j58961311039942_2_alg».proof.Proof.Gen.KernelIdeal.Frame
import proofs.«112115_j58961311039942_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Val.Dense

open Cert.KernelIdeal Cert.KernelIdeal.Gen Idealize.ShloMosaic Idealize.ShloMosaic.TcCoe Idealize.ShloMosaic.ValueIdx Idealize.SL.Sem
open Idealize.ShloMosaic.Pipeline (Dat Cfg Window)

/-- The zero offsets of a whole rank-2 rectangle, as a constant function. -/
theorem hz2 : (![0, 0] : Fin 2 → Nat) = fun _ => 0 := funext fun a => by fin_cases a <;> rfl

/-- The zero offset of a whole rank-1 rectangle, as a constant function. -/
theorem hz1 : (![0] : Fin 1 → Nat) = fun _ => 0 := funext fun a => by fin_cases a; rfl

/-- The left operand's row coordinate is the output's row. -/
theorem lhs_row (i : S5000x128.Idx) (s : dot_S5000x128_S128x128_S5000x128_1_0_0_1_n_n.contr.Idx) :
    (dot_S5000x128_S128x128_S5000x128_1_0_0_1_n_n.lhsIdx i s 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl

/-- The left operand's column coordinate is the shared index. -/
theorem lhs_col (i : S5000x128.Idx) (s : dot_S5000x128_S128x128_S5000x128_1_0_0_1_n_n.contr.Idx) :
    (dot_S5000x128_S128x128_S5000x128_1_0_0_1_n_n.lhsIdx i s 1).val = (s ⟨0, by decide⟩).val :=
  dot_S5000x128_S128x128_S5000x128_1_0_0_1_n_n.lhsIdx_val_of_single rfl i s

/-- The right operand's row coordinate is the shared index. -/
theorem rhs_row (i : S5000x128.Idx) (s : dot_S5000x128_S128x128_S5000x128_1_0_0_1_n_n.contr.Idx) :
    (dot_S5000x128_S128x128_S5000x128_1_0_0_1_n_n.rhsIdx i s 0).val = (s ⟨0, by decide⟩).val :=
  dot_S5000x128_S128x128_S5000x128_1_0_0_1_n_n.rhsIdx_val_of_single rfl i s

/-- The right operand's column coordinate is the output's column. -/
theorem rhs_col (i : S5000x128.Idx) (s : dot_S5000x128_S128x128_S5000x128_1_0_0_1_n_n.contr.Idx) :
    (dot_S5000x128_S128x128_S5000x128_1_0_0_1_n_n.rhsIdx i s 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- The block product into the zero accumulator, at entry (r, q): the sum over the shared axis of the products. -/
theorem matmul_block_apply (a : FVec Ideal S5000x128 .bf16) (w : FVec Ideal S128x128 .bf16) (r : Fin 5000) (q : Fin 128) :
    matmul dot_S5000x128_S128x128_S5000x128_1_0_0_1_n_n none a w (constant (F := Ideal) S5000x128 .f32 0x00000000#32) (ix2 r q)
      = ∑ k : Fin 128, a (ix2 r k) * w (ix2 k q) := by
  refine (Ideal.matmul_constant_zero_apply dot_S5000x128_S128x128_S5000x128_1_0_0_1_n_n none a w (ix2 r q)).trans ?_
  rw [← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 r q)
      ((ValueIdx.contrEquiv1 dot_S5000x128_S128x128_S5000x128_1_0_0_1_n_n 128 rfl rfl).symm k) = ix2 r k :=
    funext fun a => Fin.ext (by
      match a with
      | ⟨0, _⟩ => exact lhs_row _ _
      | ⟨1, _⟩ => exact (lhs_col _ _).trans hk)
  have er : dot_S5000x128_S128x128_S5000x128_1_0_0_1_n_n.rhsIdx (ix2 r q)
      ((ValueIdx.contrEquiv1 dot_S5000x128_S128x128_S5000x128_1_0_0_1_n_n 128 rfl rfl).symm k) = ix2 k q :=
    funext fun a => Fin.ext (by
      match a with
      | ⟨0, _⟩ => exact (rhs_row _ _).trans hk
      | ⟨1, _⟩ => exact rhs_col _ _)
  rw [el, er]

/-! ## The normalised activation reads one row -/

/-- The activation at (p, j) reads the matrix at (p, j) and the bias at j only. -/
theorem act_congr_row {n n' d : Nat} (a : Cert.Spec.Mat n d) (a' : Cert.Spec.Mat n' d) (b b' : Cert.Spec.Vec1 d)
    (p : Fin n) (p' : Fin n') (ha : ∀ j : Fin d, a (ix2 p j) = a' (ix2 p' j)) (hb : ∀ j : Fin d, b (ix1 j) = b' (ix1 j))
    (j : Fin d) : Cert.Spec.act a b p j = Cert.Spec.act a' b' p' j := by
  unfold Cert.Spec.act
  rw [ha j, hb j]

/-- The divisor of row p reads row p of the matrix only. -/
theorem rowNorm_congr_row {n n' d : Nat} (a : Cert.Spec.Mat n d) (a' : Cert.Spec.Mat n' d) (b b' : Cert.Spec.Vec1 d)
    (p : Fin n) (p' : Fin n') (ha : ∀ j : Fin d, a (ix2 p j) = a' (ix2 p' j)) (hb : ∀ j : Fin d, b (ix1 j) = b' (ix1 j)) :
    Cert.Spec.rowNorm a b p = Cert.Spec.rowNorm a' b' p' := by
  unfold Cert.Spec.rowNorm
  exact congrArg (fun s => max (Ideal.sqrt s) Cert.Spec.eps)
    (Finset.sum_congr rfl fun j _ => by rw [act_congr_row a a' b b' p p' ha hb j])

/-- Two matrices that agree on a row have the same normalised activation on that row. -/
theorem normed_congr_row {n n' d : Nat} (a : Cert.Spec.Mat n d) (a' : Cert.Spec.Mat n' d) (b b' : Cert.Spec.Vec1 d)
    (p : Fin n) (p' : Fin n') (ha : ∀ j : Fin d, a (ix2 p j) = a' (ix2 p' j)) (hb : ∀ j : Fin d, b (ix1 j) = b' (ix1 j))
    (q : Fin d) : Cert.Spec.normed a b p q = Cert.Spec.normed a' b' p' q := by
  unfold Cert.Spec.normed
  rw [act_congr_row a a' b b' p p' ha hb q, rowNorm_congr_row a a' b b' p p' ha hb]

end Cert.KernelIdeal.Val.Dense

end
-- ==== Proof.Region0.lean ====
/-
  The first region: each of its 20 grid points reads rows 5000 t ... 5000 t + 4999 of the feature array and the whole
  128 x 128 weight, and writes the product of the two back to the same rows of the output array.  So the output
  array is the product of the two input arrays: entry (p, q) is the sum over k of features[p, k] * weight[k, q],
  row p being written by grid point p / 5000.
-/
import proofs.«112115_j58961311039942_2_alg».proof.Proof.Gen.KernelIdeal.Frame
import proofs.«112115_j58961311039942_2_alg».proof.Proof.Spec
import proofs.«112115_j58961311039942_2_alg».proof.Proof.DenseBlock
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Val.Dense

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The stored block at entry (r, q): the block of features times the weight; the changes of float format are the
    identity on the extended reals, and the cast of the weight to its own shape is the identity. -/
theorem k0_pay1_apply (v0 : Vec Ideal S5000x128 .f32) (v2 : Vec Ideal S128x128 .bf16) (r : Fin 5000) (q : Fin 128) :
    k0_pay1 (F := Ideal) v0 v2 (ix2 r q) = ∑ k : Fin 128, v0 (ix2 r k) * v2 (ix2 k q) := by
  unfold k0_pay1
  rw [shapeCast_self]
  exact matmul_block_apply _ _ r q

/-- Entry (r, q) of a block's product is entry (p, q) of the arrays' product when the block's row r is the feature
    array's row p and the block's weight is the weight array. -/
theorem block_entry0 (A : Cert.Spec.Mat 100000 128) (W : Cert.Spec.Mat 128 128)
    (x0 : Vec Ideal S5000x128 .f32) (x1 : Vec Ideal S128x128 .bf16) (r : Fin 5000) (q : Fin 128) (p : Fin 100000)
    (h0 : ∀ k : Fin 128, x0 (ix2 r k) = A (ix2 p k)) (h1 : ∀ k : Fin 128, x1 (ix2 k q) = W (ix2 k q))
    (j : S5000x128.Idx) (hj : j = ix2 r q) (i : S100000x128.Idx) (hi : i = ix2 p q) :
    k0_pay1 (F := Ideal) x0 x1 j = Cert.Spec.denseArr A W i := by
  subst hj hi
  rw [k0_pay1_apply, Cert.Spec.denseArr_ix2]
  unfold Cert.Spec.dense
  exact Finset.sum_congr rfl fun k _ => by rw [h0 k, h1 k]

/-- The block indices of the three windows at grid point t: the features and the product move down the rows with
    t, the weight stays. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What grid point t writes back is block t of the product of the region's two input arrays. -/
theorem flushed0_2 (c : Dev nD) (t : Fin cfg0.N) :
    (dat0 (F := Ideal) V c).flushed 2 t = ((cfg0.win 2).blk t).view.read (Elt Ideal) (Cert.Spec.denseArr (V c (Pipeline.arrRef spec0 0)) (V c (Pipeline.arrRef spec0 1))) := by
  show (cfg0.win 2).cut (grid0.coords t) ((dat0 (F := Ideal) V c).after 2 t) = _
  rw [after0_2]
  unfold out0_2
  rw [View.canon_unit_zero hz2]
  simp only [View.ld_unit_zero (S := S5000x128) hz2, View.ld_unit_zero (S := S128x128) hz2]
  obtain ⟨e00, e01, e10, e11, e20, e21⟩ := idx_facts0 t
  have hN : cfg0.N = 20 := N_0
  have ht : t.val < 20 := hN ▸ t.isLt
  funext j
  have hj0 : (j 0).val < 5000 := (j 0).isLt
  have hj1 : (j 1).val < 128 := (j 1).isLt
  show k0_pay1 (F := Ideal) (iblk0 V c 0 t) (iblk0 V c 1 t) j
    = Cert.Spec.denseArr (V c (Pipeline.arrRef spec0 0)) (V c (Pipeline.arrRef spec0 1)) (((cfg0.win 2).blk t).view.emb j)
  refine block_entry0 _ _ _ _ ⟨(j 0).val, hj0⟩ ⟨(j 1).val, hj1⟩ ⟨5000 * t.val + (j 0).val, by omega⟩ ?_ ?_ j ?_ _ ?_
  · intro k
    show V c (Pipeline.arrRef spec0 0) (((cfg0.win 0).blk t).view.emb (ix2 ⟨(j 0).val, hj0⟩ k)) = V c (Pipeline.arrRef spec0 0) _
    refine congrArg _ (funext fun a => Fin.ext ?_)
    match a with
    | ⟨0, _⟩ => show win0_0.index t (0 : Fin 2) * 5000 + 1 * (j 0).val = 5000 * t.val + (j 0).val; omega
    | ⟨1, _⟩ => show win0_0.index t (1 : Fin 2) * 128 + 1 * k.val = k.val; omega
  · intro k
    show V c (Pipeline.arrRef spec0 1) (((cfg0.win 1).blk t).view.emb (ix2 k ⟨(j 1).val, hj1⟩)) = V c (Pipeline.arrRef spec0 1) _
    refine congrArg _ (funext fun a => Fin.ext ?_)
    match a with
    | ⟨0, _⟩ => show win0_1.index t (0 : Fin 2) * 128 + 1 * k.val = k.val; omega
    | ⟨1, _⟩ => show win0_1.index t (1 : Fin 2) * 128 + 1 * (j 1).val = (j 1).val; omega
  · funext a
    match a with
    | ⟨0, _⟩ => rfl
    | ⟨1, _⟩ => rfl
  · refine funext fun a => Fin.ext ?_
    match a with
    | ⟨0, _⟩ => show win0_2.index t (0 : Fin 2) * 5000 + 1 * (j 0).val = 5000 * t.val + (j 0).val; omega
    | ⟨1, _⟩ => show win0_2.index t (1 : Fin 2) * 128 + 1 * (j 1).val = (j 1).val; omega

/-- An index of the product array is in point t's block iff each coordinate is in the block's range on its axis. -/
theorem mem_blk0_2 (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v38).slice (win0_2.rect t)).set ↔ _
  rw [View.set_slice_whole, Rect.mem_set_unit]
  exact Iff.rfl

/-- Every row p of the product array is written back by grid point p / 5000. -/
theorem rows_covered0_2 (i : S100000x128.Idx) :
    ∃ t : Fin cfg0.N, (cfg0.win 2).flush t = true ∧ i ∈ ((cfg0.win 2).blk t).view.set := by
  have hN : cfg0.N = 20 := N_0
  have hi0 : (i 0).val < 100000 := (i 0).isLt
  have hi1 : (i 1).val < 128 := (i 1).isLt
  have hlt : (i 0).val / 5000 < cfg0.N := by rw [hN]; omega
  obtain ⟨-, -, -, -, e20, e21⟩ := idx_facts0 ⟨(i 0).val / 5000, hlt⟩
  have e20' : win0_2.index ⟨(i 0).val / 5000, hlt⟩ (0 : Fin 2) = (i 0).val / 5000 := e20
  refine ⟨⟨(i 0).val / 5000, hlt⟩, flush0_2 _, ?_⟩
  rw [mem_blk0_2]
  intro a
  match a with
  | ⟨0, _⟩ =>
    show win0_2.index ⟨(i 0).val / 5000, hlt⟩ (0 : Fin 2) * 5000 ≤ (i 0).val
      ∧ (i 0).val < win0_2.index ⟨(i 0).val / 5000, hlt⟩ (0 : Fin 2) * 5000 + 5000
    omega
  | ⟨1, _⟩ =>
    show win0_2.index ⟨(i 0).val / 5000, hlt⟩ (1 : Fin 2) * 128 ≤ (i 1).val
      ∧ (i 1).val < win0_2.index ⟨(i 0).val / 5000, hlt⟩ (1 : Fin 2) * 128 + 128
    omega

end Cert.KernelIdeal.Val.Dense

namespace Cert.KernelIdeal.Val

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The first region's output array is the product of its two input arrays. -/
theorem arr0_2 (c : Dev nD) : ((dat0 (F := Ideal) V c).arrAt 2 cfg0.N) = Cert.Spec.denseArr (V c (Pipeline.arrRef spec0 0)) (V c (Pipeline.arrRef spec0 1)) :=
  (dat0 (F := Ideal) V c).arrAt_eq_of_cover 2 _ (fun t _ => Dense.flushed0_2 V c t) Dense.rows_covered0_2

end Cert.KernelIdeal.Val

end
-- ==== Proof.NormBlock.lean ====
/-
  One 5000 x 128 block of the row normalisation, read one entry at a time.

  The block's program adds the bias along each row, takes the maximum with zero, squares, sums each row over its
  128 lanes, takes the square root, floors it at eps and divides.  Read at the extended reals and at the entry
  (r, q) this is  act[r, q] / max (sqrt (sum_j act[r, j]^2)) eps  with  act[r, j] = max (a[r, j] + b[j]) 0,
  which is the specification's `normed`.  The only steps that are not entrywise are the layout operations
  (a vector laid along the rows, a column of row sums laid along the lanes) and the lane sum.
-/
import Idealize.ShloMosaic.Lib.ValueIdx
import Idealize.ShloMosaic.Lib.ValueLayout
import Idealize.ShloMosaic.Lib.Pipeline.Value
import Idealize.ShloMosaic.PureOps.Ideal.Laws
import proofs.«112115_j58961311039942_2_alg».proof.Proof.Spec
import proofs.«112115_j58961311039942_2_alg».proof.Proof.Gen.KernelIdeal.Skeleton

noncomputable section

namespace Cert.KernelIdeal.Val

open Cert.KernelIdeal Cert.KernelIdeal.Gen Idealize.ShloMosaic Idealize.ShloMosaic.TcCoe Idealize.ShloMosaic.ValueIdx Idealize.SL.Sem
open scoped BigOperators

/-! ## Two layout operations on a column -/

section Layout
variable {α : Type}

/-- A length-`a` array cast to one column `[a, 1]` reads, at `(r, u)`, the operand at `r`. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- One column `[a, 1]` broadcast to `[a, b]` reads, at `(p, c)`, the operand's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The lane sum of a block -/

/-- The sum over the 128 lanes of a `[5000, 128]` vector, at row `r`. -/
theorem laneSum_apply (src : FVec Ideal S5000x128 .f32) (h : S5000x128.Reduces [1] S5000) (hφ : FKind.Formats .f32)
    (hacc : (0x00000000#32 : BitVec 32) = 0x00000000#32) (r : Fin 5000) :
    multiReduction (F := Ideal) .add [1] S5000 src 0x00000000#32 h hφ hacc (ix1 r) = ∑ j : Fin 128, src (ix2 r j) := by
  refine (Ideal.multiReduction_add_single src 0x00000000#32 h hφ hacc (ix1 r)).trans ?_
  refine Finset.sum_congr rfl fun k _ => congrArg src ?_
  funext c
  match c with
  | ⟨0, _⟩ => rfl
  | ⟨1, _⟩ => rfl

/-! ## The activation and the normalised block -/

/-- The bias laid along every row, added, and the maximum with zero: the block's activation. -/
def reluAdd (v0 : Vec Ideal S5000x128 .f32) (v2 : Vec Ideal S128 .f32) (h1 : S5000x128.ShapeCasts S5000x128)
    (h2 : S128.ShapeCasts S1x128) (h3 : S1x128.Broadcasts S5000x128) : FVec Ideal S5000x128 .f32 :=
  maximumf (addf (shapeCast S5000x128 v0 h1) (broadcastTo S5000x128 (shapeCast S1x128 v2 h2) h3))
    (broadcast S5000x128 (Scalar.ofBits .f32 0x00000000#32))

/-- The activation at `(r, j)` is `max (a[r, j] + b[j]) 0`. -/
theorem reluAdd_apply (v0 : Vec Ideal S5000x128 .f32) (v2 : Vec Ideal S128 .f32) (h1 : S5000x128.ShapeCasts S5000x128)
    (h2 : S128.ShapeCasts S1x128) (h3 : S1x128.Broadcasts S5000x128) (r : Fin 5000) (j : Fin 128) :
    reluAdd v0 v2 h1 h2 h3 (ix2 r j) = Cert.Spec.act v0 v2 r j := by
  show max (shapeCast S5000x128 v0 h1 (ix2 r j) + broadcastTo S5000x128 (shapeCast S1x128 v2 h2) h3 (ix2 r j))
      (Ideal.ofBits .f32 0x00000000#32) = max (v0 (ix2 r j) + v2 (ix1 j)) Cert.Spec.zero
  rw [shapeCast_self, broadcastTo_1b_ab_apply, shapeCast_a_1a_apply]
  rfl

/-- The whole block computation at `(r, q)`: the activation divided by its row's floored Euclidean norm. -/
theorem normTerm_apply (v0 : Vec Ideal S5000x128 .f32) (v2 : Vec Ideal S128 .f32) (h1 : S5000x128.ShapeCasts S5000x128)
    (h2 : S128.ShapeCasts S1x128) (h3 : S1x128.Broadcasts S5000x128) (h4 : S5000x128.Reduces [1] S5000)
    (hφ : FKind.Formats .f32) (hacc : (0x00000000#32 : BitVec 32) = 0x00000000#32)
    (h5 : S5000.ShapeCasts S5000x1) (h6 : S5000x1.Broadcasts S5000x128) (r : Fin 5000) (q : Fin 128) :
    divf (reluAdd v0 v2 h1 h2 h3)
      (broadcastTo S5000x128
        (maximumf
          (sqrt (shapeCast S5000x1
            (multiReduction (F := Ideal) .add [1] S5000 (mulf (reluAdd v0 v2 h1 h2 h3) (reluAdd v0 v2 h1 h2 h3)) 0x00000000#32 h4 hφ hacc) h5))
          (broadcast S5000x1 (Scalar.ofBits .f32 0x2B8CBCCC#32))) h6) (ix2 r q)
      = Cert.Spec.normed v0 v2 r q := by
  have hA : ∀ j : Fin 128, reluAdd v0 v2 h1 h2 h3 (ix2 r j) = Cert.Spec.act v0 v2 r j :=
    fun j => reluAdd_apply v0 v2 h1 h2 h3 r j
  rw [divf_apply, hA q, broadcastTo_a1_ab_apply]
  show Ideal.div _ (max (Ideal.sqrt (shapeCast S5000x1 _ h5 (ix2 r (0 : Fin 1)))) (Ideal.ofBits .f32 0x2B8CBCCC#32)) = _
  rw [shapeCast_a_a1_apply, laneSum_apply]
  simp only [mulf_apply, hA]
  rfl

/-! ## The three payloads -/

/-- The payload of the second region at `(r, q)`. -/
theorem k1_pay1_apply (v0 : Vec Ideal S5000x128 .f32) (v2 : Vec Ideal S128 .f32) (r : Fin 5000) (q : Fin 128) :
    k1_pay1 (F := Ideal) v0 v2 (ix2 r q) = Cert.Spec.normed v0 v2 r q := by
  unfold k1_pay1
  exact normTerm_apply v0 v2 _ _ _ _ _ _ _ _ r q

/-- The payload of the third region at `(r, q)`. -/
theorem k2_pay1_apply (v0 : Vec Ideal S5000x128 .f32) (v2 : Vec Ideal S128 .f32) (r : Fin 5000) (q : Fin 128) :
    k2_pay1 (F := Ideal) v0 v2 (ix2 r q) = Cert.Spec.normed v0 v2 r q := by
  unfold k2_pay1
  exact normTerm_apply v0 v2 _ _ _ _ _ _ _ _ r q

/-- The payload of the fourth region at `(r, q)`. -/
theorem k3_pay1_apply (v0 : Vec Ideal S5000x128 .f32) (v2 : Vec Ideal S128 .f32) (r : Fin 5000) (q : Fin 128) :
    k3_pay1 (F := Ideal) v0 v2 (ix2 r q) = Cert.Spec.normed v0 v2 r q := by
  unfold k3_pay1
  exact normTerm_apply v0 v2 _ _ _ _ _ _ _ _ r q

end Cert.KernelIdeal.Val

end
-- ==== Proof.NormRows.lean ====
/-
  The row normalisation reads one row.

  The entry (p, q) of the row-normalised activation depends on the matrix only through its row p and on the bias
  as a whole: two matrices (of any heights) that agree on a pair of rows, under equal biases, have equal normalised
  entries along those rows.  A block of 5000 rows is cut out of a taller matrix row by row, so what a block computes at
  its row r is what the whole matrix has at the row the block's row r came from.
-/
import proofs.«112115_j58961311039942_2_alg».proof.Proof.Spec

noncomputable section

namespace Cert.KernelIdeal.Val.Norm

open Idealize.ShloMosaic Idealize.ShloMosaic.ValueIdx
open scoped BigOperators

/-- The zero offsets of a rank-2 block, as the constant function. -/
theorem zeroOff2 : (![0, 0] : Fin 2 → Nat) = fun _ => 0 := funext fun a => by fin_cases a <;> rfl

/-- The zero offset of a rank-1 block, as the constant function. -/
theorem zeroOff1 : (![0] : Fin 1 → Nat) = fun _ => 0 := funext fun a => by fin_cases a <;> rfl

/-- The activation along a row only reads that row. -/
theorem act_congr_row {n n' d : Nat} (a : Cert.Spec.Mat n d) (a' : Cert.Spec.Mat n' d) (b b' : Cert.Spec.Vec1 d)
    (p : Fin n) (p' : Fin n') (ha : ∀ j : Fin d, a (ix2 p j) = a' (ix2 p' j)) (hb : ∀ j : Fin d, b (ix1 j) = b' (ix1 j))
    (j : Fin d) : Cert.Spec.act a b p j = Cert.Spec.act a' b' p' j := by
  unfold Cert.Spec.act
  rw [ha j, hb j]

/-- So does the row's divisor, -/
theorem rowNorm_congr_row {n n' d : Nat} (a : Cert.Spec.Mat n d) (a' : Cert.Spec.Mat n' d) (b b' : Cert.Spec.Vec1 d)
    (p : Fin n) (p' : Fin n') (ha : ∀ j : Fin d, a (ix2 p j) = a' (ix2 p' j)) (hb : ∀ j : Fin d, b (ix1 j) = b' (ix1 j)) :
    Cert.Spec.rowNorm a b p = Cert.Spec.rowNorm a' b' p' := by
  unfold Cert.Spec.rowNorm
  refine congrArg (fun s => max (Ideal.sqrt s) Cert.Spec.eps) ?_
  exact Finset.sum_congr rfl fun j _ => by rw [act_congr_row a a' b b' p p' ha hb j]

/-- and so does every normalised entry of the row. -/
theorem normed_congr_row {n n' d : Nat} (a : Cert.Spec.Mat n d) (a' : Cert.Spec.Mat n' d) (b b' : Cert.Spec.Vec1 d)
    (p : Fin n) (p' : Fin n') (ha : ∀ j : Fin d, a (ix2 p j) = a' (ix2 p' j)) (hb : ∀ j : Fin d, b (ix1 j) = b' (ix1 j))
    (q : Fin d) : Cert.Spec.normed a b p q = Cert.Spec.normed a' b' p' q := by
  unfold Cert.Spec.normed
  rw [act_congr_row a a' b b' p p' ha hb q, rowNorm_congr_row a a' b b' p p' ha hb]

/-- A block computation `P` that is the normalisation entry by entry, applied to a 5000-row block `x0` whose rows are rows
    of the 100000-row matrix `A` (the block's row of `y` being `A`'s row of `i`, lane for lane) and to a bias equal to `B`,
    gives at `y` the normalised array of `A` and `B` at `i`. -/
theorem block_entry_of_apply (P : Cert.Spec.Mat 5000 128 → Cert.Spec.Vec1 128 → Cert.Spec.Mat 5000 128)
    (hP : ∀ (v0 : Cert.Spec.Mat 5000 128) (v2 : Cert.Spec.Vec1 128) (r : Fin 5000) (q : Fin 128),
      P v0 v2 (ix2 r q) = Cert.Spec.normed v0 v2 r q)
    (x0 : Cert.Spec.Mat 5000 128) (x1 : Cert.Spec.Vec1 128) (A : Cert.Spec.Mat 100000 128) (B : Cert.Spec.Vec1 128)
    (y : (⟨2, ![5000, 128]⟩ : Shape).Idx) (i : (⟨2, ![100000, 128]⟩ : Shape).Idx)
    (hrow : ∀ (y' : (⟨2, ![5000, 128]⟩ : Shape).Idx) (i' : (⟨2, ![100000, 128]⟩ : Shape).Idx),
      (y' 0).val = (y 0).val → (i' 0).val = (i 0).val → (i' 1).val = (y' 1).val → x0 y' = A i')
    (hcol : (i 1).val = (y 1).val)
    (hb : ∀ j : Fin 128, x1 (ix1 j) = B (ix1 j)) :
    P x0 x1 y = Cert.Spec.normedArr A B i := by
  obtain ⟨r, q, rfl⟩ : ∃ (r : Fin 5000) (q : Fin 128), y = ix2 r q := ⟨y 0, y 1, eq_ix2 y⟩
  obtain ⟨p, q', rfl⟩ : ∃ (p : Fin 100000) (q' : Fin 128), i = ix2 p q' := ⟨i 0, i 1, eq_ix2 i⟩
  have hq : q' = q := Fin.ext hcol
  subst hq
  rw [hP, Cert.Spec.normedArr_ix2]
  exact normed_congr_row x0 A x1 B r p (fun j => hrow (ix2 r j) (ix2 p j) rfl rfl rfl) hb _

end Cert.KernelIdeal.Val.Norm

end
-- ==== Proof.Region1Norm.lean ====
/-
  The second region's normalised output, as one array.

  The region runs over 20 grid points; at point t it reads rows 5000 t ... 5000 t + 4999 of the aggregated features
  (window 0) and the whole bias (window 1), normalises the block row by row, and writes the result back to the same rows
  of the output (window 3).  A row's normalisation only reads that row, so the block written at point t is the
  block at t of the normalised array of the two input arrays; the 20 blocks cover every row (row p lies in block
  p / 5000), hence the output array is that normalised array.
-/
import Idealize.ShloMosaic.Lib.Pipeline.Value
import proofs.«112115_j58961311039942_2_alg».proof.Proof.Gen.KernelIdeal.Frame
import proofs.«112115_j58961311039942_2_alg».proof.Proof.NormBlock
import proofs.«112115_j58961311039942_2_alg».proof.Proof.NormRows

noncomputable section

namespace Cert.KernelIdeal.Val

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

namespace Norm

/-- The three windows' block indices at grid point t: the features and the output move down one block of rows per
    point, the bias stays. -/
theorem blockIdx1 : ∀ t : Fin cfg1.N,
    win1_0.index t (0 : Fin 2) = t.val ∧ win1_0.index t (1 : Fin 2) = 0
    ∧ win1_1.index t (0 : Fin 1) = 0
    ∧ win1_3.index t (0 : Fin 2) = t.val ∧ win1_3.index t (1 : Fin 2) = 0 :=
  (by decide +kernel : ∀ t : Fin grid1.N, _)

/-- What point t writes back is block t of the normalised array of the two input arrays. -/
theorem flushed1_eq (c : Dev nD) (t : Fin cfg1.N) :
    (dat1 (F := Ideal) V c).flushed 3 t = ((cfg1.win 3).blk t).view.read (Elt Ideal)
      (Cert.Spec.normedArr (V c (Pipeline.arrRef spec1 0)) (V c (Pipeline.arrRef spec1 1))) := by
  show (cfg1.win 3).cut (grid1.coords t) ((dat1 V c).after 3 t) = _
  rw [after1_3]
  unfold out1_3
  rw [View.canon_unit_zero zeroOff2]
  simp only [View.ld_unit_zero (S := S5000x128) zeroOff2, View.ld_unit_zero (S := S128) zeroOff1]
  obtain ⟨e0, e1, e2, e3, e4⟩ := blockIdx1 t
  funext y
  show k1_pay1 (F := Ideal) (iblk1 V c 0 t) (iblk1 V c 1 t) ((cfg1.win 3).xinj (grid1.coords t) y)
      = Cert.Spec.normedArr (V c (Pipeline.arrRef spec1 0)) (V c (Pipeline.arrRef spec1 1)) (((cfg1.win 3).blk t).view.emb y)
  refine block_entry_of_apply (fun v0 v2 => k1_pay1 (F := Ideal) v0 v2) k1_pay1_apply (iblk1 V c 0 t) (iblk1 V c 1 t)
    (V c (Pipeline.arrRef spec1 0)) (V c (Pipeline.arrRef spec1 1)) ((cfg1.win 3).xinj (grid1.coords t) y)
    (((cfg1.win 3).blk t).view.emb y) ?_ ?_ ?_
  · intro y' i' h0 h1 h2
    show V c (Pipeline.arrRef spec1 0) (((cfg1.win 0).blk t).view.emb y') = V c (Pipeline.arrRef spec1 0) i'
    refine congrArg _ (funext fun a => Fin.ext ?_)
    match a with
    | ⟨0, _⟩ =>
      show win1_0.index t (0 : Fin 2) * 5000 + 1 * (y' 0).val = (i' 0).val
      have h1' : (i' 0).val = win1_3.index t (0 : Fin 2) * 5000 + 1 * (y 0).val := h1
      have h0' : (y' 0).val = (y 0).val := h0
      omega
    | ⟨1, _⟩ =>
      show win1_0.index t (1 : Fin 2) * 128 + 1 * (y' 1).val = (i' 1).val
      omega
  · show win1_3.index t (1 : Fin 2) * 128 + 1 * (y 1).val = (y 1).val
    omega
  · intro j
    show V c (Pipeline.arrRef spec1 1) (((cfg1.win 1).blk t).view.emb (ix1 j)) = V c (Pipeline.arrRef spec1 1) (ix1 j)
    refine congrArg _ (funext fun a => Fin.ext ?_)
    match a with
    | ⟨0, _⟩ =>
      show win1_1.index t (0 : Fin 1) * 128 + 1 * j.val = j.val
      omega

/-- An index of the output array is in point t's block iff each coordinate is in the block's range on its axis. -/
theorem mem_blk1 (t : Fin cfg1.N) (i : S100000x128.Idx) :
    i ∈ ((cfg1.win 3).blk t).view.set ↔ ∀ a : Fin 2, win1_3.index t a * S5000x128.size a ≤ (i a).val
      ∧ (i a).val < win1_3.index t a * S5000x128.size a + S5000x128.size a := by
  show i ∈ ((View.whole main_v52_0).slice (win1_3.rect t)).set ↔ _
  rw [View.set_slice_whole, Rect.mem_set_unit]
  exact Iff.rfl

/-- Every index of the output array is written: row p by the point p / 5000. -/
theorem rows_cover1 (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  have hN : cfg1.N = 20 := N_1
  have hlt : (i 0).val / 5000 < cfg1.N := by rw [hN]; omega
  obtain ⟨e0, e1, e2, e3, e4⟩ := blockIdx1 ⟨(i 0).val / 5000, hlt⟩
  refine ⟨⟨(i 0).val / 5000, hlt⟩, flush1_3 _, ?_⟩
  rw [mem_blk1]
  intro a
  match a with
  | ⟨0, _⟩ =>
    show win1_3.index ⟨(i 0).val / 5000, hlt⟩ (0 : Fin 2) * 5000 ≤ (i 0).val
      ∧ (i 0).val < win1_3.index ⟨(i 0).val / 5000, hlt⟩ (0 : Fin 2) * 5000 + 5000
    rw [e3]
    show (i 0).val / 5000 * 5000 ≤ (i 0).val ∧ (i 0).val < (i 0).val / 5000 * 5000 + 5000
    omega
  | ⟨1, _⟩ =>
    show win1_3.index ⟨(i 0).val / 5000, hlt⟩ (1 : Fin 2) * 128 ≤ (i 1).val
      ∧ (i 1).val < win1_3.index ⟨(i 0).val / 5000, hlt⟩ (1 : Fin 2) * 128 + 128
    rw [e4]
    omega

end Norm

/-- The second region's normalised output array is the normalised array of its two input arrays. -/
theorem arr1_3 (c : Dev nD) : ((dat1 (F := Ideal) V c).arrAt 3 cfg1.N)
    = Cert.Spec.normedArr (V c (Pipeline.arrRef spec1 0)) (V c (Pipeline.arrRef spec1 1)) :=
  (dat1 (F := Ideal) V c).arrAt_eq_of_cover 3
    (Cert.Spec.normedArr (V c (Pipeline.arrRef spec1 0)) (V c (Pipeline.arrRef spec1 1)))
    (fun t _ => Norm.flushed1_eq V c t) Norm.rows_cover1

end Cert.KernelIdeal.Val

end
-- ==== Proof.Region1Dense.lean ====
/-
  The second region's second output: each of its 20 grid points reads rows 5000 t ... 5000 t + 4999 of the aggregated
  feature array, the whole bias and the whole 128 x 128 weight, row-normalises the activated block and writes the
  product of that with the weight back to the same rows of the output array.  The normalisation of a row reads that
  row only, so the block's normalised row r is the array's normalised row 5000 t + r, and the output array is the
  product of the array's row-normalised activation with the weight, row p being written by grid point p / 5000.
-/
import proofs.«112115_j58961311039942_2_alg».proof.Proof.Gen.KernelIdeal.Frame
import proofs.«112115_j58961311039942_2_alg».proof.Proof.Spec
import proofs.«112115_j58961311039942_2_alg».proof.Proof.DenseBlock
import proofs.«112115_j58961311039942_2_alg».proof.Proof.NormBlock
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Val.Dense

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The stored block at entry (r, q): the block's row-normalised activation times the weight; the changes of float
    format are the identity on the extended reals, and the cast of the weight to its own shape is the identity. -/
theorem k1_pay2_apply (v0 : Vec Ideal S5000x128 .f32) (v2 : Vec Ideal S128 .f32) (v18 : Vec Ideal S128x128 .bf16)
    (r : Fin 5000) (q : Fin 128) :
    k1_pay2 (F := Ideal) v0 v2 v18 (ix2 r q) = ∑ k : Fin 128, Cert.Spec.normed v0 v2 r k * v18 (ix2 k q) := by
  unfold k1_pay2
  rw [shapeCast_self]
  refine (matmul_block_apply _ _ r q).trans ?_
  refine Finset.sum_congr rfl fun k _ => ?_
  show k1_pay1 (F := Ideal) v0 v2 (ix2 r k) * v18 (ix2 k q) = _
  rw [k1_pay1_apply]

/-- Entry (r, q) of a block's product is entry (p, q) of the arrays' product when the block's row r is the feature
    array's row p and the block's bias and weight are the bias and weight arrays. -/
theorem block_entry1 (A : Cert.Spec.Mat 100000 128) (B : Cert.Spec.Vec1 128) (W : Cert.Spec.Mat 128 128)
    (x0 : Vec Ideal S5000x128 .f32) (x1 : Vec Ideal S128 .f32) (x2 : Vec Ideal S128x128 .bf16)
    (r : Fin 5000) (q : Fin 128) (p : Fin 100000)
    (h0 : ∀ k : Fin 128, x0 (ix2 r k) = A (ix2 p k)) (h1 : ∀ k : Fin 128, x1 (ix1 k) = B (ix1 k))
    (h2 : ∀ k : Fin 128, x2 (ix2 k q) = W (ix2 k q))
    (j : S5000x128.Idx) (hj : j = ix2 r q) (i : S100000x128.Idx) (hi : i = ix2 p q) :
    k1_pay2 (F := Ideal) x0 x1 x2 j = Cert.Spec.denseArr (Cert.Spec.normedArr A B) W i := by
  subst hj hi
  rw [k1_pay2_apply, Cert.Spec.denseArr_ix2]
  unfold Cert.Spec.dense
  refine Finset.sum_congr rfl fun k _ => ?_
  rw [Cert.Spec.normedArr_ix2, h2 k, normed_congr_row x0 A x1 B r p h0 h1 k]

/-- The block indices of the windows at grid point t: the features and the product move down the rows with t, the
    bias and the weight stay. -/
theorem idx_facts1_4 : ∀ t : Fin cfg1.N, win1_0.index t (0 : Fin 2) = t.val ∧ win1_0.index t (1 : Fin 2) = 0
    ∧ win1_1.index t (0 : Fin 1) = 0
    ∧ win1_2.index t (0 : Fin 2) = 0 ∧ win1_2.index t (1 : Fin 2) = 0
    ∧ win1_4.index t (0 : Fin 2) = t.val ∧ win1_4.index t (1 : Fin 2) = 0 :=
  (by decide +kernel : ∀ t : Fin grid1.N, _)

/-- Row r of the feature block at grid point t is row 5000 t + r of the feature array. -/
theorem read_feat1 (c : Dev nD) (t : Fin cfg1.N) (r : Fin 5000) (k : Fin 128) (p : Fin 100000)
    (hp : p.val = 5000 * t.val + r.val) :
    (iblk1 V c 0 t : Vec Ideal S5000x128 .f32) (ix2 r k) = (V c (Pipeline.arrRef spec1 0) : Cert.Spec.Mat 100000 128) (ix2 p k) := by
  obtain ⟨e00, e01, -⟩ := idx_facts1_4 t
  show V c (Pipeline.arrRef spec1 0) (((cfg1.win 0).blk t).view.emb (ix2 r k)) = V c (Pipeline.arrRef spec1 0) _
  refine congrArg _ (funext fun a => Fin.ext ?_)
  match a with
  | ⟨0, _⟩ => show win1_0.index t (0 : Fin 2) * 5000 + 1 * r.val = p.val; omega
  | ⟨1, _⟩ => show win1_0.index t (1 : Fin 2) * 128 + 1 * k.val = k.val; omega

/-- The bias block at every grid point is the bias array. -/
theorem read_bias1 (c : Dev nD) (t : Fin cfg1.N) (k : Fin 128) :
    (iblk1 V c 1 t : Vec Ideal S128 .f32) (ix1 k) = (V c (Pipeline.arrRef spec1 1) : Cert.Spec.Vec1 128) (ix1 k) := by
  obtain ⟨-, -, e10, -⟩ := idx_facts1_4 t
  show V c (Pipeline.arrRef spec1 1) (((cfg1.win 1).blk t).view.emb (ix1 k)) = V c (Pipeline.arrRef spec1 1) _
  refine congrArg _ (funext fun a => Fin.ext ?_)
  match a with
  | ⟨0, _⟩ => show win1_1.index t (0 : Fin 1) * 128 + 1 * k.val = k.val; omega

/-- The weight block at every grid point is the weight array. -/
theorem read_weight1 (c : Dev nD) (t : Fin cfg1.N) (k q : Fin 128) :
    (iblk1 V c 2 t : Vec Ideal S128x128 .bf16) (ix2 k q) = (V c (Pipeline.arrRef spec1 2) : Cert.Spec.Mat 128 128) (ix2 k q) := by
  obtain ⟨-, -, -, e20, e21, -⟩ := idx_facts1_4 t
  show V c (Pipeline.arrRef spec1 2) (((cfg1.win 2).blk t).view.emb (ix2 k q)) = V c (Pipeline.arrRef spec1 2) _
  refine congrArg _ (funext fun a => Fin.ext ?_)
  match a with
  | ⟨0, _⟩ => show win1_2.index t (0 : Fin 2) * 128 + 1 * k.val = k.val; omega
  | ⟨1, _⟩ => show win1_2.index t (1 : Fin 2) * 128 + 1 * q.val = q.val; omega

/-- Entry (r, q) of the product block at grid point t sits at entry (5000 t + r, q) of the product array. -/
theorem emb_out1 (t : Fin cfg1.N) (j : S5000x128.Idx) (p : Fin 100000) (q : Fin 128)
    (hp : p.val = 5000 * t.val + (j 0).val) (hq : q.val = (j 1).val) :
    ((cfg1.win 4).blk t).view.emb j = ix2 p q := by
  obtain ⟨-, -, -, -, -, e40, e41⟩ := idx_facts1_4 t
  refine funext fun a => Fin.ext ?_
  match a with
  | ⟨0, _⟩ => show win1_4.index t (0 : Fin 2) * 5000 + 1 * (j 0).val = p.val; omega
  | ⟨1, _⟩ => show win1_4.index t (1 : Fin 2) * 128 + 1 * (j 1).val = q.val; omega

/-- What grid point t writes back is block t of the product of the row-normalised activation of the feature array
    with the weight array. -/
theorem flushed1_4 (c : Dev nD) (t : Fin cfg1.N) :
    (dat1 (F := Ideal) V c).flushed 4 t = ((cfg1.win 4).blk t).view.read (Elt Ideal)
      (Cert.Spec.denseArr (Cert.Spec.normedArr (V c (Pipeline.arrRef spec1 0)) (V c (Pipeline.arrRef spec1 1))) (V c (Pipeline.arrRef spec1 2))) := by
  show (cfg1.win 4).cut (grid1.coords t) ((dat1 (F := Ideal) V c).after 4 t) = _
  rw [after1_4]
  unfold out1_4
  rw [View.canon_unit_zero hz2]
  simp only [View.ld_unit_zero (S := S5000x128) hz2, View.ld_unit_zero (S := S128x128) hz2, View.ld_unit_zero (S := S128) hz1]
  have hN : cfg1.N = 20 := N_1
  have ht : t.val < 20 := hN ▸ t.isLt
  funext j
  have hj0 : (j 0).val < 5000 := (j 0).isLt
  have hj1 : (j 1).val < 128 := (j 1).isLt
  show k1_pay2 (F := Ideal) (iblk1 V c 0 t) (iblk1 V c 1 t) (iblk1 V c 2 t) j
    = Cert.Spec.denseArr (Cert.Spec.normedArr (V c (Pipeline.arrRef spec1 0)) (V c (Pipeline.arrRef spec1 1))) (V c (Pipeline.arrRef spec1 2))
        (((cfg1.win 4).blk t).view.emb j)
  refine block_entry1 _ _ _ _ _ _ ⟨(j 0).val, hj0⟩ ⟨(j 1).val, hj1⟩ ⟨5000 * t.val + (j 0).val, by omega⟩
    (fun k => read_feat1 V c t _ k _ rfl) (fun k => read_bias1 V c t k) (fun k => read_weight1 V c t k _) j ?_ _
    (emb_out1 t j _ _ rfl rfl)
  funext a
  match a with
  | ⟨0, _⟩ => rfl
  | ⟨1, _⟩ => rfl

/-- An index of the product array is in point t's block iff each coordinate is in the block's range on its axis. -/
theorem mem_blk1_4 (t : Fin cfg1.N) (i : S100000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v52_1).slice (win1_4.rect t)).set ↔ _
  rw [View.set_slice_whole, Rect.mem_set_unit]
  exact Iff.rfl

/-- Every row p of the product array is written back by grid point p / 5000. -/
theorem rows_covered1_4 (i : S100000x128.Idx) :
    ∃ t : Fin cfg1.N, (cfg1.win 4).flush t = true ∧ i ∈ ((cfg1.win 4).blk t).view.set := by
  have hN : cfg1.N = 20 := N_1
  have hi0 : (i 0).val < 100000 := (i 0).isLt
  have hi1 : (i 1).val < 128 := (i 1).isLt
  have hlt : (i 0).val / 5000 < cfg1.N := by rw [hN]; omega
  obtain ⟨-, -, -, -, -, e40, e41⟩ := idx_facts1_4 ⟨(i 0).val / 5000, hlt⟩
  have e40' : win1_4.index ⟨(i 0).val / 5000, hlt⟩ (0 : Fin 2) = (i 0).val / 5000 := e40
  refine ⟨⟨(i 0).val / 5000, hlt⟩, flush1_4 _, ?_⟩
  rw [mem_blk1_4]
  intro a
  match a with
  | ⟨0, _⟩ =>
    show win1_4.index ⟨(i 0).val / 5000, hlt⟩ (0 : Fin 2) * 5000 ≤ (i 0).val
      ∧ (i 0).val < win1_4.index ⟨(i 0).val / 5000, hlt⟩ (0 : Fin 2) * 5000 + 5000
    omega
  | ⟨1, _⟩ =>
    show win1_4.index ⟨(i 0).val / 5000, hlt⟩ (1 : Fin 2) * 128 ≤ (i 1).val
      ∧ (i 1).val < win1_4.index ⟨(i 0).val / 5000, hlt⟩ (1 : Fin 2) * 128 + 128
    omega

end Cert.KernelIdeal.Val.Dense

namespace Cert.KernelIdeal.Val

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The second region's second output array is the product of the row-normalised activation of its feature array
    (with its bias) with its weight array. -/
theorem arr1_4 (c : Dev nD) : ((dat1 (F := Ideal) V c).arrAt 4 cfg1.N) = Cert.Spec.denseArr (Cert.Spec.normedArr (V c (Pipeline.arrRef spec1 0)) (V c (Pipeline.arrRef spec1 1))) (V c (Pipeline.arrRef spec1 2)) :=
  (dat1 (F := Ideal) V c).arrAt_eq_of_cover 4 _ (fun t _ => Dense.flushed1_4 V c t) Dense.rows_covered1_4

end Cert.KernelIdeal.Val

end
-- ==== Proof.Region2Norm.lean ====
/-
  The third region's normalised output, as one array.

  The region runs over 20 grid points; at point t it reads rows 5000 t ... 5000 t + 4999 of the aggregated features
  (window 0) and the whole bias (window 1), normalises the block row by row, and writes the result back to the same rows
  of the output (window 3).  A row's normalisation only reads that row, so the block written at point t is the
  block at t of the normalised array of the two input arrays; the 20 blocks cover every row (row p lies in block
  p / 5000), hence the output array is that normalised array.
-/
import Idealize.ShloMosaic.Lib.Pipeline.Value
import proofs.«112115_j58961311039942_2_alg».proof.Proof.Gen.KernelIdeal.Frame
import proofs.«112115_j58961311039942_2_alg».proof.Proof.NormBlock
import proofs.«112115_j58961311039942_2_alg».proof.Proof.NormRows

noncomputable section

namespace Cert.KernelIdeal.Val

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

namespace Norm

/-- The three windows' block indices at grid point t: the features and the output move down one block of rows per
    point, the bias stays. -/
theorem blockIdx2 : ∀ t : Fin cfg2.N,
    win2_0.index t (0 : Fin 2) = t.val ∧ win2_0.index t (1 : Fin 2) = 0
    ∧ win2_1.index t (0 : Fin 1) = 0
    ∧ win2_3.index t (0 : Fin 2) = t.val ∧ win2_3.index t (1 : Fin 2) = 0 :=
  (by decide +kernel : ∀ t : Fin grid2.N, _)

/-- What point t writes back is block t of the normalised array of the two input arrays. -/
theorem flushed2_eq (c : Dev nD) (t : Fin cfg2.N) :
    (dat2 (F := Ideal) V c).flushed 3 t = ((cfg2.win 3).blk t).view.read (Elt Ideal)
      (Cert.Spec.normedArr (V c (Pipeline.arrRef spec2 0)) (V c (Pipeline.arrRef spec2 1))) := by
  show (cfg2.win 3).cut (grid2.coords t) ((dat2 V c).after 3 t) = _
  rw [after2_3]
  unfold out2_3
  rw [View.canon_unit_zero zeroOff2]
  simp only [View.ld_unit_zero (S := S5000x128) zeroOff2, View.ld_unit_zero (S := S128) zeroOff1]
  obtain ⟨e0, e1, e2, e3, e4⟩ := blockIdx2 t
  funext y
  show k2_pay1 (F := Ideal) (iblk2 V c 0 t) (iblk2 V c 1 t) ((cfg2.win 3).xinj (grid2.coords t) y)
      = Cert.Spec.normedArr (V c (Pipeline.arrRef spec2 0)) (V c (Pipeline.arrRef spec2 1)) (((cfg2.win 3).blk t).view.emb y)
  refine block_entry_of_apply (fun v0 v2 => k2_pay1 (F := Ideal) v0 v2) k2_pay1_apply (iblk2 V c 0 t) (iblk2 V c 1 t)
    (V c (Pipeline.arrRef spec2 0)) (V c (Pipeline.arrRef spec2 1)) ((cfg2.win 3).xinj (grid2.coords t) y)
    (((cfg2.win 3).blk t).view.emb y) ?_ ?_ ?_
  · intro y' i' h0 h1 h2
    show V c (Pipeline.arrRef spec2 0) (((cfg2.win 0).blk t).view.emb y') = V c (Pipeline.arrRef spec2 0) i'
    refine congrArg _ (funext fun a => Fin.ext ?_)
    match a with
    | ⟨0, _⟩ =>
      show win2_0.index t (0 : Fin 2) * 5000 + 1 * (y' 0).val = (i' 0).val
      have h1' : (i' 0).val = win2_3.index t (0 : Fin 2) * 5000 + 1 * (y 0).val := h1
      have h0' : (y' 0).val = (y 0).val := h0
      omega
    | ⟨1, _⟩ =>
      show win2_0.index t (1 : Fin 2) * 128 + 1 * (y' 1).val = (i' 1).val
      omega
  · show win2_3.index t (1 : Fin 2) * 128 + 1 * (y 1).val = (y 1).val
    omega
  · intro j
    show V c (Pipeline.arrRef spec2 1) (((cfg2.win 1).blk t).view.emb (ix1 j)) = V c (Pipeline.arrRef spec2 1) (ix1 j)
    refine congrArg _ (funext fun a => Fin.ext ?_)
    match a with
    | ⟨0, _⟩ =>
      show win2_1.index t (0 : Fin 1) * 128 + 1 * j.val = j.val
      omega

/-- An index of the output array is in point t's block iff each coordinate is in the block's range on its axis. -/
theorem mem_blk2 (t : Fin cfg2.N) (i : S100000x128.Idx) :
    i ∈ ((cfg2.win 3).blk t).view.set ↔ ∀ a : Fin 2, win2_3.index t a * S5000x128.size a ≤ (i a).val
      ∧ (i a).val < win2_3.index t a * S5000x128.size a + S5000x128.size a := by
  show i ∈ ((View.whole main_v66_0).slice (win2_3.rect t)).set ↔ _
  rw [View.set_slice_whole, Rect.mem_set_unit]
  exact Iff.rfl

/-- Every index of the output array is written: row p by the point p / 5000. -/
theorem rows_cover2 (i : S100000x128.Idx) :
    ∃ t : Fin cfg2.N, (cfg2.win 3).flush t = true ∧ i ∈ ((cfg2.win 3).blk t).view.set := by
  have hi0 : (i 0).val < 100000 := (i 0).isLt
  have hi1 : (i 1).val < 128 := (i 1).isLt
  have hN : cfg2.N = 20 := N_2
  have hlt : (i 0).val / 5000 < cfg2.N := by rw [hN]; omega
  obtain ⟨e0, e1, e2, e3, e4⟩ := blockIdx2 ⟨(i 0).val / 5000, hlt⟩
  refine ⟨⟨(i 0).val / 5000, hlt⟩, flush2_3 _, ?_⟩
  rw [mem_blk2]
  intro a
  match a with
  | ⟨0, _⟩ =>
    show win2_3.index ⟨(i 0).val / 5000, hlt⟩ (0 : Fin 2) * 5000 ≤ (i 0).val
      ∧ (i 0).val < win2_3.index ⟨(i 0).val / 5000, hlt⟩ (0 : Fin 2) * 5000 + 5000
    rw [e3]
    show (i 0).val / 5000 * 5000 ≤ (i 0).val ∧ (i 0).val < (i 0).val / 5000 * 5000 + 5000
    omega
  | ⟨1, _⟩ =>
    show win2_3.index ⟨(i 0).val / 5000, hlt⟩ (1 : Fin 2) * 128 ≤ (i 1).val
      ∧ (i 1).val < win2_3.index ⟨(i 0).val / 5000, hlt⟩ (1 : Fin 2) * 128 + 128
    rw [e4]
    omega

end Norm

/-- The third region's normalised output array is the normalised array of its two input arrays. -/
theorem arr2_3 (c : Dev nD) : ((dat2 (F := Ideal) V c).arrAt 3 cfg2.N)
    = Cert.Spec.normedArr (V c (Pipeline.arrRef spec2 0)) (V c (Pipeline.arrRef spec2 1)) :=
  (dat2 (F := Ideal) V c).arrAt_eq_of_cover 3
    (Cert.Spec.normedArr (V c (Pipeline.arrRef spec2 0)) (V c (Pipeline.arrRef spec2 1)))
    (fun t _ => Norm.flushed2_eq V c t) Norm.rows_cover2

end Cert.KernelIdeal.Val

end
-- ==== Proof.Region2Dense.lean ====
/-
  The third region's second output: each of its 20 grid points reads rows 5000 t ... 5000 t + 4999 of the aggregated
  feature array, the whole bias and the whole 128 x 128 weight, row-normalises the activated block and writes the
  product of that with the weight back to the same rows of the output array.  The normalisation of a row reads that
  row only, so the block's normalised row r is the array's normalised row 5000 t + r, and the output array is the
  product of the array's row-normalised activation with the weight, row p being written by grid point p / 5000.
-/
import proofs.«112115_j58961311039942_2_alg».proof.Proof.Gen.KernelIdeal.Frame
import proofs.«112115_j58961311039942_2_alg».proof.Proof.Spec
import proofs.«112115_j58961311039942_2_alg».proof.Proof.DenseBlock
import proofs.«112115_j58961311039942_2_alg».proof.Proof.NormBlock
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Val.Dense

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The stored block at entry (r, q): the block's row-normalised activation times the weight; the changes of float
    format are the identity on the extended reals, and the cast of the weight to its own shape is the identity. -/
theorem k2_pay2_apply (v0 : Vec Ideal S5000x128 .f32) (v2 : Vec Ideal S128 .f32) (v18 : Vec Ideal S128x128 .bf16)
    (r : Fin 5000) (q : Fin 128) :
    k2_pay2 (F := Ideal) v0 v2 v18 (ix2 r q) = ∑ k : Fin 128, Cert.Spec.normed v0 v2 r k * v18 (ix2 k q) := by
  unfold k2_pay2
  rw [shapeCast_self]
  refine (matmul_block_apply _ _ r q).trans ?_
  refine Finset.sum_congr rfl fun k _ => ?_
  show k2_pay1 (F := Ideal) v0 v2 (ix2 r k) * v18 (ix2 k q) = _
  rw [k2_pay1_apply]

/-- Entry (r, q) of a block's product is entry (p, q) of the arrays' product when the block's row r is the feature
    array's row p and the block's bias and weight are the bias and weight arrays. -/
theorem block_entry2 (A : Cert.Spec.Mat 100000 128) (B : Cert.Spec.Vec1 128) (W : Cert.Spec.Mat 128 128)
    (x0 : Vec Ideal S5000x128 .f32) (x1 : Vec Ideal S128 .f32) (x2 : Vec Ideal S128x128 .bf16)
    (r : Fin 5000) (q : Fin 128) (p : Fin 100000)
    (h0 : ∀ k : Fin 128, x0 (ix2 r k) = A (ix2 p k)) (h1 : ∀ k : Fin 128, x1 (ix1 k) = B (ix1 k))
    (h2 : ∀ k : Fin 128, x2 (ix2 k q) = W (ix2 k q))
    (j : S5000x128.Idx) (hj : j = ix2 r q) (i : S100000x128.Idx) (hi : i = ix2 p q) :
    k2_pay2 (F := Ideal) x0 x1 x2 j = Cert.Spec.denseArr (Cert.Spec.normedArr A B) W i := by
  subst hj hi
  rw [k2_pay2_apply, Cert.Spec.denseArr_ix2]
  unfold Cert.Spec.dense
  refine Finset.sum_congr rfl fun k _ => ?_
  rw [Cert.Spec.normedArr_ix2, h2 k, normed_congr_row x0 A x1 B r p h0 h1 k]

/-- The block indices of the windows at grid point t: the features and the product move down the rows with t, the
    bias and the weight stay. -/
theorem idx_facts2_4 : ∀ t : Fin cfg2.N, win2_0.index t (0 : Fin 2) = t.val ∧ win2_0.index t (1 : Fin 2) = 0
    ∧ win2_1.index t (0 : Fin 1) = 0
    ∧ win2_2.index t (0 : Fin 2) = 0 ∧ win2_2.index t (1 : Fin 2) = 0
    ∧ win2_4.index t (0 : Fin 2) = t.val ∧ win2_4.index t (1 : Fin 2) = 0 :=
  (by decide +kernel : ∀ t : Fin grid2.N, _)

/-- Row r of the feature block at grid point t is row 5000 t + r of the feature array. -/
theorem read_feat2 (c : Dev nD) (t : Fin cfg2.N) (r : Fin 5000) (k : Fin 128) (p : Fin 100000)
    (hp : p.val = 5000 * t.val + r.val) :
    (iblk2 V c 0 t : Vec Ideal S5000x128 .f32) (ix2 r k) = (V c (Pipeline.arrRef spec2 0) : Cert.Spec.Mat 100000 128) (ix2 p k) := by
  obtain ⟨e00, e01, -⟩ := idx_facts2_4 t
  show V c (Pipeline.arrRef spec2 0) (((cfg2.win 0).blk t).view.emb (ix2 r k)) = V c (Pipeline.arrRef spec2 0) _
  refine congrArg _ (funext fun a => Fin.ext ?_)
  match a with
  | ⟨0, _⟩ => show win2_0.index t (0 : Fin 2) * 5000 + 1 * r.val = p.val; omega
  | ⟨1, _⟩ => show win2_0.index t (1 : Fin 2) * 128 + 1 * k.val = k.val; omega

/-- The bias block at every grid point is the bias array. -/
theorem read_bias2 (c : Dev nD) (t : Fin cfg2.N) (k : Fin 128) :
    (iblk2 V c 1 t : Vec Ideal S128 .f32) (ix1 k) = (V c (Pipeline.arrRef spec2 1) : Cert.Spec.Vec1 128) (ix1 k) := by
  obtain ⟨-, -, e10, -⟩ := idx_facts2_4 t
  show V c (Pipeline.arrRef spec2 1) (((cfg2.win 1).blk t).view.emb (ix1 k)) = V c (Pipeline.arrRef spec2 1) _
  refine congrArg _ (funext fun a => Fin.ext ?_)
  match a with
  | ⟨0, _⟩ => show win2_1.index t (0 : Fin 1) * 128 + 1 * k.val = k.val; omega

/-- The weight block at every grid point is the weight array. -/
theorem read_weight2 (c : Dev nD) (t : Fin cfg2.N) (k q : Fin 128) :
    (iblk2 V c 2 t : Vec Ideal S128x128 .bf16) (ix2 k q) = (V c (Pipeline.arrRef spec2 2) : Cert.Spec.Mat 128 128) (ix2 k q) := by
  obtain ⟨-, -, -, e20, e21, -⟩ := idx_facts2_4 t
  show V c (Pipeline.arrRef spec2 2) (((cfg2.win 2).blk t).view.emb (ix2 k q)) = V c (Pipeline.arrRef spec2 2) _
  refine congrArg _ (funext fun a => Fin.ext ?_)
  match a with
  | ⟨0, _⟩ => show win2_2.index t (0 : Fin 2) * 128 + 1 * k.val = k.val; omega
  | ⟨1, _⟩ => show win2_2.index t (1 : Fin 2) * 128 + 1 * q.val = q.val; omega

/-- Entry (r, q) of the product block at grid point t sits at entry (5000 t + r, q) of the product array. -/
theorem emb_out2 (t : Fin cfg2.N) (j : S5000x128.Idx) (p : Fin 100000) (q : Fin 128)
    (hp : p.val = 5000 * t.val + (j 0).val) (hq : q.val = (j 1).val) :
    ((cfg2.win 4).blk t).view.emb j = ix2 p q := by
  obtain ⟨-, -, -, -, -, e40, e41⟩ := idx_facts2_4 t
  refine funext fun a => Fin.ext ?_
  match a with
  | ⟨0, _⟩ => show win2_4.index t (0 : Fin 2) * 5000 + 1 * (j 0).val = p.val; omega
  | ⟨1, _⟩ => show win2_4.index t (1 : Fin 2) * 128 + 1 * (j 1).val = q.val; omega

/-- What grid point t writes back is block t of the product of the row-normalised activation of the feature array
    with the weight array. -/
theorem flushed2_4 (c : Dev nD) (t : Fin cfg2.N) :
    (dat2 (F := Ideal) V c).flushed 4 t = ((cfg2.win 4).blk t).view.read (Elt Ideal)
      (Cert.Spec.denseArr (Cert.Spec.normedArr (V c (Pipeline.arrRef spec2 0)) (V c (Pipeline.arrRef spec2 1))) (V c (Pipeline.arrRef spec2 2))) := by
  show (cfg2.win 4).cut (grid2.coords t) ((dat2 (F := Ideal) V c).after 4 t) = _
  rw [after2_4]
  unfold out2_4
  rw [View.canon_unit_zero hz2]
  simp only [View.ld_unit_zero (S := S5000x128) hz2, View.ld_unit_zero (S := S128x128) hz2, View.ld_unit_zero (S := S128) hz1]
  have hN : cfg2.N = 20 := N_2
  have ht : t.val < 20 := hN ▸ t.isLt
  funext j
  have hj0 : (j 0).val < 5000 := (j 0).isLt
  have hj1 : (j 1).val < 128 := (j 1).isLt
  show k2_pay2 (F := Ideal) (iblk2 V c 0 t) (iblk2 V c 1 t) (iblk2 V c 2 t) j
    = Cert.Spec.denseArr (Cert.Spec.normedArr (V c (Pipeline.arrRef spec2 0)) (V c (Pipeline.arrRef spec2 1))) (V c (Pipeline.arrRef spec2 2))
        (((cfg2.win 4).blk t).view.emb j)
  refine block_entry2 _ _ _ _ _ _ ⟨(j 0).val, hj0⟩ ⟨(j 1).val, hj1⟩ ⟨5000 * t.val + (j 0).val, by omega⟩
    (fun k => read_feat2 V c t _ k _ rfl) (fun k => read_bias2 V c t k) (fun k => read_weight2 V c t k _) j ?_ _
    (emb_out2 t j _ _ rfl rfl)
  funext a
  match a with
  | ⟨0, _⟩ => rfl
  | ⟨1, _⟩ => rfl

/-- An index of the product array is in point t's block iff each coordinate is in the block's range on its axis. -/
theorem mem_blk2_4 (t : Fin cfg2.N) (i : S100000x128.Idx) :
    i ∈ ((cfg2.win 4).blk t).view.set ↔ ∀ a : Fin 2, win2_4.index t a * S5000x128.size a ≤ (i a).val ∧ (i a).val < win2_4.index t a * S5000x128.size a + S5000x128.size a := by
  show i ∈ ((View.whole main_v66_1).slice (win2_4.rect t)).set ↔ _
  rw [View.set_slice_whole, Rect.mem_set_unit]
  exact Iff.rfl

/-- Every row p of the product array is written back by grid point p / 5000. -/
theorem rows_covered2_4 (i : S100000x128.Idx) :
    ∃ t : Fin cfg2.N, (cfg2.win 4).flush t = true ∧ i ∈ ((cfg2.win 4).blk t).view.set := by
  have hN : cfg2.N = 20 := N_2
  have hi0 : (i 0).val < 100000 := (i 0).isLt
  have hi1 : (i 1).val < 128 := (i 1).isLt
  have hlt : (i 0).val / 5000 < cfg2.N := by rw [hN]; omega
  obtain ⟨-, -, -, -, -, e40, e41⟩ := idx_facts2_4 ⟨(i 0).val / 5000, hlt⟩
  have e40' : win2_4.index ⟨(i 0).val / 5000, hlt⟩ (0 : Fin 2) = (i 0).val / 5000 := e40
  refine ⟨⟨(i 0).val / 5000, hlt⟩, flush2_4 _, ?_⟩
  rw [mem_blk2_4]
  intro a
  match a with
  | ⟨0, _⟩ =>
    show win2_4.index ⟨(i 0).val / 5000, hlt⟩ (0 : Fin 2) * 5000 ≤ (i 0).val
      ∧ (i 0).val < win2_4.index ⟨(i 0).val / 5000, hlt⟩ (0 : Fin 2) * 5000 + 5000
    omega
  | ⟨1, _⟩ =>
    show win2_4.index ⟨(i 0).val / 5000, hlt⟩ (1 : Fin 2) * 128 ≤ (i 1).val
      ∧ (i 1).val < win2_4.index ⟨(i 0).val / 5000, hlt⟩ (1 : Fin 2) * 128 + 128
    omega

end Cert.KernelIdeal.Val.Dense

namespace Cert.KernelIdeal.Val

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The third region's second output array is the product of the row-normalised activation of its feature array
    (with its bias) with its weight array. -/
theorem arr2_4 (c : Dev nD) : ((dat2 (F := Ideal) V c).arrAt 4 cfg2.N) = Cert.Spec.denseArr (Cert.Spec.normedArr (V c (Pipeline.arrRef spec2 0)) (V c (Pipeline.arrRef spec2 1))) (V c (Pipeline.arrRef spec2 2)) :=
  (dat2 (F := Ideal) V c).arrAt_eq_of_cover 4 _ (fun t _ => Dense.flushed2_4 V c t) Dense.rows_covered2_4

end Cert.KernelIdeal.Val

end
-- ==== Proof.Region3.lean ====
/-
  The fourth region's normalised output, as one array.

  The region runs over 20 grid points; at point t it reads rows 5000 t ... 5000 t + 4999 of the aggregated features
  (window 0) and the whole bias (window 1), normalises the block row by row, and writes the result back to the same rows
  of the output (window 2).  A row's normalisation only reads that row, so the block written at point t is the
  block at t of the normalised array of the two input arrays; the 20 blocks cover every row (row p lies in block
  p / 5000), hence the output array is that normalised array.
-/
import Idealize.ShloMosaic.Lib.Pipeline.Value
import proofs.«112115_j58961311039942_2_alg».proof.Proof.Gen.KernelIdeal.Frame
import proofs.«112115_j58961311039942_2_alg».proof.Proof.NormBlock
import proofs.«112115_j58961311039942_2_alg».proof.Proof.NormRows

noncomputable section

namespace Cert.KernelIdeal.Val

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

namespace Norm

/-- The three windows' block indices at grid point t: the features and the output move down one block of rows per
    point, the bias stays. -/
theorem blockIdx3 : ∀ t : Fin cfg3.N,
    win3_0.index t (0 : Fin 2) = t.val ∧ win3_0.index t (1 : Fin 2) = 0
    ∧ win3_1.index t (0 : Fin 1) = 0
    ∧ win3_2.index t (0 : Fin 2) = t.val ∧ win3_2.index t (1 : Fin 2) = 0 :=
  (by decide +kernel : ∀ t : Fin grid3.N, _)

/-- What point t writes back is block t of the normalised array of the two input arrays. -/
theorem flushed3_eq (c : Dev nD) (t : Fin cfg3.N) :
    (dat3 (F := Ideal) V c).flushed 2 t = ((cfg3.win 2).blk t).view.read (Elt Ideal)
      (Cert.Spec.normedArr (V c (Pipeline.arrRef spec3 0)) (V c (Pipeline.arrRef spec3 1))) := by
  show (cfg3.win 2).cut (grid3.coords t) ((dat3 V c).after 2 t) = _
  rw [after3_2]
  unfold out3_2
  rw [View.canon_unit_zero zeroOff2]
  simp only [View.ld_unit_zero (S := S5000x128) zeroOff2, View.ld_unit_zero (S := S128) zeroOff1]
  obtain ⟨e0, e1, e2, e3, e4⟩ := blockIdx3 t
  funext y
  show k3_pay1 (F := Ideal) (iblk3 V c 0 t) (iblk3 V c 1 t) ((cfg3.win 2).xinj (grid3.coords t) y)
      = Cert.Spec.normedArr (V c (Pipeline.arrRef spec3 0)) (V c (Pipeline.arrRef spec3 1)) (((cfg3.win 2).blk t).view.emb y)
  refine block_entry_of_apply (fun v0 v2 => k3_pay1 (F := Ideal) v0 v2) k3_pay1_apply (iblk3 V c 0 t) (iblk3 V c 1 t)
    (V c (Pipeline.arrRef spec3 0)) (V c (Pipeline.arrRef spec3 1)) ((cfg3.win 2).xinj (grid3.coords t) y)
    (((cfg3.win 2).blk t).view.emb y) ?_ ?_ ?_
  · intro y' i' h0 h1 h2
    show V c (Pipeline.arrRef spec3 0) (((cfg3.win 0).blk t).view.emb y') = V c (Pipeline.arrRef spec3 0) i'
    refine congrArg _ (funext fun a => Fin.ext ?_)
    match a with
    | ⟨0, _⟩ =>
      show win3_0.index t (0 : Fin 2) * 5000 + 1 * (y' 0).val = (i' 0).val
      have h1' : (i' 0).val = win3_2.index t (0 : Fin 2) * 5000 + 1 * (y 0).val := h1
      have h0' : (y' 0).val = (y 0).val := h0
      omega
    | ⟨1, _⟩ =>
      show win3_0.index t (1 : Fin 2) * 128 + 1 * (y' 1).val = (i' 1).val
      omega
  · show win3_2.index t (1 : Fin 2) * 128 + 1 * (y 1).val = (y 1).val
    omega
  · intro j
    show V c (Pipeline.arrRef spec3 1) (((cfg3.win 1).blk t).view.emb (ix1 j)) = V c (Pipeline.arrRef spec3 1) (ix1 j)
    refine congrArg _ (funext fun a => Fin.ext ?_)
    match a with
    | ⟨0, _⟩ =>
      show win3_1.index t (0 : Fin 1) * 128 + 1 * j.val = j.val
      omega

/-- An index of the output array is in point t's block iff each coordinate is in the block's range on its axis. -/
theorem mem_blk3 (t : Fin cfg3.N) (i : S100000x128.Idx) :
    i ∈ ((cfg3.win 2).blk t).view.set ↔ ∀ a : Fin 2, win3_2.index t a * S5000x128.size a ≤ (i a).val
      ∧ (i a).val < win3_2.index t a * S5000x128.size a + S5000x128.size a := by
  show i ∈ ((View.whole main_v80).slice (win3_2.rect t)).set ↔ _
  rw [View.set_slice_whole, Rect.mem_set_unit]
  exact Iff.rfl

/-- Every index of the output array is written: row p by the point p / 5000. -/
theorem rows_cover3 (i : S100000x128.Idx) :
    ∃ t : Fin cfg3.N, (cfg3.win 2).flush t = true ∧ i ∈ ((cfg3.win 2).blk t).view.set := by
  have hi0 : (i 0).val < 100000 := (i 0).isLt
  have hi1 : (i 1).val < 128 := (i 1).isLt
  have hN : cfg3.N = 20 := N_3
  have hlt : (i 0).val / 5000 < cfg3.N := by rw [hN]; omega
  obtain ⟨e0, e1, e2, e3, e4⟩ := blockIdx3 ⟨(i 0).val / 5000, hlt⟩
  refine ⟨⟨(i 0).val / 5000, hlt⟩, flush3_2 _, ?_⟩
  rw [mem_blk3]
  intro a
  match a with
  | ⟨0, _⟩ =>
    show win3_2.index ⟨(i 0).val / 5000, hlt⟩ (0 : Fin 2) * 5000 ≤ (i 0).val
      ∧ (i 0).val < win3_2.index ⟨(i 0).val / 5000, hlt⟩ (0 : Fin 2) * 5000 + 5000
    rw [e3]
    show (i 0).val / 5000 * 5000 ≤ (i 0).val ∧ (i 0).val < (i 0).val / 5000 * 5000 + 5000
    omega
  | ⟨1, _⟩ =>
    show win3_2.index ⟨(i 0).val / 5000, hlt⟩ (1 : Fin 2) * 128 ≤ (i 1).val
      ∧ (i 1).val < win3_2.index ⟨(i 0).val / 5000, hlt⟩ (1 : Fin 2) * 128 + 128
    rw [e4]
    omega

end Norm

/-- The fourth region's normalised output array is the normalised array of its two input arrays. -/
theorem arr3_2 (c : Dev nD) : ((dat3 (F := Ideal) V c).arrAt 2 cfg3.N)
    = Cert.Spec.normedArr (V c (Pipeline.arrRef spec3 0)) (V c (Pipeline.arrRef spec3 1)) :=
  (dat3 (F := Ideal) V c).arrAt_eq_of_cover 2
    (Cert.Spec.normedArr (V c (Pipeline.arrRef spec3 0)) (V c (Pipeline.arrRef spec3 1)))
    (fun t _ => Norm.flushed3_eq V c t) Norm.rows_cover3

end Cert.KernelIdeal.Val

end
-- ==== Proof.FinalOps.lean ====
/-
  The last stage's operations read at one entry (p, q) of a 5000 x 8 block, on the extended reals:
  a product of a 5000 x 128 block with a 128 x 8 matrix is the sum over the shared axis; a vector of
  row values laid out as a column [5000] -> [5000, 1] and spread along the row [5000, 1] -> [5000, 8]
  reads the row's value at every entry; the bias [8] -> [1, 8] -> [5000, 8] reads the column's value;
  a reduction along the row reads the eight entries of that row.
-/
import proofs.«112115_j58961311039942_2_alg».proof.Proof.Gen.KernelIdeal.Skeleton
import proofs.«112115_j58961311039942_2_alg».proof.Proof.Spec
import Idealize.ShloMosaic.Lib.ValueLayout
import Idealize.ShloMosaic.PureOps.Ideal.Laws

noncomputable section

namespace Cert.KernelIdeal.Val.Final

open Cert.KernelIdeal Cert.KernelIdeal.Gen Idealize.ShloMosaic Idealize.ShloMosaic.ValueIdx
open scoped BigOperators

variable {α : Type}

/-! ## Layout: a column of row values, and its spread along the row -/

/-- An [a] array cast to [a, 1] reads, at (p, u), the operand at p, whatever the unit coordinate u. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An [a, 1] array broadcast to [a, b] reads, at (p, c), the operand's one entry of row p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The product of a block with a small matrix, at an entry -/

theorem lhs_row (i : S5000x8.Idx) (k : dot_S5000x128_S128x8_S5000x8_1_0_0_1_n_n.contr.Idx) :
    (dot_S5000x128_S128x8_S5000x8_1_0_0_1_n_n.lhsIdx i k 0).val = (i 0).val := by
  unfold DotDims.lhsIdx
  rw [dif_neg (show ¬(0 : Fin S5000x128.rank) ∈ dot_S5000x128_S128x8_S5000x8_1_0_0_1_n_n.lhsBatch by decide), dif_pos (show (0 : Fin S5000x128.rank) ∈ dot_S5000x128_S128x8_S5000x8_1_0_0_1_n_n.lhsNonContracting by decide)]
  rfl

theorem lhs_shared (i : S5000x8.Idx) (k : dot_S5000x128_S128x8_S5000x8_1_0_0_1_n_n.contr.Idx) :
    (dot_S5000x128_S128x8_S5000x8_1_0_0_1_n_n.lhsIdx i k 1).val = (k ⟨0, by decide⟩).val :=
  dot_S5000x128_S128x8_S5000x8_1_0_0_1_n_n.lhsIdx_val_of_single rfl i k

theorem rhs_shared (i : S5000x8.Idx) (k : dot_S5000x128_S128x8_S5000x8_1_0_0_1_n_n.contr.Idx) :
    (dot_S5000x128_S128x8_S5000x8_1_0_0_1_n_n.rhsIdx i k 0).val = (k ⟨0, by decide⟩).val :=
  dot_S5000x128_S128x8_S5000x8_1_0_0_1_n_n.rhsIdx_val_of_single rfl i k

theorem rhs_col (i : S5000x8.Idx) (k : dot_S5000x128_S128x8_S5000x8_1_0_0_1_n_n.contr.Idx) :
    (dot_S5000x128_S128x8_S5000x8_1_0_0_1_n_n.rhsIdx i k 1).val = (i 1).val := by
  unfold DotDims.rhsIdx
  rw [dif_neg (show ¬(1 : Fin S128x8.rank) ∈ dot_S5000x128_S128x8_S5000x8_1_0_0_1_n_n.rhsBatch by decide), dif_pos (show (1 : Fin S128x8.rank) ∈ dot_S5000x128_S128x8_S5000x8_1_0_0_1_n_n.rhsNonContracting by decide)]
  rfl

/-- Entry (p, q) of the product into the zero accumulator is the sum over the shared axis. -/
theorem matmul_zero_entry (x : FVec Ideal S5000x128 .bf16) (w : FVec Ideal S128x8 .bf16) (p : Fin 5000) (q : Fin 8) :
    matmul dot_S5000x128_S128x8_S5000x8_1_0_0_1_n_n none x w (constant S5000x8 .f32 0x00000000#32) (ix2 p q)
      = Cert.Spec.dense x w p q := by
  refine (Ideal.matmul_constant_zero_apply dot_S5000x128_S128x8_S5000x8_1_0_0_1_n_n none x w (ix2 p q)).trans ?_
  unfold Cert.Spec.dense
  rw [← Equiv.sum_comp (ValueIdx.contrEquiv1 dot_S5000x128_S128x8_S5000x8_1_0_0_1_n_n 128 rfl rfl).symm]
  refine Finset.sum_congr rfl fun k _ => ?_
  have hk := ValueIdx.contrEquiv1_symm_val dot_S5000x128_S128x8_S5000x8_1_0_0_1_n_n 128 rfl rfl k
  have el : dot_S5000x128_S128x8_S5000x8_1_0_0_1_n_n.lhsIdx (ix2 p q) ((ValueIdx.contrEquiv1 dot_S5000x128_S128x8_S5000x8_1_0_0_1_n_n 128 rfl rfl).symm k) = ix2 p k := funext fun a => Fin.ext (by
    match a with
    | ⟨0, _⟩ => exact lhs_row _ _
    | ⟨1, _⟩ => exact (lhs_shared _ _).trans hk)
  have er : dot_S5000x128_S128x8_S5000x8_1_0_0_1_n_n.rhsIdx (ix2 p q) ((ValueIdx.contrEquiv1 dot_S5000x128_S128x8_S5000x8_1_0_0_1_n_n 128 rfl rfl).symm k) = ix2 k q := funext fun a => Fin.ext (by
    match a with
    | ⟨0, _⟩ => exact (rhs_shared _ _).trans hk
    | ⟨1, _⟩ => exact rhs_col _ _)
  rw [el, er]

/-! ## Reductions along the row -/

/-- The entry of row p the reduction along the row meets at position k. -/
theorem lift_row (h : S5000x8.Reduces [1] S5000) (p : Fin 5000) (k : Fin 8) :
    h.lift (ix1 p) k = ix2 p k := funext fun a => Fin.ext (by
  match a with
  | ⟨0, _⟩ => rfl
  | ⟨1, _⟩ => rfl)

/-- The maximum along the row, from minus infinity, at row p. -/
theorem rowMax_entry (z : FVec Ideal S5000x8 .f32) (h : S5000x8.Reduces [1] S5000) (hφ : FKind.Formats .f32)
    (hacc : (0xFF800000#32 : BitVec 32) = 0xFF800000#32) (p : Fin 5000) :
    multiReduction .maximumf [1] S5000 z 0xFF800000#32 h hφ hacc (ix1 p) = Cert.Spec.rowMax (fun k => z (ix2 p k)) := by
  refine (Ideal.multiReduction_maximumf_single z 0xFF800000#32 h hφ hacc (ix1 p)).trans ?_
  unfold Cert.Spec.rowMax Cert.Spec.negInf
  exact congrArg (fun f : Fin 8 → EReal => (Finset.univ : Finset (Fin 8)).fold max (Ideal.ofBits .f32 0xFF800000#32) f)
    (funext fun k => congrArg z (lift_row h p k))

/-- The sum along the row at row p. -/
theorem rowSum_entry (z : FVec Ideal S5000x8 .f32) (h : S5000x8.Reduces [1] S5000) (hφ : FKind.Formats .f32)
    (hacc : (0x00000000#32 : BitVec 32) = 0x00000000#32) (p : Fin 5000) :
    multiReduction .add [1] S5000 z 0x00000000#32 h hφ hacc (ix1 p) = ∑ k : Fin 8, z (ix2 p k) := by
  refine (Ideal.multiReduction_add_single z 0x00000000#32 h hφ hacc (ix1 p)).trans ?_
  exact Finset.sum_congr rfl fun k _ => congrArg z (lift_row h p k)

end Cert.KernelIdeal.Val.Final

end
-- ==== Proof.FinalPayload.lean ====
/-
  What the last stage stores at entry (p, q) of its 5000 x 8 block: the logits of row p are three
  products (one per layer's output block, against a 128 x 8 matrix) added left to right, plus the bias;
  the stored value is the logarithm of the softmax of that row at q:
  (z[q] - max z) - log (sum_r exp (z[r] - max z)).
-/
import proofs.«112115_j58961311039942_2_alg».proof.Proof.FinalOps

noncomputable section

namespace Cert.KernelIdeal.Val.Final

open Cert.KernelIdeal Cert.KernelIdeal.Gen Idealize.ShloMosaic Idealize.ShloMosaic.ValueIdx
open scoped BigOperators

/-! ## The block's values, cut into named pieces -/

/-- One layer's product: the block (kept as it is by the cast and the narrowing, which are the identity on
    the extended reals) times the 128 x 8 matrix, into the zero accumulator. -/
def prodBlk (o : Vec Ideal S5000x128 .f32) (w : Vec Ideal S128x8 .bf16) : FVec Ideal S5000x8 .f32 :=
  matmul (φ₁ := .bf16) (φ₂ := .bf16) dot_S5000x128_S128x8_S5000x8_1_0_0_1_n_n none
    (truncf .bf16 (shapeCast S5000x128 o shapeCasts_S5000x128_S5000x128 : FVec Ideal S5000x128 .f32) bitsLt_bf16_f32)
    (shapeCast S128x8 w shapeCasts_S128x8_S128x8 : FVec Ideal S128x8 .bf16) (constant S5000x8 .f32 0x00000000#32)

/-- The logits of the block: three products added left to right, then the bias along each row. -/
def logitsBlk (o1 o2 o3 : Vec Ideal S5000x128 .f32) (w1 w2 w3 : Vec Ideal S128x8 .bf16) (b : Vec Ideal S8 .f32) :
    FVec Ideal S5000x8 .f32 :=
  addf (addf (addf (prodBlk o1 w1) (prodBlk o2 w2)) (prodBlk o3 w3))
    (broadcastTo S5000x8 (shapeCast S1x8 b shapeCasts_S8_S1x8) broadcasts_S1x8_S5000x8)

/-- Each row's maximum, spread along the row. -/
def rowMaxBlk (z : FVec Ideal S5000x8 .f32) : FVec Ideal S5000x8 .f32 :=
  broadcastTo S5000x8
    (shapeCast S5000x1 (multiReduction .maximumf [1] S5000 z 0xFF800000#32 reduces_S5000x8_S5000 (.inl rfl) rfl)
      shapeCasts_S5000_S5000x1) broadcasts_S5000x1_S5000x8

/-- The logarithm of each row's sum of exponentials, spread along the row. -/
def logSumExpBlk (s : FVec Ideal S5000x8 .f32) : FVec Ideal S5000x8 .f32 :=
  broadcastTo S5000x8
    (log (shapeCast S5000x1 (multiReduction .add [1] S5000 (exp s) 0x00000000#32 reduces_S5000x8_S5000 (.inl rfl) rfl)
      shapeCasts_S5000_S5000x1)) broadcasts_S5000x1_S5000x8

/-- The logarithm of the softmax along each row. -/
def logSoftmaxBlk (z : FVec Ideal S5000x8 .f32) : FVec Ideal S5000x8 .f32 :=
  subf (subf z (rowMaxBlk z)) (logSumExpBlk (subf z (rowMaxBlk z)))

/-- The stored value is the log-softmax of the logits block. -/
theorem pay_eq (o1 o2 o3 : Vec Ideal S5000x128 .f32) (w1 w2 w3 : Vec Ideal S128x8 .bf16) (b : Vec Ideal S8 .f32) :
    k4_pay1 (F := Ideal) o1 o2 o3 w1 w2 w3 b = logSoftmaxBlk (logitsBlk o1 o2 o3 w1 w2 w3 b) := rfl

/-! ## Each piece at an entry -/

/-- Entry (p, q) of one layer's product. -/
theorem prodBlk_entry (o : Vec Ideal S5000x128 .f32) (w : Vec Ideal S128x8 .bf16) (p : Fin 5000) (q : Fin 8) :
    prodBlk o w (ix2 p q) = Cert.Spec.dense o w p q := by
  have eo : (truncf .bf16 (shapeCast S5000x128 o shapeCasts_S5000x128_S5000x128) bitsLt_bf16_f32 : FVec Ideal S5000x128 .bf16) = o := by
    rw [shapeCast_self]; rfl
  have ew : (shapeCast S128x8 w shapeCasts_S128x8_S128x8 : FVec Ideal S128x8 .bf16) = w := shapeCast_self w _
  unfold prodBlk
  rw [eo, ew]
  exact matmul_zero_entry o w p q

/-- Entry (p, q) of the bias spread over the rows. -/
theorem bias_entry (b : Vec Ideal S8 .f32) (p : Fin 5000) (q : Fin 8) :
    broadcastTo S5000x8 (shapeCast S1x8 b shapeCasts_S8_S1x8) broadcasts_S1x8_S5000x8 (ix2 p q) = b (ix1 q) :=
  (broadcastTo_1b_ab_apply (shapeCast S1x8 b shapeCasts_S8_S1x8) broadcasts_S1x8_S5000x8 p q).trans
    (shapeCast_a_1a_apply b shapeCasts_S8_S1x8 (0 : Fin 1) q)

/-- Entry (p, q) of the logits. -/
theorem logitsBlk_entry (o1 o2 o3 : Vec Ideal S5000x128 .f32) (w1 w2 w3 : Vec Ideal S128x8 .bf16) (b : Vec Ideal S8 .f32)
    (p : Fin 5000) (q : Fin 8) :
    logitsBlk o1 o2 o3 w1 w2 w3 b (ix2 p q) = Cert.Spec.logit o1 o2 o3 w1 w2 w3 b p q := by
  unfold logitsBlk Cert.Spec.logit
  rw [addf_apply, addf_apply, addf_apply, prodBlk_entry, prodBlk_entry, prodBlk_entry, bias_entry]

/-- Entry (p, q) of the spread row maximum: the largest logit of row p. -/
theorem rowMaxBlk_entry (z : FVec Ideal S5000x8 .f32) (p : Fin 5000) (q : Fin 8) :
    rowMaxBlk z (ix2 p q) = Cert.Spec.rowMax (fun k => z (ix2 p k)) :=
  (broadcastTo_a1_ab_apply _ broadcasts_S5000x1_S5000x8 p q).trans
    ((shapeCast_a_a1_apply _ shapeCasts_S5000_S5000x1 p (0 : Fin 1)).trans
      (rowMax_entry z reduces_S5000x8_S5000 (.inl rfl) rfl p))

/-- Entry (p, q) of the spread logarithm of the row's sum of exponentials. -/
theorem logSumExpBlk_entry (s : FVec Ideal S5000x8 .f32) (p : Fin 5000) (q : Fin 8) :
    logSumExpBlk s (ix2 p q) = Ideal.log (∑ k : Fin 8, Ideal.exp (s (ix2 p k))) :=
  (broadcastTo_a1_ab_apply _ broadcasts_S5000x1_S5000x8 p q).trans
    (congrArg Ideal.log ((shapeCast_a_a1_apply _ shapeCasts_S5000_S5000x1 p (0 : Fin 1)).trans
      (rowSum_entry (exp s) reduces_S5000x8_S5000 (.inl rfl) rfl p)))

/-- Entry (p, q) of the log-softmax block: the log-softmax of row p at q. -/
theorem logSoftmaxBlk_entry (z : FVec Ideal S5000x8 .f32) (p : Fin 5000) (q : Fin 8) :
    logSoftmaxBlk z (ix2 p q) = Cert.Spec.logSoftmax (fun k => z (ix2 p k)) q := by
  unfold logSoftmaxBlk Cert.Spec.logSoftmax
  rw [subf_apply, subf_apply, logSumExpBlk_entry, rowMaxBlk_entry]
  refine congrArg (fun t => (z (ix2 p q) - Cert.Spec.rowMax (fun k => z (ix2 p k))) - Ideal.log t) ?_
  refine Finset.sum_congr rfl fun k _ => ?_
  rw [subf_apply, rowMaxBlk_entry]

end Cert.KernelIdeal.Val.Final

namespace Cert.KernelIdeal.Val

open Cert.KernelIdeal Cert.KernelIdeal.Gen Idealize.ShloMosaic Idealize.ShloMosaic.ValueIdx
open Cert.KernelIdeal.Val.Final

/-- THE STORED VALUE at entry (p, q): the result's entry, from the three blocks, the matrices and the bias. -/
theorem pay_entry (o1 o2 o3 : Vec Ideal S5000x128 .f32) (w1 w2 w3 : Vec Ideal S128x8 .bf16) (b : Vec Ideal S8 .f32)
    (p : Fin 5000) (q : Fin 8) :
    k4_pay1 (F := Ideal) o1 o2 o3 w1 w2 w3 b (ix2 p q) = Cert.Spec.out o1 o2 o3 w1 w2 w3 b p q := by
  rw [pay_eq, logSoftmaxBlk_entry]
  unfold Cert.Spec.out
  exact congrArg (fun f => Cert.Spec.logSoftmax f q) (funext fun k => logitsBlk_entry o1 o2 o3 w1 w2 w3 b p k)

end Cert.KernelIdeal.Val

end
-- ==== Proof.FinalBlocks.lean ====
/-
  The blocks the last region's grid points read, as rows of the arrays the region finds: at point t the three
  layers' outputs are read in rows 5000 t … 5000 t + 4999, the three 128 x 8 matrices and the bias whole.
  Entry (p, q) of the result depends only on row p of the three outputs (each product sums along that row).
-/
import proofs.«112115_j58961311039942_2_alg».proof.Proof.Gen.KernelIdeal.Frame
import proofs.«112115_j58961311039942_2_alg».proof.Proof.FinalPayload
import Idealize.ShloMosaic.Lib.Pipeline.Value

noncomputable section

namespace Cert.KernelIdeal.Val.Final

open Cert.KernelIdeal Cert.KernelIdeal.Gen Idealize.ShloMosaic Idealize.ShloMosaic.TcCoe Idealize.ShloMosaic.ValueIdx Idealize.SL.Sem
open Idealize.ShloMosaic.Pipeline (Dat Cfg Window)
open scoped BigOperators

variable (V : (c : Dev nD) → (b : Ref sig .tc) → Buf (Elt Ideal) ((c : Thread nD τ).loc b))

/-! ## A row of the result depends on the same row of the three outputs -/

theorem dense_row_congr {n n' d e : Nat} (x : Cert.Spec.Mat n d) (x' : Cert.Spec.Mat n' d) (w : Cert.Spec.Mat d e)
    (p : Fin n) (p' : Fin n') (h : ∀ k : Fin d, x (ix2 p k) = x' (ix2 p' k)) (q : Fin e) :
    Cert.Spec.dense x w p q = Cert.Spec.dense x' w p' q := by
  unfold Cert.Spec.dense
  exact Finset.sum_congr rfl fun k _ => by rw [h k]

theorem out_row_congr {n n' : Nat} (o1 o2 o3 : Cert.Spec.Mat n 128) (o1' o2' o3' : Cert.Spec.Mat n' 128)
    (w1 w2 w3 : Cert.Spec.Mat 128 8) (b : Cert.Spec.Vec1 8) (p : Fin n) (p' : Fin n')
    (h1 : ∀ k : Fin 128, o1 (ix2 p k) = o1' (ix2 p' k)) (h2 : ∀ k : Fin 128, o2 (ix2 p k) = o2' (ix2 p' k))
    (h3 : ∀ k : Fin 128, o3 (ix2 p k) = o3' (ix2 p' k)) (q : Fin 8) :
    Cert.Spec.out o1 o2 o3 w1 w2 w3 b p q = Cert.Spec.out o1' o2' o3' w1 w2 w3 b p' q := by
  unfold Cert.Spec.out
  refine congrArg (fun f => Cert.Spec.logSoftmax f q) (funext fun r => ?_)
  unfold Cert.Spec.logit
  rw [dense_row_congr o1 o1' w1 p p' h1, dense_row_congr o2 o2' w2 p p' h2, dense_row_congr o3 o3' w3 p p' h3]

/-! ## Where each window's block sits -/

theorem hz2 : (![0, 0] : Fin 2 → Nat) = fun _ => 0 := funext fun a => by fin_cases a <;> rfl
theorem hz1 : (![0] : Fin 1 → Nat) = fun _ => 0 := funext fun a => by fin_cases a <;> rfl

/-- The index maps over the grid: the three outputs' blocks and the result's block are block t of the rows; the
    matrices and the bias are read whole at every point. -/
theorem idx_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 1) = 0
    ∧ win4_7.index t (0 : Fin 2) = t.val ∧ win4_7.index t (1 : Fin 2) = 0 :=
  (by decide +kernel : ∀ t : Fin grid4.N, _)

/-- Row p of an output's block at point t is row 5000 t + p of its array. -/
theorem iblk4_0_row (c : Dev nD) (t : Fin cfg4.N) (p : Fin 5000) (P : Fin 100000) (hP : P.val = t.val * 5000 + p.val) (k : Fin 128) :
    (iblk4 V c 0 t : Vec Ideal S5000x128 .f32) (ix2 p k) = (V c (Pipeline.arrRef spec4 0) : S100000x128.Idx → EReal) (ix2 P k) := by
  obtain ⟨e0, e1, -⟩ := idx_facts t
  unfold iblk4
  rw [View.read_apply]
  refine congrArg (V c (Pipeline.arrRef spec4 0) : S100000x128.Idx → EReal) (funext fun a => Fin.ext ?_)
  match a with
  | ⟨0, _⟩ => show win4_0.index t (0 : Fin 2) * 5000 + 1 * p.val = P.val; rw [e0, hP]; omega
  | ⟨1, _⟩ => show win4_0.index t (1 : Fin 2) * 128 + 1 * k.val = k.val; rw [e1]; omega

theorem iblk4_1_row (c : Dev nD) (t : Fin cfg4.N) (p : Fin 5000) (P : Fin 100000) (hP : P.val = t.val * 5000 + p.val) (k : Fin 128) :
    (iblk4 V c 1 t : Vec Ideal S5000x128 .f32) (ix2 p k) = (V c (Pipeline.arrRef spec4 1) : S100000x128.Idx → EReal) (ix2 P k) := by
  obtain ⟨-, -, e0, e1, -⟩ := idx_facts t
  unfold iblk4
  rw [View.read_apply]
  refine congrArg (V c (Pipeline.arrRef spec4 1) : S100000x128.Idx → EReal) (funext fun a => Fin.ext ?_)
  match a with
  | ⟨0, _⟩ => show win4_1.index t (0 : Fin 2) * 5000 + 1 * p.val = P.val; rw [e0, hP]; omega
  | ⟨1, _⟩ => show win4_1.index t (1 : Fin 2) * 128 + 1 * k.val = k.val; rw [e1]; omega

theorem iblk4_2_row (c : Dev nD) (t : Fin cfg4.N) (p : Fin 5000) (P : Fin 100000) (hP : P.val = t.val * 5000 + p.val) (k : Fin 128) :
    (iblk4 V c 2 t : Vec Ideal S5000x128 .f32) (ix2 p k) = (V c (Pipeline.arrRef spec4 2) : S100000x128.Idx → EReal) (ix2 P k) := by
  obtain ⟨-, -, -, -, e0, e1, -⟩ := idx_facts t
  unfold iblk4
  rw [View.read_apply]
  refine congrArg (V c (Pipeline.arrRef spec4 2) : S100000x128.Idx → EReal) (funext fun a => Fin.ext ?_)
  match a with
  | ⟨0, _⟩ => show win4_2.index t (0 : Fin 2) * 5000 + 1 * p.val = P.val; rw [e0, hP]; omega
  | ⟨1, _⟩ => show win4_2.index t (1 : Fin 2) * 128 + 1 * k.val = k.val; rw [e1]; omega

/-- The three matrices and the bias are read whole at every point. -/
theorem iblk4_3_eq (c : Dev nD) (t : Fin cfg4.N) :
    (iblk4 V c 3 t : Vec Ideal S128x8 .bf16) = (V c (Pipeline.arrRef spec4 3) : S128x8.Idx → EReal) := by
  obtain ⟨-, -, -, -, -, -, e0, e1, -⟩ := idx_facts t
  funext x
  unfold iblk4
  rw [View.read_apply]
  refine congrArg (V c (Pipeline.arrRef spec4 3) : S128x8.Idx → EReal) (funext fun a => Fin.ext ?_)
  match a with
  | ⟨0, _⟩ => show win4_3.index t (0 : Fin 2) * 128 + 1 * (x 0).val = (x 0).val; rw [e0]; omega
  | ⟨1, _⟩ => show win4_3.index t (1 : Fin 2) * 8 + 1 * (x 1).val = (x 1).val; rw [e1]; omega

theorem iblk4_4_eq (c : Dev nD) (t : Fin cfg4.N) :
    (iblk4 V c 4 t : Vec Ideal S128x8 .bf16) = (V c (Pipeline.arrRef spec4 4) : S128x8.Idx → EReal) := by
  obtain ⟨-, -, -, -, -, -, -, -, e0, e1, -⟩ := idx_facts t
  funext x
  unfold iblk4
  rw [View.read_apply]
  refine congrArg (V c (Pipeline.arrRef spec4 4) : S128x8.Idx → EReal) (funext fun a => Fin.ext ?_)
  match a with
  | ⟨0, _⟩ => show win4_4.index t (0 : Fin 2) * 128 + 1 * (x 0).val = (x 0).val; rw [e0]; omega
  | ⟨1, _⟩ => show win4_4.index t (1 : Fin 2) * 8 + 1 * (x 1).val = (x 1).val; rw [e1]; omega

theorem iblk4_5_eq (c : Dev nD) (t : Fin cfg4.N) :
    (iblk4 V c 5 t : Vec Ideal S128x8 .bf16) = (V c (Pipeline.arrRef spec4 5) : S128x8.Idx → EReal) := by
  obtain ⟨-, -, -, -, -, -, -, -, -, -, e0, e1, -⟩ := idx_facts t
  funext x
  unfold iblk4
  rw [View.read_apply]
  refine congrArg (V c (Pipeline.arrRef spec4 5) : S128x8.Idx → EReal) (funext fun a => Fin.ext ?_)
  match a with
  | ⟨0, _⟩ => show win4_5.index t (0 : Fin 2) * 128 + 1 * (x 0).val = (x 0).val; rw [e0]; omega
  | ⟨1, _⟩ => show win4_5.index t (1 : Fin 2) * 8 + 1 * (x 1).val = (x 1).val; rw [e1]; omega

theorem iblk4_6_eq (c : Dev nD) (t : Fin cfg4.N) :
    (iblk4 V c 6 t : Vec Ideal S8 .f32) = (V c (Pipeline.arrRef spec4 6) : S8.Idx → EReal) := by
  obtain ⟨-, -, -, -, -, -, -, -, -, -, -, -, e0, -⟩ := idx_facts t
  funext x
  unfold iblk4
  rw [View.read_apply]
  refine congrArg (V c (Pipeline.arrRef spec4 6) : S8.Idx → EReal) (funext fun a => Fin.ext ?_)
  match a with
  | ⟨0, _⟩ => show win4_6.index t (0 : Fin 1) * 8 + 1 * (x 0).val = (x 0).val; rw [e0]; omega

/-! ## The result function -/

/-- The result array as one function of the region's seven input arrays. -/
abbrev resultOf (c : Dev nD) : S100000x8.Idx → EReal :=
  Cert.Spec.outArr (V c (Pipeline.arrRef spec4 0)) (V c (Pipeline.arrRef spec4 1)) (V c (Pipeline.arrRef spec4 2))
    (V c (Pipeline.arrRef spec4 3)) (V c (Pipeline.arrRef spec4 4)) (V c (Pipeline.arrRef spec4 5)) (V c (Pipeline.arrRef spec4 6))

/-- A block entry (p, q) whose three rows are row P of the three arrays is the result function's entry (P, q). -/
theorem blk_entry (A0 A1 A2 : Cert.Spec.Mat 100000 128) (W1 W2 W3 : Cert.Spec.Mat 128 8) (B : Cert.Spec.Vec1 8)
    (x0 x1 x2 : Vec Ideal S5000x128 .f32) (P : Fin 100000) (p : Fin 5000) (q : Fin 8)
    (h0 : ∀ k : Fin 128, x0 (ix2 p k) = A0 (ix2 P k)) (h1 : ∀ k : Fin 128, x1 (ix2 p k) = A1 (ix2 P k))
    (h2 : ∀ k : Fin 128, x2 (ix2 p k) = A2 (ix2 P k)) :
    k4_pay1 (F := Ideal) x0 x1 x2 W1 W2 W3 B (ix2 p q) = Cert.Spec.outArr A0 A1 A2 W1 W2 W3 B (ix2 P q) :=
  (pay_entry x0 x1 x2 W1 W2 W3 B p q).trans
    (out_row_congr (n := 5000) (n' := 100000) x0 x1 x2 A0 A1 A2 W1 W2 W3 B p P h0 h1 h2 q)

end Cert.KernelIdeal.Val.Final

end
-- ==== Proof.FinalFlush.lean ====
/-
  What a grid point of the last region writes back: the stored value of the blocks it read, which at entry
  (p, q) of the block is the result function at row 5000 t + p, column q of the array.
-/
import proofs.«112115_j58961311039942_2_alg».proof.Proof.FinalBlocks

noncomputable section

namespace Cert.KernelIdeal.Val.Final

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## What a point writes back -/

/-- What point t writes back is the stored value of the blocks it read: the three outputs' blocks, the matrices and the bias whole. -/
theorem flushed4_7_pay (c : Dev nD) (t : Fin cfg4.N) :
    (dat4 (F := Ideal) V c).flushed 7 t
      = (cfg4.win 7).cut (grid4.coords t)
          (k4_pay1 (F := Ideal) (iblk4 V c 0 t) (iblk4 V c 1 t) (iblk4 V c 2 t) (V c (Pipeline.arrRef spec4 3))
            (V c (Pipeline.arrRef spec4 4)) (V c (Pipeline.arrRef spec4 5)) (V c (Pipeline.arrRef spec4 6))) := by
  show (cfg4.win 7).cut (grid4.coords t) ((dat4 (F := Ideal) V c).after 7 t) = _
  rw [after4_7]
  unfold out4_7
  rw [View.canon_unit_zero hz2]
  simp only [View.ld_unit_zero (S := S5000x128) hz2, View.ld_unit_zero (S := S128x8) hz2, View.ld_unit_zero (S := S8) hz1]
  rw [iblk4_3_eq, iblk4_4_eq, iblk4_5_eq, iblk4_6_eq]

/-- Entry j of that stored block is the result function at the entry's place in the array. -/
theorem pay_at (c : Dev nD) (t : Fin cfg4.N) (j : ((cfg4.win 7).xblock (grid4.coords t)).Idx) :
    (cfg4.win 7).cut (grid4.coords t)
        (k4_pay1 (F := Ideal) (iblk4 V c 0 t) (iblk4 V c 1 t) (iblk4 V c 2 t) (V c (Pipeline.arrRef spec4 3))
          (V c (Pipeline.arrRef spec4 4)) (V c (Pipeline.arrRef spec4 5)) (V c (Pipeline.arrRef spec4 6))) j
      = ((cfg4.win 7).blk t).view.read (Elt Ideal) (resultOf V c) j := by
  obtain ⟨-, -, -, -, -, -, -, -, -, -, -, -, -, e0, e1⟩ := idx_facts t
  have hj0 : (j 0).val < 5000 := (j 0).isLt
  have hj1 : (j 1).val < 8 := (j 1).isLt
  have ht : t.val < 20 := lt_of_lt_of_eq t.isLt (show cfg4.N = 20 from N_4)
  obtain ⟨p, hp⟩ : ∃ p : Fin 5000, p.val = (j 0).val := ⟨⟨(j 0).val, hj0⟩, rfl⟩
  obtain ⟨q, hq⟩ : ∃ q : Fin 8, q.val = (j 1).val := ⟨⟨(j 1).val, hj1⟩, rfl⟩
  obtain ⟨P, hP⟩ : ∃ P : Fin 100000, P.val = t.val * 5000 + p.val := ⟨⟨t.val * 5000 + p.val, by have := p.isLt; omega⟩, rfl⟩
  have hx : (win4 7).xinj (grid4.coords t) j = ix2 p q := funext fun a => Fin.ext (by
    match a with
    | ⟨0, _⟩ => exact hp.symm
    | ⟨1, _⟩ => exact hq.symm)
  have hi : ((View.whole main_v81).slice ((win4 7).rect t)).emb j = ix2 P q := funext fun a => Fin.ext (by
    match a with
    | ⟨0, _⟩ => show win4_7.index t (0 : Fin 2) * 5000 + 1 * (j 0).val = P.val; rw [e0, hP, hp]; omega
    | ⟨1, _⟩ => show win4_7.index t (1 : Fin 2) * 8 + 1 * (j 1).val = q.val; rw [e1, hq]; omega)
  rw [View.read_apply, hi]
  refine Eq.trans (congrArg (k4_pay1 (F := Ideal) (iblk4 V c 0 t) (iblk4 V c 1 t) (iblk4 V c 2 t) (V c (Pipeline.arrRef spec4 3))
      (V c (Pipeline.arrRef spec4 4)) (V c (Pipeline.arrRef spec4 5)) (V c (Pipeline.arrRef spec4 6))) hx) ?_
  refine Eq.trans ?_ (cast_eq _ _).symm
  exact blk_entry (V c (Pipeline.arrRef spec4 0)) (V c (Pipeline.arrRef spec4 1)) (V c (Pipeline.arrRef spec4 2))
    (V c (Pipeline.arrRef spec4 3)) (V c (Pipeline.arrRef spec4 4)) (V c (Pipeline.arrRef spec4 5)) (V c (Pipeline.arrRef spec4 6))
    (iblk4 V c 0 t) (iblk4 V c 1 t) (iblk4 V c 2 t) P p q
    (fun k => iblk4_0_row V c t p P hP k) (fun k => iblk4_1_row V c t p P hP k) (fun k => iblk4_2_row V c t p P hP k)

/-- WHAT POINT t WRITES BACK is block t of the result function. -/
theorem flushed4_7_eq (c : Dev nD) (t : Fin cfg4.N) :
    (dat4 (F := Ideal) V c).flushed 7 t = ((cfg4.win 7).blk t).view.read (Elt Ideal) (resultOf V c) :=
  (flushed4_7_pay V c t).trans (funext fun j => pay_at V c t j)

end Cert.KernelIdeal.Val.Final

end
-- ==== Proof.Region4.lean ====
/-
  The last region's result array, as one function of the arrays the region finds.

  The grid has 20 points; point t reads rows 5000 t … 5000 t + 4999 of the three layers' outputs, the three
  128 x 8 matrices and the bias whole, and writes rows 5000 t … 5000 t + 4999 of the result: that block of the
  whole-array function (entry (p, q) of the result depends only on row p of the three outputs). The twenty
  blocks tile the 100000 rows (row r lies in the block of point r / 5000), hence the array ends holding that
  function everywhere.
-/
import proofs.«112115_j58961311039942_2_alg».proof.Proof.FinalFlush

noncomputable section

namespace Cert.KernelIdeal.Val.Final

open Cert.KernelIdeal Cert.KernelIdeal.Gen Idealize.ShloMosaic Idealize.ShloMosaic.TcCoe Idealize.ShloMosaic.ValueIdx Idealize.SL.Sem
open Idealize.ShloMosaic.Pipeline (Dat Cfg Window)

/-! ## The blocks tile the rows -/

/-- An index of the array is in point t's block iff each coordinate is in the block's range on its axis. -/
theorem mem_blk7 (t : Fin cfg4.N) (i : S100000x8.Idx) :
    i ∈ ((cfg4.win 7).blk t).view.set ↔ ∀ a : Fin 2, win4_7.index t a * S5000x8.size a ≤ (i a).val ∧ (i a).val < win4_7.index t a * S5000x8.size a + S5000x8.size a := by
  show i ∈ ((View.whole main_v81).slice (win4_7.rect t)).set ↔ _
  rw [View.set_slice_whole, Rect.mem_set_unit]
  exact Iff.rfl

/-- Row r of the array lies in the block of point r / 5000. -/
theorem cover7 (i : S100000x8.Idx) :
    ∃ t : Fin cfg4.N, (cfg4.win 7).flush t = true ∧ i ∈ ((cfg4.win 7).blk t).view.set := by
  have hi0 : (i 0).val < 100000 := (i 0).isLt
  have hi1 : (i 1).val < 8 := (i 1).isLt
  have hN : cfg4.N = 20 := N_4
  obtain ⟨t, ht⟩ : ∃ t : Fin cfg4.N, t.val = (i 0).val / 5000 := ⟨⟨(i 0).val / 5000, by rw [hN]; omega⟩, rfl⟩
  obtain ⟨-, -, -, -, -, -, -, -, -, -, -, -, -, e0, e1⟩ := idx_facts t
  refine ⟨t, flush4_7 t, ?_⟩
  rw [mem_blk7]
  intro a
  match a with
  | ⟨0, _⟩ =>
    show win4_7.index t (0 : Fin 2) * 5000 ≤ (i 0).val ∧ (i 0).val < win4_7.index t (0 : Fin 2) * 5000 + 5000
    rw [e0, ht]; omega
  | ⟨1, _⟩ =>
    show win4_7.index t (1 : Fin 2) * 8 ≤ (i 1).val ∧ (i 1).val < win4_7.index t (1 : Fin 2) * 8 + 8
    rw [e1]; omega

end Cert.KernelIdeal.Val.Final

namespace Cert.KernelIdeal.Val

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- THE RESULT ARRAY after the last region: row by row, the logarithm of the softmax of the logits of the arrays
    the region finds. -/
theorem arr4_7 (c : Dev nD) :
    ((dat4 (F := Ideal) V c).arrAt 7 cfg4.N)
      = Cert.Spec.outArr (V c (Pipeline.arrRef spec4 0)) (V c (Pipeline.arrRef spec4 1)) (V c (Pipeline.arrRef spec4 2))
          (V c (Pipeline.arrRef spec4 3)) (V c (Pipeline.arrRef spec4 4)) (V c (Pipeline.arrRef spec4 5))
          (V c (Pipeline.arrRef spec4 6)) :=
  (dat4 (F := Ideal) V c).arrAt_eq_of_cover 7 (Final.resultOf V c) (fun t _ => Final.flushed4_7_eq V c t) Final.cover7

end Cert.KernelIdeal.Val

end
-- ==== Proof.KernelValue.lean ====
/-
  The idealized kernel program's result as the specification's function of its ten arguments. Region by region: the
  first region leaves the dense transform of the node features; each host stretch between regions one round of message
  passing over the dense output before it; regions 1 and 2 the row-normalised activation of the aggregated features
  (a layer's output) and its dense transform by the next weight; region 3 the third layer's output; the last region
  the logarithm of the softmax of the three outputs' products with the three row blocks of the last weight, plus the
  bias. Each region's closed form is stated at the buffer contents on entry, so the facts chain by substitution.
-/
import proofs.«112115_j58961311039942_2_alg».proof.Proof.HostPrelude
import proofs.«112115_j58961311039942_2_alg».proof.Proof.HostCarry
import proofs.«112115_j58961311039942_2_alg».proof.Proof.Region0
import proofs.«112115_j58961311039942_2_alg».proof.Proof.Region1Norm
import proofs.«112115_j58961311039942_2_alg».proof.Proof.Region1Dense
import proofs.«112115_j58961311039942_2_alg».proof.Proof.Region2Norm
import proofs.«112115_j58961311039942_2_alg».proof.Proof.Region2Dense
import proofs.«112115_j58961311039942_2_alg».proof.Proof.Region3
import proofs.«112115_j58961311039942_2_alg».proof.Proof.Region4

set_option maxRecDepth 16384

noncomputable section

namespace Cert.KernelIdeal.Val

open Cert.KernelIdeal Cert.KernelIdeal.Gen
open Idealize.ShloMosaic Idealize.ShloMosaic.TcCoe Idealize.ShloMosaic.Tactic Idealize.ShloMosaic.StableHlo
open Idealize.SL.Sem
open Idealize.ShloMosaic.Pipeline (Dat Cfg Window)

variable (m : (ℓ : Loc nD τ sig) → Buf (Elt Ideal) ℓ) (ρ : Dev nD → PrngReg)

/-! ## The values at the segment boundaries, one region after another -/

/-- After region 0: the dense transform of the node features. -/
theorem W4_v38 (c : Dev nD) : W4 m ρ c (Proc.devRef .tc main_v38) = Cert.Spec.denseArr (m ((c : Thread nD τ).loc main_arg0)) (m ((c : Thread nD τ).loc main_arg2)) := by
  refine (W4_arr m ρ c 2).trans ((arr0_2 (V3 m ρ) c).trans ?_)
  show Cert.Spec.denseArr (W3 m ρ c (Proc.devRef .tc main_arg0)) (W3 m ρ c (Proc.devRef .tc main_v31)) = _
  rw [W3_arg0 m ρ c, W3_v31 m ρ c]

/-- Entering region 1: one round of message passing over it. -/
theorem W5_v51_val (c : Dev nD) : W5 m ρ c (Proc.devRef .tc main_v51) = Cert.RefSide.agg (m ((c : Thread nD τ).loc main_arg1)) (Cert.Spec.denseArr (m ((c : Thread nD τ).loc main_arg0)) (m ((c : Thread nD τ).loc main_arg2))) := by
  rw [W5_v51 m ρ c, W4_v38 m ρ c]

/-- After region 1: the first layer's output … -/
theorem W6_v52_0 (c : Dev nD) : W6 m ρ c (Proc.devRef .tc main_v52_0) = (Cert.RefSide.o1 (m ((c : Thread nD τ).loc main_arg0)) (m ((c : Thread nD τ).loc main_arg1)) (m ((c : Thread nD τ).loc main_arg2)) (m ((c : Thread nD τ).loc main_arg3))) := by
  refine (W6_arr m ρ c 3).trans ((arr1_3 (V5 m ρ) c).trans ?_)
  show Cert.Spec.normedArr (W5 m ρ c (Proc.devRef .tc main_v51)) (W5 m ρ c (Proc.devRef .tc main_arg3)) = _
  rw [W5_v51_val m ρ c, W5_arg3 m ρ c]
  rfl

/-- … and its dense transform by the second weight. -/
theorem W6_v52_1 (c : Dev nD) : W6 m ρ c (Proc.devRef .tc main_v52_1) = Cert.Spec.denseArr (Cert.RefSide.o1 (m ((c : Thread nD τ).loc main_arg0)) (m ((c : Thread nD τ).loc main_arg1)) (m ((c : Thread nD τ).loc main_arg2)) (m ((c : Thread nD τ).loc main_arg3))) (m ((c : Thread nD τ).loc main_arg4)) := by
  refine (W6_arr m ρ c 4).trans ((arr1_4 (V5 m ρ) c).trans ?_)
  show Cert.Spec.denseArr (Cert.Spec.normedArr (W5 m ρ c (Proc.devRef .tc main_v51)) (W5 m ρ c (Proc.devRef .tc main_arg3))) (W5 m ρ c (Proc.devRef .tc main_v32)) = _
  rw [W5_v51_val m ρ c, W5_arg3 m ρ c, W5_v32_from3 m ρ c, W3_v32 m ρ c]
  rfl

theorem W7_v65_val (c : Dev nD) : W7 m ρ c (Proc.devRef .tc main_v65) = Cert.RefSide.agg (m ((c : Thread nD τ).loc main_arg1)) (Cert.Spec.denseArr (Cert.RefSide.o1 (m ((c : Thread nD τ).loc main_arg0)) (m ((c : Thread nD τ).loc main_arg1)) (m ((c : Thread nD τ).loc main_arg2)) (m ((c : Thread nD τ).loc main_arg3))) (m ((c : Thread nD τ).loc main_arg4))) := by
  rw [W7_v65 m ρ c, W6_v52_1 m ρ c]

/-- After region 2: the second layer's output and its dense transform by the third weight. -/
theorem W8_v66_0 (c : Dev nD) : W8 m ρ c (Proc.devRef .tc main_v66_0) = (Cert.RefSide.o2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
  refine (W8_arr m ρ c 3).trans ((arr2_3 (V7 m ρ) c).trans ?_)
  show Cert.Spec.normedArr (W7 m ρ c (Proc.devRef .tc main_v65)) (W7 m ρ c (Proc.devRef .tc main_arg5)) = _
  rw [W7_v65_val m ρ c, W7_arg5 m ρ c]
  rfl

theorem W8_v66_1 (c : Dev nD) : W8 m ρ c (Proc.devRef .tc main_v66_1) = Cert.Spec.denseArr (Cert.RefSide.o2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg6)) := by
  refine (W8_arr m ρ c 4).trans ((arr2_4 (V7 m ρ) c).trans ?_)
  show Cert.Spec.denseArr (Cert.Spec.normedArr (W7 m ρ c (Proc.devRef .tc main_v65)) (W7 m ρ c (Proc.devRef .tc main_arg5))) (W7 m ρ c (Proc.devRef .tc main_v33)) = _
  rw [W7_v65_val m ρ c, W7_arg5 m ρ c, W7_v33_from3 m ρ c, W3_v33 m ρ c]
  rfl

theorem W9_v79_val (c : Dev nD) : W9 m ρ c (Proc.devRef .tc main_v79) = Cert.RefSide.agg (m ((c : Thread nD τ).loc main_arg1)) (Cert.Spec.denseArr (Cert.RefSide.o2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg6))) := by
  rw [W9_v79 m ρ c, W8_v66_1 m ρ c]

/-- After region 3: the third layer's output. -/
theorem W10_v80 (c : Dev nD) : W10 m ρ c (Proc.devRef .tc main_v80) = (Cert.RefSide.o3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) := by
  refine (W10_arr m ρ c 2).trans ((arr3_2 (V9 m ρ) c).trans ?_)
  show Cert.Spec.normedArr (W9 m ρ c (Proc.devRef .tc main_v79)) (W9 m ρ c (Proc.devRef .tc main_arg7)) = _
  rw [W9_v79_val m ρ c, W9_arg7 m ρ c]
  rfl

/-- After the last region: the result array is the specification's function of the ten arguments. -/
theorem W11_v81 (c : Dev nD) : W11 m ρ c (Proc.devRef .tc main_v81)
    = Cert.Spec.outArr (Cert.RefSide.o1 (m ((c : Thread nD τ).loc main_arg0)) (m ((c : Thread nD τ).loc main_arg1)) (m ((c : Thread nD τ).loc main_arg2)) (m ((c : Thread nD τ).loc main_arg3))) (Cert.RefSide.o2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (Cert.RefSide.o3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (Cert.Spec.rows (m ((c : Thread nD τ).loc main_arg8)) 0 (by omega)) (Cert.Spec.rows (m ((c : Thread nD τ).loc main_arg8)) 128 (by omega)) (Cert.Spec.rows (m ((c : Thread nD τ).loc main_arg8)) 256 (by omega)) (m ((c : Thread nD τ).loc main_arg9)) := by
  refine (W11_arr m ρ c 7).trans ((arr4_7 (V10 m ρ) c).trans ?_)
  show Cert.Spec.outArr (W10 m ρ c (Proc.devRef .tc main_v52_0)) (W10 m ρ c (Proc.devRef .tc main_v66_0)) (W10 m ρ c (Proc.devRef .tc main_v80))
      (W10 m ρ c (Proc.devRef .tc main_v35)) (W10 m ρ c (Proc.devRef .tc main_v36)) (W10 m ρ c (Proc.devRef .tc main_v37)) (W10 m ρ c (Proc.devRef .tc main_arg9)) = _
  rw [W10_v52_0_from6 m ρ c, W6_v52_0 m ρ c, W10_v66_0_from8 m ρ c, W8_v66_0 m ρ c, W10_v80 m ρ c,
    W10_v35_from3 m ρ c, W3_v35 m ρ c, W10_v36_from3 m ρ c, W3_v36 m ρ c, W10_v37_from3 m ρ c, W3_v37 m ρ c, W10_arg9 m ρ c]

end Cert.KernelIdeal.Val

end
-- ==== Proof.RefDense.lean ====
/-
  The reference's dense transform: the product of a node matrix with a 128 x 128 weight matrix, read one entry at a
  time, is the sum over the shared axis  sum_k x[p,k] * w[k,q].  Stated for arbitrary operands, so that it serves each of
  the three layers (whose left operands are the previous layer's output).
-/
import proofs.«112115_j58961311039942_2_alg».proof.Proof.RefRead
import proofs.«112115_j58961311039942_2_alg».proof.Proof.Spec

noncomputable section

open scoped BigOperators

namespace Cert.RefSide

open Cert.ReferenceIdeal Cert.ReferenceIdeal.Gen Cert.ReferenceIdeal.Read Idealize.ShloMosaic Idealize.ShloMosaic.TcCoe
open Idealize.ShloMosaic.ValueIdx

/-- The left operand's index at step k of entry (p, q) is (p, k). -/
theorem lidx_v30_ix2 (p : Fin 100000) (q k : Fin 128) : lidx_main_v30 (ix2 p q) k = ix2 p k :=
  funext fun a => Fin.ext (by match a with | ⟨0, _⟩ => rfl | ⟨1, _⟩ => rfl)

/-- The right operand's index at step k of entry (p, q) is (k, q). -/
theorem ridx_v30_ix2 (p : Fin 100000) (q k : Fin 128) : ridx_main_v30 (ix2 p q) k = ix2 k q :=
  funext fun a => Fin.ext (by match a with | ⟨0, _⟩ => rfl | ⟨1, _⟩ => rfl)

/-- The reference's product of a [100000,128] array with a [128,128] array is the specification's product. -/
theorem dense_eq (x : (⟨S100000x128, .f32⟩ : BufTy).Contents (Elt Ideal)) (w : (⟨S128x128, .f32⟩ : BufTy).Contents (Elt Ideal)) :
    val_main_v30 (F := Ideal) x w = Cert.Spec.denseArr x w := by
  funext i
  obtain ⟨p, q, rfl⟩ : ∃ (p : Fin 100000) (q : Fin 128), i = ix2 p q := ⟨i 0, i 1, eq_ix2 i⟩
  refine (val_main_v30_apply x w (ix2 p q)).trans ?_
  show _ = ∑ k : Fin 128, x (ix2 p k) * w (ix2 k q)
  refine Finset.sum_congr rfl fun k _ => ?_
  rw [lidx_v30_ix2, ridx_v30_ix2]

end Cert.RefSide

end
-- ==== Proof.RefLayer.lean ====
/-
  A layer's closing stage in the reference: add the bias along each row, take the maximum with zero, and divide every
  row by its Euclidean norm floored at eps. Written once as a function `epi a b` of the aggregated features `a` and the
  bias `b`, in the operations the reference applies, and read one entry at a time: entry (p, q) is
  act(a,b)[p,q] / max(sqrt(sum_j act(a,b)[p,j]^2), eps), the specification's `normed`.
-/
import proofs.«112115_j58961311039942_2_alg».proof.Proof.RefRead
import proofs.«112115_j58961311039942_2_alg».proof.Proof.Spec
import Idealize.ShloMosaic.Lib.IdealHost

noncomputable section

open scoped BigOperators

namespace Cert.RefSide

open Cert.ReferenceIdeal Cert.ReferenceIdeal.Gen Cert.ReferenceIdeal.Read Idealize.ShloMosaic Idealize.ShloMosaic.TcCoe
open Idealize.ShloMosaic.ValueIdx

/-- max(a + b, 0) with the bias added along each row, in the reference's operations. -/
def reluArr (a : (⟨S100000x128, .f32⟩ : BufTy).Contents (Elt Ideal)) (b : (⟨S128, .f32⟩ : BufTy).Contents (Elt Ideal)) :
    (⟨S100000x128, .f32⟩ : BufTy).Contents (Elt Ideal) :=
  maximumf (addf a (broadcastInDim S100000x128 ![0, 1] bcast_S1x128_S100000x128_0_1 (broadcastInDim S1x128 ![1] bcast_S128_S1x128_1 b)))
    (broadcastInDim S100000x128 ![] bcast_S_S100000x128 (constant (F := Ideal) S_ .f32 0x00000000#32))

/-- The rows' divisors as a one-column array: the square root of each row's sum of squares, floored at eps. -/
def normCol (r : (⟨S100000x128, .f32⟩ : BufTy).Contents (Elt Ideal)) : (⟨S100000x1, .f32⟩ : BufTy).Contents (Elt Ideal) :=
  maximumf (Host.sqrt (F := Ideal) (φ := .f32) (broadcastInDim S100000x1 ![0] bcast_S100000_S100000x1_0
      (Host.reduceAdd (F := Ideal) (φ := .f32) (mulf r r) (constant (F := Ideal) S_ .f32 0x00000000#32) reducesTo_S100000x128_S100000_d1 h_S_)))
    (broadcastInDim S100000x1 ![] bcast_S_S100000x1 (constant (F := Ideal) S_ .f32 0x2B8CBCCC#32))

/-- A layer's closing stage: the activated array divided, row by row, by the rows' divisors. -/
def epi (a : (⟨S100000x128, .f32⟩ : BufTy).Contents (Elt Ideal)) (b : (⟨S128, .f32⟩ : BufTy).Contents (Elt Ideal)) :
    (⟨S100000x128, .f32⟩ : BufTy).Contents (Elt Ideal) :=
  Host.divf (F := Ideal) (φ := .f32) (reluArr a b) (broadcastInDim S100000x128 ![0, 1] bcast_S100000x1_S100000x128_0_1 (normCol (reluArr a b)))

/-- The bias, broadcast first to one row and then down the rows, read at (p, q) is b[q]. -/
theorem bias_read (b : (⟨S128, .f32⟩ : BufTy).Contents (Elt Ideal)) (p : Fin 100000) (q : Fin 128) :
    broadcastInDim S100000x128 ![0, 1] bcast_S1x128_S100000x128_0_1 (broadcastInDim S1x128 ![1] bcast_S128_S1x128_1 b) (ix2 p q)
      = b (ix1 q) := by
  refine (broadcastInDim_apply _ bcast_S1x128_S100000x128_0_1 _ (ix2 p q) (ix2 (0 : Fin 1) q) (fun a => match a with
    | ⟨0, _⟩ => by show 0 = if (1 : Nat) = 1 then 0 else p.val; rw [if_pos rfl]
    | ⟨1, _⟩ => by show q.val = if (128 : Nat) = 1 then 0 else q.val; rw [if_neg (by decide)])).trans ?_
  exact broadcastInDim_apply _ bcast_S128_S1x128_1 b (ix2 (0 : Fin 1) q) (ix1 q) (fun a => match a with
    | ⟨0, _⟩ => by show q.val = if (128 : Nat) = 1 then 0 else q.val; rw [if_neg (by decide)])

/-- Entry (p, q) of the activated array is the specification's `act`. -/
theorem reluArr_read (a : (⟨S100000x128, .f32⟩ : BufTy).Contents (Elt Ideal)) (b : (⟨S128, .f32⟩ : BufTy).Contents (Elt Ideal))
    (p : Fin 100000) (q : Fin 128) : reluArr a b (ix2 p q) = Cert.Spec.act a b p q := by
  unfold reluArr Cert.Spec.act Cert.Spec.zero
  rw [maximumf_apply, addf_apply, bias_read, broadcastInDim_scalar_apply, constant_apply]

/-- A one-column array broadcast along the rows, read at (p, q), is its entry (p, 0). -/
theorem col_read (y : (⟨S100000x1, .f32⟩ : BufTy).Contents (Elt Ideal)) (p : Fin 100000) (q : Fin 128) :
    broadcastInDim S100000x128 ![0, 1] bcast_S100000x1_S100000x128_0_1 y (ix2 p q) = y (ix2 p (0 : Fin 1)) :=
  broadcastInDim_apply _ bcast_S100000x1_S100000x128_0_1 y (ix2 p q) (ix2 p (0 : Fin 1)) (fun a => match a with
    | ⟨0, _⟩ => by show p.val = if (100000 : Nat) = 1 then 0 else p.val; rw [if_neg (by decide)]
    | ⟨1, _⟩ => by show 0 = if (1 : Nat) = 1 then 0 else q.val; rw [if_pos rfl])

/-- A vector made a one-column array, read at (p, 0), is its entry p. -/
theorem vec_col_read (z : (⟨S100000, .f32⟩ : BufTy).Contents (Elt Ideal)) (p : Fin 100000) :
    broadcastInDim S100000x1 ![0] bcast_S100000_S100000x1_0 z (ix2 p (0 : Fin 1)) = z (ix1 p) :=
  broadcastInDim_apply _ bcast_S100000_S100000x1_0 z (ix2 p (0 : Fin 1)) (ix1 p) (fun a => match a with
    | ⟨0, _⟩ => by show p.val = if (100000 : Nat) = 1 then 0 else p.val; rw [if_neg (by decide)])

/-- The reference's row sum from the float zero, read at row p, is the sum of the row's entries. -/
theorem rowSum_read (y : (⟨S100000x128, .f32⟩ : BufTy).Contents (Elt Ideal)) (p : Fin 100000) :
    Host.reduceAdd (F := Ideal) y (constant (F := Ideal) S_ .f32 0x00000000#32) reducesTo_S100000x128_S100000_d1 h_S_ (ix1 p)
      = ∑ k : Fin 128, y (ix2 p k) := by
  rw [hostReduceAdd_apply, Ideal.hostReduceAdd_single reducesTo_S100000x128_S100000_d1 (by decide), constant_apply,
    Ideal.ofBits_zero_f32, zero_add]
  refine Finset.sum_congr rfl fun k _ => ?_
  exact congrArg y (funext fun a => Fin.ext (by match a with | ⟨0, _⟩ => rfl | ⟨1, _⟩ => rfl))

/-- The host's square root at an index is the square root of the entry. -/
theorem hostSqrt_apply {s : Shape} (x : FVec Ideal s .f32) (i : s.Idx) : Host.sqrt (F := Ideal) x i = Ideal.sqrt (x i) := rfl

/-- Row p's divisor is the specification's `rowNorm`. -/
theorem normCol_read (a : (⟨S100000x128, .f32⟩ : BufTy).Contents (Elt Ideal)) (b : (⟨S128, .f32⟩ : BufTy).Contents (Elt Ideal))
    (p : Fin 100000) : normCol (reluArr a b) (ix2 p (0 : Fin 1)) = Cert.Spec.rowNorm a b p := by
  unfold normCol Cert.Spec.rowNorm Cert.Spec.eps
  rw [maximumf_apply, broadcastInDim_scalar_apply, constant_apply, hostSqrt_apply, vec_col_read, rowSum_read]
  refine congrArg (fun t => max (Ideal.sqrt t) _) (Finset.sum_congr rfl fun k _ => ?_)
  rw [mulf_apply, reluArr_read]

/-- A layer's closing stage is the specification's row-normalised activation. -/
theorem epi_eq (a : (⟨S100000x128, .f32⟩ : BufTy).Contents (Elt Ideal)) (b : (⟨S128, .f32⟩ : BufTy).Contents (Elt Ideal)) :
    epi a b = Cert.Spec.normedArr a b := by
  funext i
  obtain ⟨p, q, rfl⟩ : ∃ (p : Fin 100000) (q : Fin 128), i = ix2 p q := ⟨i 0, i 1, eq_ix2 i⟩
  unfold epi
  rw [hostDivf_apply, col_read, normCol_read, reluArr_read]
  rfl

end Cert.RefSide

end
-- ==== Proof.RefFinal.lean ====
/-
  The reference's last stage. The three layers' outputs are laid side by side into a [100000,384] array and multiplied
  by the 384 x 8 matrix: the sum over 384 columns splits into the three blocks of 128, block t meeting rows
  128 t … 128 t + 127 of the matrix, so entry (p, q) is the sum of three products plus the bias — the specification's
  `logit`. The logarithm of the row's softmax follows: the row maximum is a fold of `max` from minus infinity (taking the
  maximum with minus infinity once more changes nothing), then  (z - m) - log (sum_r exp (z_r - m)).
-/
import proofs.«112115_j58961311039942_2_alg».proof.Proof.RefRead
import proofs.«112115_j58961311039942_2_alg».proof.Proof.Spec
import Idealize.ShloMosaic.Lib.IdealHost

noncomputable section

open scoped BigOperators

namespace Cert.RefSide

open Cert.ReferenceIdeal Cert.ReferenceIdeal.Gen Cert.ReferenceIdeal.Read Idealize.ShloMosaic Idealize.ShloMosaic.TcCoe
open Idealize.ShloMosaic.ValueIdx

/-! ## A sum over 384 terms, and the array of three blocks read at an index -/

/-- A sum over 384 terms is the sum of its three blocks of 128 terms, added left to right. -/
theorem sum_384 {M : Type} [AddCommMonoid M] (f : Fin 384 → M) :
    ∑ k : Fin 384, f k
      = ((∑ k : Fin 128, f ⟨0 + k.val, by have := k.isLt; omega⟩) + ∑ k : Fin 128, f ⟨128 + k.val, by have := k.isLt; omega⟩)
        + ∑ k : Fin 128, f ⟨256 + k.val, by have := k.isLt; omega⟩ := by
  refine (Fin.sum_univ_add (a := 256) (b := 128) f).trans ?_
  refine congrArg₂ (· + ·) ?_ (Finset.sum_congr rfl fun k _ => congrArg f (Fin.ext rfl))
  refine (Fin.sum_univ_add (a := 128) (b := 128) (fun i => f (Fin.castAdd 128 i))).trans ?_
  refine congrArg₂ (· + ·) (Finset.sum_congr rfl fun k _ => congrArg f (Fin.ext ?_))
    (Finset.sum_congr rfl fun k _ => congrArg f (Fin.ext rfl))
  show k.val = 0 + k.val
  omega

/-- Columns 0 … 127 of the three blocks laid side by side are the first block. -/
theorem cat_read0 (A B C : (⟨S100000x128, .f32⟩ : BufTy).Contents (Elt Ideal)) (p : Fin 100000) (k : Fin 128) :
    concatenate S100000x384 1 [⟨S100000x128, A⟩, ⟨S100000x128, B⟩, ⟨S100000x128, C⟩]
      concatenates_S100000x128_S100000x128_S100000x128_S100000x384_d1 (ix2 p (⟨0 + k.val, by have := k.isLt; omega⟩ : Fin 384)) = A (ix2 p k) :=
  concatenate_apply_piece (1 : Fin S100000x384.rank) [⟨S100000x128, A⟩, ⟨S100000x128, B⟩, ⟨S100000x128, C⟩]
    concatenates_S100000x128_S100000x128_S100000x128_S100000x384_d1 _ 0 (show 0 < 3 by omega) S100000x128 A rfl rfl 0 rfl (ix2 p k)
    (fun b hb => match b with | ⟨0, _⟩ => rfl | ⟨1, _⟩ => absurd (Fin.ext rfl) hb) rfl

/-- Columns 128 … 255 are the second block. -/
theorem cat_read1 (A B C : (⟨S100000x128, .f32⟩ : BufTy).Contents (Elt Ideal)) (p : Fin 100000) (k : Fin 128) :
    concatenate S100000x384 1 [⟨S100000x128, A⟩, ⟨S100000x128, B⟩, ⟨S100000x128, C⟩]
      concatenates_S100000x128_S100000x128_S100000x128_S100000x384_d1 (ix2 p (⟨128 + k.val, by have := k.isLt; omega⟩ : Fin 384)) = B (ix2 p k) :=
  concatenate_apply_piece (1 : Fin S100000x384.rank) [⟨S100000x128, A⟩, ⟨S100000x128, B⟩, ⟨S100000x128, C⟩]
    concatenates_S100000x128_S100000x128_S100000x128_S100000x384_d1 _ 1 (show 1 < 3 by omega) S100000x128 B rfl rfl 128 rfl (ix2 p k)
    (fun b hb => match b with | ⟨0, _⟩ => rfl | ⟨1, _⟩ => absurd (Fin.ext rfl) hb) rfl

/-- Columns 256 … 383 are the third block. -/
theorem cat_read2 (A B C : (⟨S100000x128, .f32⟩ : BufTy).Contents (Elt Ideal)) (p : Fin 100000) (k : Fin 128) :
    concatenate S100000x384 1 [⟨S100000x128, A⟩, ⟨S100000x128, B⟩, ⟨S100000x128, C⟩]
      concatenates_S100000x128_S100000x128_S100000x128_S100000x384_d1 (ix2 p (⟨256 + k.val, by have := k.isLt; omega⟩ : Fin 384)) = C (ix2 p k) :=
  concatenate_apply_piece (1 : Fin S100000x384.rank) [⟨S100000x128, A⟩, ⟨S100000x128, B⟩, ⟨S100000x128, C⟩]
    concatenates_S100000x128_S100000x128_S100000x128_S100000x384_d1 _ 2 (show 2 < 3 by omega) S100000x128 C rfl rfl 256 rfl (ix2 p k)
    (fun b hb => match b with | ⟨0, _⟩ => rfl | ⟨1, _⟩ => absurd (Fin.ext rfl) hb) rfl

/-! ## The logits -/

/-- Entry (p, q) of the reference's logits is the specification's `logit` of the three layers' outputs. -/
theorem logit_read (x0 : (⟨S100000x128, .f32⟩ : BufTy).Contents (Elt Ideal)) (x1 : (⟨S2x1600000, .i32⟩ : BufTy).Contents (Elt Ideal))
  (x2 : (⟨S128x128, .f32⟩ : BufTy).Contents (Elt Ideal)) (x3 : (⟨S128, .f32⟩ : BufTy).Contents (Elt Ideal))
  (x4 : (⟨S128x128, .f32⟩ : BufTy).Contents (Elt Ideal)) (x5 : (⟨S128, .f32⟩ : BufTy).Contents (Elt Ideal))
  (x6 : (⟨S128x128, .f32⟩ : BufTy).Contents (Elt Ideal)) (x7 : (⟨S128, .f32⟩ : BufTy).Contents (Elt Ideal))
  (x8 : (⟨S384x8, .f32⟩ : BufTy).Contents (Elt Ideal)) (x9 : (⟨S8, .f32⟩ : BufTy).Contents (Elt Ideal))
    (p : Fin 100000) (q : Fin 8) :
    val_main_v112 (F := Ideal) x0 x1 x2 x3 x4 x5 x6 x7 x8 x9 (ix2 p q)
      = Cert.Spec.logit (val_main_v55 (F := Ideal) x0 x1 x2 x3) (val_main_v81 (F := Ideal) x0 x1 x2 x3 x4 x5)
          (val_main_v107 (F := Ideal) x0 x1 x2 x3 x4 x5 x6 x7)
          (Cert.Spec.rows x8 0 (by omega)) (Cert.Spec.rows x8 128 (by omega)) (Cert.Spec.rows x8 256 (by omega)) x9 p q := by
  rw [val_main_v112_apply, val_main_v109_apply, val_main_v111_apply, val_main_v110_apply, sum_384, Ideal.addf_def]
  unfold val_main_v108 Cert.Spec.logit Cert.Spec.dense Cert.Spec.rows
  generalize val_main_v55 (F := Ideal) x0 x1 x2 x3 = A
  generalize val_main_v81 (F := Ideal) x0 x1 x2 x3 x4 x5 = B
  generalize val_main_v107 (F := Ideal) x0 x1 x2 x3 x4 x5 x6 x7 = C
  refine congrArg₂ (· + ·) (congrArg₂ (· + ·) (congrArg₂ (· + ·) ?_ ?_) ?_) ?_
  · refine Finset.sum_congr rfl fun k _ => congrArg₂ (· * ·) ?_ ?_
    · exact (congrArg _ (funext fun a => Fin.ext (by match a with | ⟨0, _⟩ => rfl | ⟨1, _⟩ => rfl))).trans (cat_read0 A B C p k)
    · exact congrArg x8 (funext fun a => Fin.ext (by match a with | ⟨0, _⟩ => rfl | ⟨1, _⟩ => rfl))
  · refine Finset.sum_congr rfl fun k _ => congrArg₂ (· * ·) ?_ ?_
    · exact (congrArg _ (funext fun a => Fin.ext (by match a with | ⟨0, _⟩ => rfl | ⟨1, _⟩ => rfl))).trans (cat_read1 A B C p k)
    · exact congrArg x8 (funext fun a => Fin.ext (by match a with | ⟨0, _⟩ => rfl | ⟨1, _⟩ => rfl))
  · refine Finset.sum_congr rfl fun k _ => congrArg₂ (· * ·) ?_ ?_
    · exact (congrArg _ (funext fun a => Fin.ext (by match a with | ⟨0, _⟩ => rfl | ⟨1, _⟩ => rfl))).trans (cat_read2 A B C p k)
    · exact congrArg x8 (funext fun a => Fin.ext (by match a with | ⟨0, _⟩ => rfl | ⟨1, _⟩ => rfl))
  · exact congrArg x9 (funext fun a => Fin.ext (by match a with | ⟨0, _⟩ => rfl))

/-! ## The logarithm of the softmax -/

/-- The host's maximum over a row of eight, from minus infinity, is the specification's `rowMax` of the row. -/
theorem hostRowMax_read (Z : FVec Ideal S100000x8 .f32) (p : Fin 100000) :
    Host.reduce (α := Ideal .f32) (FloatOps.maximumf (F := Ideal) (φ := .f32)) Z (constant (F := Ideal) S_ .f32 0xFF800000#32)
        reducesTo_S100000x8_S100000_d1 h_S_ (ix1 p)
      = Cert.Spec.rowMax (fun r => Z (ix2 p r)) := by
  have hR : S100000x8.Reduces [1] S100000 := by decide
  refine (Host.reduce_eq_fold_single (α := Ideal .f32) (FloatOps.maximumf (F := Ideal) (φ := .f32)) Z
    (constant (F := Ideal) S_ .f32 0xFF800000#32) reducesTo_S100000x8_S100000_d1 hR h_S_ (ix1 p)).trans ?_
  have hf : (Z ∘ hR.lift (ix1 p)) = fun r : Fin 8 => Z (ix2 p r) :=
    funext fun r => congrArg Z (funext fun a => Fin.ext (by match a with | ⟨0, _⟩ => rfl | ⟨1, _⟩ => rfl))
  rw [hf]
  rfl

/-- The row maximum the reference subtracts: the maximum of minus infinity and the host's row maximum. -/
theorem rowMax_read (x0 : (⟨S100000x128, .f32⟩ : BufTy).Contents (Elt Ideal)) (x1 : (⟨S2x1600000, .i32⟩ : BufTy).Contents (Elt Ideal))
  (x2 : (⟨S128x128, .f32⟩ : BufTy).Contents (Elt Ideal)) (x3 : (⟨S128, .f32⟩ : BufTy).Contents (Elt Ideal))
  (x4 : (⟨S128x128, .f32⟩ : BufTy).Contents (Elt Ideal)) (x5 : (⟨S128, .f32⟩ : BufTy).Contents (Elt Ideal))
  (x6 : (⟨S128x128, .f32⟩ : BufTy).Contents (Elt Ideal)) (x7 : (⟨S128, .f32⟩ : BufTy).Contents (Elt Ideal))
  (x8 : (⟨S384x8, .f32⟩ : BufTy).Contents (Elt Ideal)) (x9 : (⟨S8, .f32⟩ : BufTy).Contents (Elt Ideal))
    (p : Fin 100000) :
    val_main_call4_v2 (F := Ideal) x0 x1 x2 x3 x4 x5 x6 x7 x8 x9 (ix1 p)
      = Cert.Spec.rowMax (fun r => val_main_v112 (F := Ideal) x0 x1 x2 x3 x4 x5 x6 x7 x8 x9 (ix2 p r)) := by
  rw [val_main_call4_v2_apply, val_main_call4_v1_apply, val_main_call4_cst_0_apply, Ideal.maximumf_def]
  unfold val_main_call4_v0 val_main_call4_cst
  rw [hostRowMax_read]
  exact max_eq_right ((Finset.le_fold_max _).mpr (Or.inl le_rfl))

/-- Entry (p, q) of the shifted logits: the logit minus its row's maximum. -/
theorem shifted_read (x0 : (⟨S100000x128, .f32⟩ : BufTy).Contents (Elt Ideal)) (x1 : (⟨S2x1600000, .i32⟩ : BufTy).Contents (Elt Ideal))
  (x2 : (⟨S128x128, .f32⟩ : BufTy).Contents (Elt Ideal)) (x3 : (⟨S128, .f32⟩ : BufTy).Contents (Elt Ideal))
  (x4 : (⟨S128x128, .f32⟩ : BufTy).Contents (Elt Ideal)) (x5 : (⟨S128, .f32⟩ : BufTy).Contents (Elt Ideal))
  (x6 : (⟨S128x128, .f32⟩ : BufTy).Contents (Elt Ideal)) (x7 : (⟨S128, .f32⟩ : BufTy).Contents (Elt Ideal))
  (x8 : (⟨S384x8, .f32⟩ : BufTy).Contents (Elt Ideal)) (x9 : (⟨S8, .f32⟩ : BufTy).Contents (Elt Ideal))
    (p : Fin 100000) (q : Fin 8) :
    val_main_call4_v5 (F := Ideal) x0 x1 x2 x3 x4 x5 x6 x7 x8 x9 (ix2 p q)
      = val_main_v112 (F := Ideal) x0 x1 x2 x3 x4 x5 x6 x7 x8 x9 (ix2 p q)
        - Cert.Spec.rowMax (fun r => val_main_v112 (F := Ideal) x0 x1 x2 x3 x4 x5 x6 x7 x8 x9 (ix2 p r)) := by
  rw [val_main_call4_v5_apply, val_main_call4_v4_apply, val_main_call4_v3_apply, Ideal.subf_def]
  have e : idx_main_call4_v3 (idx_main_call4_v4 (ix2 p q)) = ix1 p := funext fun a => Fin.ext (by match a with | ⟨0, _⟩ => rfl)
  rw [e, rowMax_read]

/-- Row p's sum of exponentials of the shifted logits. -/
theorem expSum_read (x0 : (⟨S100000x128, .f32⟩ : BufTy).Contents (Elt Ideal)) (x1 : (⟨S2x1600000, .i32⟩ : BufTy).Contents (Elt Ideal))
  (x2 : (⟨S128x128, .f32⟩ : BufTy).Contents (Elt Ideal)) (x3 : (⟨S128, .f32⟩ : BufTy).Contents (Elt Ideal))
  (x4 : (⟨S128x128, .f32⟩ : BufTy).Contents (Elt Ideal)) (x5 : (⟨S128, .f32⟩ : BufTy).Contents (Elt Ideal))
  (x6 : (⟨S128x128, .f32⟩ : BufTy).Contents (Elt Ideal)) (x7 : (⟨S128, .f32⟩ : BufTy).Contents (Elt Ideal))
  (x8 : (⟨S384x8, .f32⟩ : BufTy).Contents (Elt Ideal)) (x9 : (⟨S8, .f32⟩ : BufTy).Contents (Elt Ideal))
    (p : Fin 100000) :
    val_main_call4_v7 (F := Ideal) x0 x1 x2 x3 x4 x5 x6 x7 x8 x9 (ix1 p)
      = ∑ r : Fin 8, Ideal.exp (val_main_v112 (F := Ideal) x0 x1 x2 x3 x4 x5 x6 x7 x8 x9 (ix2 p r)
          - Cert.Spec.rowMax (fun r => val_main_v112 (F := Ideal) x0 x1 x2 x3 x4 x5 x6 x7 x8 x9 (ix2 p r))) := by
  rw [val_main_call4_v7_apply, val_main_call4_cst_1_apply, Ideal.ofBits_def, Ideal.ofBits_zero_f32, zero_add]
  refine Finset.sum_congr rfl fun r _ => ?_
  have e : idx_main_call4_v7 (ix1 p) r = ix2 p r := funext fun a => Fin.ext (by match a with | ⟨0, _⟩ => rfl | ⟨1, _⟩ => rfl)
  rw [val_main_call4_v6_apply, e, shifted_read, Ideal.hostUnary_exp_def]

/-- Entry (p, q) of the reference's result is the specification's `logSoftmax` of row p of the logits. -/
theorem logSoftmax_read (x0 : (⟨S100000x128, .f32⟩ : BufTy).Contents (Elt Ideal)) (x1 : (⟨S2x1600000, .i32⟩ : BufTy).Contents (Elt Ideal))
  (x2 : (⟨S128x128, .f32⟩ : BufTy).Contents (Elt Ideal)) (x3 : (⟨S128, .f32⟩ : BufTy).Contents (Elt Ideal))
  (x4 : (⟨S128x128, .f32⟩ : BufTy).Contents (Elt Ideal)) (x5 : (⟨S128, .f32⟩ : BufTy).Contents (Elt Ideal))
  (x6 : (⟨S128x128, .f32⟩ : BufTy).Contents (Elt Ideal)) (x7 : (⟨S128, .f32⟩ : BufTy).Contents (Elt Ideal))
  (x8 : (⟨S384x8, .f32⟩ : BufTy).Contents (Elt Ideal)) (x9 : (⟨S8, .f32⟩ : BufTy).Contents (Elt Ideal))
    (p : Fin 100000) (q : Fin 8) :
    val_main_v113 (F := Ideal) x0 x1 x2 x3 x4 x5 x6 x7 x8 x9 (ix2 p q)
      = Cert.Spec.logSoftmax (fun r => val_main_v112 (F := Ideal) x0 x1 x2 x3 x4 x5 x6 x7 x8 x9 (ix2 p r)) q := by
  rw [val_main_v113_apply, val_main_call4_v10_apply, val_main_call4_v9_apply, val_main_call4_v8_apply, Ideal.subf_def,
    Ideal.hostUnary_log_def]
  have e : idx_main_call4_v8 (idx_main_call4_v10 (ix2 p q)) = ix1 p := funext fun a => Fin.ext (by match a with | ⟨0, _⟩ => rfl)
  rw [e, expSum_read, shifted_read]
  rfl

/-- The reference's result is the specification's `outArr` of the three layers' outputs, the three row blocks of the
    last matrix and the last bias. -/
theorem final_eq (x0 : (⟨S100000x128, .f32⟩ : BufTy).Contents (Elt Ideal)) (x1 : (⟨S2x1600000, .i32⟩ : BufTy).Contents (Elt Ideal))
  (x2 : (⟨S128x128, .f32⟩ : BufTy).Contents (Elt Ideal)) (x3 : (⟨S128, .f32⟩ : BufTy).Contents (Elt Ideal))
  (x4 : (⟨S128x128, .f32⟩ : BufTy).Contents (Elt Ideal)) (x5 : (⟨S128, .f32⟩ : BufTy).Contents (Elt Ideal))
  (x6 : (⟨S128x128, .f32⟩ : BufTy).Contents (Elt Ideal)) (x7 : (⟨S128, .f32⟩ : BufTy).Contents (Elt Ideal))
  (x8 : (⟨S384x8, .f32⟩ : BufTy).Contents (Elt Ideal)) (x9 : (⟨S8, .f32⟩ : BufTy).Contents (Elt Ideal)) :
    val_main_v113 (F := Ideal) x0 x1 x2 x3 x4 x5 x6 x7 x8 x9
      = Cert.Spec.outArr (val_main_v55 (F := Ideal) x0 x1 x2 x3) (val_main_v81 (F := Ideal) x0 x1 x2 x3 x4 x5)
          (val_main_v107 (F := Ideal) x0 x1 x2 x3 x4 x5 x6 x7)
          (Cert.Spec.rows x8 0 (by omega)) (Cert.Spec.rows x8 128 (by omega)) (Cert.Spec.rows x8 256 (by omega)) x9 := by
  funext i
  obtain ⟨p, q, rfl⟩ : ∃ (p : Fin 100000) (q : Fin 8), i = ix2 p q := ⟨i 0, i 1, eq_ix2 i⟩
  rw [logSoftmax_read, Cert.Spec.outArr_ix2]
  unfold Cert.Spec.out
  exact congrArg (fun z => Cert.Spec.logSoftmax z q) (funext fun r => logit_read x0 x1 x2 x3 x4 x5 x6 x7 x8 x9 p r)

end Cert.RefSide

end
-- ==== Proof.RefValue.lean ====
/-
  The reference's result as the specification's functions of its arguments. Each of the three layers is a dense
  transform, one round of aggregation over the graph (carried as one function `agg x1` of the transformed features, never
  opened), and the closing stage (bias, maximum with zero, row normalisation); the second and third layers start from the
  previous layer's output. The last stage takes the three outputs to the logarithm of the softmax of their logits.
-/
import proofs.«112115_j58961311039942_2_alg».proof.Proof.RefAgg
import proofs.«112115_j58961311039942_2_alg».proof.Proof.RefDense
import proofs.«112115_j58961311039942_2_alg».proof.Proof.RefLayer
import proofs.«112115_j58961311039942_2_alg».proof.Proof.RefFinal

noncomputable section

namespace Cert.RefSide

open Cert.ReferenceIdeal Cert.ReferenceIdeal.Gen Cert.ReferenceIdeal.Read Idealize.ShloMosaic Idealize.ShloMosaic.TcCoe

/-! ## Each round of aggregation is `agg x1` of the round's transformed features

The second and third rounds rebuild the edges' source indices, weights, zero rows and target indices from the edge
array by the same operations as the first round. -/

theorem agg_round1 (x0 : (⟨S100000x128, .f32⟩ : BufTy).Contents (Elt Ideal)) (x1 : (⟨S2x1600000, .i32⟩ : BufTy).Contents (Elt Ideal))
    (x2 : (⟨S128x128, .f32⟩ : BufTy).Contents (Elt Ideal)) :
    val_main_v43 (F := Ideal) x0 x1 x2 = agg x1 (val_main_v30 (F := Ideal) x0 x2) := rfl

theorem agg_round2 (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) :
    val_main_v69 (F := Ideal) x0 x1 x2 x3 x4 = agg x1 (val_main_v56 (F := Ideal) x0 x1 x2 x3 x4) := rfl

theorem agg_round3 (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal))
    (x6 : (⟨S128x128, .f32⟩ : BufTy).Contents (Elt Ideal)) :
    val_main_v95 (F := Ideal) x0 x1 x2 x3 x4 x5 x6 = agg x1 (val_main_v82 (F := Ideal) x0 x1 x2 x3 x4 x5 x6) := rfl

/-! ## The later layers' dense transforms are the first layer's, applied to the previous layer's output -/

theorem dense_round2 (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) :
    val_main_v56 (F := Ideal) x0 x1 x2 x3 x4 = val_main_v30 (F := Ideal) (val_main_v55 (F := Ideal) x0 x1 x2 x3) x4 := rfl

theorem dense_round3 (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal))
    (x6 : (⟨S128x128, .f32⟩ : BufTy).Contents (Elt Ideal)) :
    val_main_v82 (F := Ideal) x0 x1 x2 x3 x4 x5 x6
      = val_main_v30 (F := Ideal) (val_main_v81 (F := Ideal) x0 x1 x2 x3 x4 x5) x6 := rfl

/-! ## Each layer's closing stage is `epi` of the aggregated features and the layer's bias -/

theorem epi_round1 (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal)) :
    val_main_v55 (F := Ideal) x0 x1 x2 x3 = epi (val_main_v43 (F := Ideal) x0 x1 x2) x3 := rfl

theorem epi_round2 (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal)) :
    val_main_v81 (F := Ideal) x0 x1 x2 x3 x4 x5 = epi (val_main_v69 (F := Ideal) x0 x1 x2 x3 x4) x5 := rfl

theorem epi_round3 (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal))
    (x6 : (⟨S128x128, .f32⟩ : BufTy).Contents (Elt Ideal)) (x7 : (⟨S128, .f32⟩ : BufTy).Contents (Elt Ideal)) :
    val_main_v107 (F := Ideal) x0 x1 x2 x3 x4 x5 x6 x7 = epi (val_main_v95 (F := Ideal) x0 x1 x2 x3 x4 x5 x6) x7 := rfl

/-! ## The three layers' outputs -/

/-- The first layer's output is `o1`. -/
theorem layer1 (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal)) :
    val_main_v55 (F := Ideal) x0 x1 x2 x3 = o1 x0 x1 x2 x3 := by
  rw [epi_round1, epi_eq, agg_round1, dense_eq]
  rfl

/-- The second layer's output is `o2`. -/
theorem layer2 (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal)) :
    val_main_v81 (F := Ideal) x0 x1 x2 x3 x4 x5 = o2 x0 x1 x2 x3 x4 x5 := by
  rw [epi_round2, epi_eq, agg_round2, dense_round2, dense_eq, layer1]
  rfl

/-- The third layer's output is `o3`. -/
theorem layer3 (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal))
    (x6 : (⟨S128x128, .f32⟩ : BufTy).Contents (Elt Ideal)) (x7 : (⟨S128, .f32⟩ : BufTy).Contents (Elt Ideal)) :
    val_main_v107 (F := Ideal) x0 x1 x2 x3 x4 x5 x6 x7 = o3 x0 x1 x2 x3 x4 x5 x6 x7 := by
  rw [epi_round3, epi_eq, agg_round3, dense_round3, dense_eq, layer2]
  rfl

/-! ## The result -/

/-- The reference's result is the specification's `outArr` of the three layers' outputs, the three row blocks of the
    last matrix and the last bias. -/
theorem ref_value (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal))
    (x6 : (⟨S128x128, .f32⟩ : BufTy).Contents (Elt Ideal)) (x7 : (⟨S128, .f32⟩ : BufTy).Contents (Elt Ideal))
    (x8 : (⟨S384x8, .f32⟩ : BufTy).Contents (Elt Ideal)) (x9 : (⟨S8, .f32⟩ : BufTy).Contents (Elt Ideal)) :
    val_main_v113 (F := Ideal) x0 x1 x2 x3 x4 x5 x6 x7 x8 x9
      = Cert.Spec.outArr (o1 x0 x1 x2 x3) (o2 x0 x1 x2 x3 x4 x5) (o3 x0 x1 x2 x3 x4 x5 x6 x7)
          (Cert.Spec.rows x8 0 (by omega)) (Cert.Spec.rows x8 128 (by omega)) (Cert.Spec.rows x8 256 (by omega)) x9 := by
  rw [final_eq, layer1, layer2, layer3]

end Cert.RefSide

end
-- ==== Proof.RefRunStagedOps.lean ====
/-
  The reference program's @main is a straight line of 159 host operations, each writing one buffer from the buffers
  written before it (the operations of the called functions stand in their calls' places). This module states that line
  as a list, shows that @main is the list run in order, that every buffer the list touches is a TensorCore buffer, and
  that the program scopes no buffer and no semaphore: the four facts from which a run of @main is read as the fold of
  the operations' results over the launch contents.
-/
import proofs.«112115_j58961311039942_2_alg».proof.Proof.Gen.ReferenceIdeal
import Idealize.ShloMosaic.Lib.StableHlo.Run

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- @main's 159 operations, in order (a called function's operations stand in its call's place, spelt `TRef.…`). -/
abbrev ops : List (HloOp τ sig (Elt F)) :=
  [ nullary main_v0 (iotaInDim S100000 32 0),
    unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v7 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S1700000x1 ![0] bcast_S1700000_S1700000x1_0 : (⟨S1700000, .i32⟩ : BufTy).Contents (Elt F) → (⟨S1700000x1, .i32⟩ : BufTy).Contents (Elt F)),
    ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v13) (TRef.of (T := ⟨S100000, .f32⟩) main_call0_v1) (TRef.of (T := ⟨S100000, .f32⟩) main_v14) select,
    nullary main_c (constantI S_ 32 0#32),
    unary main_c main_v15 (broadcastInDim S1700000 ![] bcast_S_S1700000 : (⟨S_, .i32⟩ : BufTy).Contents (Elt F) → (⟨S1700000, .i32⟩ : BufTy).Contents (Elt F)),
    binary main_v3 main_v15 main_v16 (cmpi .slt : (⟨S1700000, .i32⟩ : BufTy).Contents (Elt F) → (⟨S1700000, .i32⟩ : BufTy).Contents (Elt F) → (⟨S1700000, .i1⟩ : BufTy).Contents (Elt F)),
    nullary main_c_3 (constantI S_ 32 100000#32),
    unary main_c_3 main_v17 (broadcastInDim S1700000 ![] bcast_S_S1700000 : (⟨S_, .i32⟩ : BufTy).Contents (Elt F) → (⟨S1700000, .i32⟩ : BufTy).Contents (Elt F)),
    binary main_v3 main_v17 main_v18 (addi : (⟨S1700000, .i32⟩ : BufTy).Contents (Elt F) → (⟨S1700000, .i32⟩ : BufTy).Contents (Elt F) → (⟨S1700000, .i32⟩ : BufTy).Contents (Elt F)),
    ternary main_v16 main_v18 main_v3 main_v19 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v19 main_v20 (broadcastInDim S1700000x1 ![0] bcast_S1700000_S1700000x1_0 : (⟨S1700000, .i32⟩ : BufTy).Contents (Elt F) → (⟨S1700000x1, .i32⟩ : BufTy).Contents (Elt F)),
    binary main_v14 main_v20 main_v21 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_4 (constantI S_ 32 0#32),
    unary main_c_4 main_v22 (broadcastInDim S1700000 ![] bcast_S_S1700000 : (⟨S_, .i32⟩ : BufTy).Contents (Elt F) → (⟨S1700000, .i32⟩ : BufTy).Contents (Elt F)),
    binary main_v6 main_v22 main_v23 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v24 (broadcastInDim S1700000 ![] bcast_S_S1700000 : (⟨S_, .i32⟩ : BufTy).Contents (Elt F) → (⟨S1700000, .i32⟩ : BufTy).Contents (Elt F)),
    binary main_v6 main_v24 main_v25 (addi : (⟨S1700000, .i32⟩ : BufTy).Contents (Elt F) → (⟨S1700000, .i32⟩ : BufTy).Contents (Elt F) → (⟨S1700000, .i32⟩ : BufTy).Contents (Elt F)),
    ternary main_v23 main_v25 main_v6 main_v26 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v26 main_v27 (broadcastInDim S1700000x1 ![0] bcast_S1700000_S1700000x1_0 : (⟨S1700000, .i32⟩ : BufTy).Contents (Elt F) → (⟨S1700000x1, .i32⟩ : BufTy).Contents (Elt F)),
    binary main_v14 main_v27 main_v28 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v21 main_v28 main_v29 (mulf : (⟨S1700000, .f32⟩ : BufTy).Contents (Elt F) → (⟨S1700000, .f32⟩ : BufTy).Contents (Elt F) → (⟨S1700000, .f32⟩ : BufTy).Contents (Elt F)),
    binary main_arg0 main_arg2 main_v30 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_6 (constantI S_ 32 0#32),
    unary main_c_6 main_v31 (broadcastInDim S1700000 ![] bcast_S_S1700000 : (⟨S_, .i32⟩ : BufTy).Contents (Elt F) → (⟨S1700000, .i32⟩ : BufTy).Contents (Elt F)),
    binary main_v3 main_v31 main_v32 (cmpi .slt : (⟨S1700000, .i32⟩ : BufTy).Contents (Elt F) → (⟨S1700000, .i32⟩ : BufTy).Contents (Elt F) → (⟨S1700000, .i1⟩ : BufTy).Contents (Elt F)),
    nullary main_c_7 (constantI S_ 32 100000#32),
    unary main_c_7 main_v33 (broadcastInDim S1700000 ![] bcast_S_S1700000 : (⟨S_, .i32⟩ : BufTy).Contents (Elt F) → (⟨S1700000, .i32⟩ : BufTy).Contents (Elt F)),
    binary main_v3 main_v33 main_v34 (addi : (⟨S1700000, .i32⟩ : BufTy).Contents (Elt F) → (⟨S1700000, .i32⟩ : BufTy).Contents (Elt F) → (⟨S1700000, .i32⟩ : BufTy).Contents (Elt F)),
    ternary main_v32 main_v34 main_v3 main_v35 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v35 main_v36 (broadcastInDim S1700000x1 ![0] bcast_S1700000_S1700000x1_0 : (⟨S1700000, .i32⟩ : BufTy).Contents (Elt F) → (⟨S1700000x1, .i32⟩ : BufTy).Contents (Elt F)),
    binary main_v30 main_v36 main_v37 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v29 main_v38 (broadcastInDim S1700000x1 ![0] bcast_S1700000_S1700000x1_0 : (⟨S1700000, .f32⟩ : BufTy).Contents (Elt F) → (⟨S1700000x1, .f32⟩ : BufTy).Contents (Elt F)),
    unary main_v38 main_v39 (broadcastInDim S1700000x128 ![0, 1] bcast_S1700000x1_S1700000x128_0_1 : (⟨S1700000x1, .f32⟩ : BufTy).Contents (Elt F) → (⟨S1700000x128, .f32⟩ : BufTy).Contents (Elt F)),
    binary main_v37 main_v39 main_v40 (mulf : (⟨S1700000x128, .f32⟩ : BufTy).Contents (Elt F) → (⟨S1700000x128, .f32⟩ : BufTy).Contents (Elt F) → (⟨S1700000x128, .f32⟩ : BufTy).Contents (Elt F)),
    nullary main_cst_8 (constant S_ .f32 0x00000000#32),
    unary main_cst_8 main_v41 (broadcastInDim S100000x128 ![] bcast_S_S100000x128 : (⟨S_, .f32⟩ : BufTy).Contents (Elt F) → (⟨S100000x128, .f32⟩ : BufTy).Contents (Elt F)),
    unary main_v6 main_v42 (broadcastInDim S1700000x1 ![0] bcast_S1700000_S1700000x1_0 : (⟨S1700000, .i32⟩ : BufTy).Contents (Elt F) → (⟨S1700000x1, .i32⟩ : BufTy).Contents (Elt F)),
    ternary main_v41 main_v42 main_v40 main_v43 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg3 main_v44 (broadcastInDim S1x128 ![1] bcast_S128_S1x128_1 : (⟨S128, .f32⟩ : BufTy).Contents (Elt F) → (⟨S1x128, .f32⟩ : BufTy).Contents (Elt F)),
    unary main_v44 main_v45 (broadcastInDim S100000x128 ![0, 1] bcast_S1x128_S100000x128_0_1 : (⟨S1x128, .f32⟩ : BufTy).Contents (Elt F) → (⟨S100000x128, .f32⟩ : BufTy).Contents (Elt F)),
    binary main_v43 main_v45 main_v46 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v46) (TRef.of (T := ⟨S100000x128, .f32⟩) main_call1_v0) (TRef.of (T := ⟨S100000x128, .f32⟩) main_v47) maximumf,
    binary main_v47 main_v47 main_v48 (mulf : (⟨S100000x128, .f32⟩ : BufTy).Contents (Elt F) → (⟨S100000x128, .f32⟩ : BufTy).Contents (Elt F) → (⟨S100000x128, .f32⟩ : BufTy).Contents (Elt F)),
    nullary main_cst_9 (constant S_ .f32 0x00000000#32),
    binary main_v48 main_cst_9 main_v49 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v49 main_v50 (broadcastInDim S100000x1 ![0] bcast_S100000_S100000x1_0 : (⟨S100000, .f32⟩ : BufTy).Contents (Elt F) → (⟨S100000x1, .f32⟩ : BufTy).Contents (Elt F)),
    unary main_v50 main_v51 (Host.sqrt : (⟨S100000x1, .f32⟩ : BufTy).Contents (Elt F) → (⟨S100000x1, .f32⟩ : BufTy).Contents (Elt F)),
    nullary main_cst_10 (constant S_ .f32 0x2B8CBCCC#32),
    unary main_cst_10 main_v52 (broadcastInDim S100000x1 ![] bcast_S_S100000x1 : (⟨S_, .f32⟩ : BufTy).Contents (Elt F) → (⟨S100000x1, .f32⟩ : BufTy).Contents (Elt F)),
    binary main_v51 main_v52 main_v53 (maximumf : (⟨S100000x1, .f32⟩ : BufTy).Contents (Elt F) → (⟨S100000x1, .f32⟩ : BufTy).Contents (Elt F) → (⟨S100000x1, .f32⟩ : BufTy).Contents (Elt F)),
    unary main_v53 main_v54 (broadcastInDim S100000x128 ![0, 1] bcast_S100000x1_S100000x128_0_1 : (⟨S100000x1, .f32⟩ : BufTy).Contents (Elt F) → (⟨S100000x128, .f32⟩ : BufTy).Contents (Elt F)),
    binary main_v47 main_v54 main_v55 (Host.divf : (⟨S100000x128, .f32⟩ : BufTy).Contents (Elt F) → (⟨S100000x128, .f32⟩ : BufTy).Contents (Elt F) → (⟨S100000x128, .f32⟩ : BufTy).Contents (Elt F)),
    binary main_v55 main_arg4 main_v56 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_11 (constantI S_ 32 0#32),
    unary main_c_11 main_v57 (broadcastInDim S1700000 ![] bcast_S_S1700000 : (⟨S_, .i32⟩ : BufTy).Contents (Elt F) → (⟨S1700000, .i32⟩ : BufTy).Contents (Elt F)),
    binary main_v3 main_v57 main_v58 (cmpi .slt : (⟨S1700000, .i32⟩ : BufTy).Contents (Elt F) → (⟨S1700000, .i32⟩ : BufTy).Contents (Elt F) → (⟨S1700000, .i1⟩ : BufTy).Contents (Elt F)),
    nullary main_c_12 (constantI S_ 32 100000#32),
    unary main_c_12 main_v59 (broadcastInDim S1700000 ![] bcast_S_S1700000 : (⟨S_, .i32⟩ : BufTy).Contents (Elt F) → (⟨S1700000, .i32⟩ : BufTy).Contents (Elt F)),
    binary main_v3 main_v59 main_v60 (addi : (⟨S1700000, .i32⟩ : BufTy).Contents (Elt F) → (⟨S1700000, .i32⟩ : BufTy).Contents (Elt F) → (⟨S1700000, .i32⟩ : BufTy).Contents (Elt F)),
    ternary main_v58 main_v60 main_v3 main_v61 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v61 main_v62 (broadcastInDim S1700000x1 ![0] bcast_S1700000_S1700000x1_0 : (⟨S1700000, .i32⟩ : BufTy).Contents (Elt F) → (⟨S1700000x1, .i32⟩ : BufTy).Contents (Elt F)),
    binary main_v56 main_v62 main_v63 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v29 main_v64 (broadcastInDim S1700000x1 ![0] bcast_S1700000_S1700000x1_0 : (⟨S1700000, .f32⟩ : BufTy).Contents (Elt F) → (⟨S1700000x1, .f32⟩ : BufTy).Contents (Elt F)),
    unary main_v64 main_v65 (broadcastInDim S1700000x128 ![0, 1] bcast_S1700000x1_S1700000x128_0_1 : (⟨S1700000x1, .f32⟩ : BufTy).Contents (Elt F) → (⟨S1700000x128, .f32⟩ : BufTy).Contents (Elt F)),
    binary main_v63 main_v65 main_v66 (mulf : (⟨S1700000x128, .f32⟩ : BufTy).Contents (Elt F) → (⟨S1700000x128, .f32⟩ : BufTy).Contents (Elt F) → (⟨S1700000x128, .f32⟩ : BufTy).Contents (Elt F)),
    nullary main_cst_13 (constant S_ .f32 0x00000000#32),
    unary main_cst_13 main_v67 (broadcastInDim S100000x128 ![] bcast_S_S100000x128 : (⟨S_, .f32⟩ : BufTy).Contents (Elt F) → (⟨S100000x128, .f32⟩ : BufTy).Contents (Elt F)),
    unary main_v6 main_v68 (broadcastInDim S1700000x1 ![0] bcast_S1700000_S1700000x1_0 : (⟨S1700000, .i32⟩ : BufTy).Contents (Elt F) → (⟨S1700000x1, .i32⟩ : BufTy).Contents (Elt F)),
    ternary main_v67 main_v68 main_v66 main_v69 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg5 main_v70 (broadcastInDim S1x128 ![1] bcast_S128_S1x128_1 : (⟨S128, .f32⟩ : BufTy).Contents (Elt F) → (⟨S1x128, .f32⟩ : BufTy).Contents (Elt F)),
    unary main_v70 main_v71 (broadcastInDim S100000x128 ![0, 1] bcast_S1x128_S100000x128_0_1 : (⟨S1x128, .f32⟩ : BufTy).Contents (Elt F) → (⟨S100000x128, .f32⟩ : BufTy).Contents (Elt F)),
    binary main_v69 main_v71 main_v72 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x128, .f32⟩) main_call2_v0) (broadcastInDim S100000x128 ![] bcast_S_S100000x128),
    TRef.binary (TRef.of (T := ⟨S100000x128, .f32⟩) main_v72) (TRef.of (T := ⟨S100000x128, .f32⟩) main_call2_v0) (TRef.of (T := ⟨S100000x128, .f32⟩) main_v73) maximumf,
    binary main_v73 main_v73 main_v74 (mulf : (⟨S100000x128, .f32⟩ : BufTy).Contents (Elt F) → (⟨S100000x128, .f32⟩ : BufTy).Contents (Elt F) → (⟨S100000x128, .f32⟩ : BufTy).Contents (Elt F)),
    nullary main_cst_14 (constant S_ .f32 0x00000000#32),
    binary main_v74 main_cst_14 main_v75 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v75 main_v76 (broadcastInDim S100000x1 ![0] bcast_S100000_S100000x1_0 : (⟨S100000, .f32⟩ : BufTy).Contents (Elt F) → (⟨S100000x1, .f32⟩ : BufTy).Contents (Elt F)),
    unary main_v76 main_v77 (Host.sqrt : (⟨S100000x1, .f32⟩ : BufTy).Contents (Elt F) → (⟨S100000x1, .f32⟩ : BufTy).Contents (Elt F)),
    nullary main_cst_15 (constant S_ .f32 0x2B8CBCCC#32),
    unary main_cst_15 main_v78 (broadcastInDim S100000x1 ![] bcast_S_S100000x1 : (⟨S_, .f32⟩ : BufTy).Contents (Elt F) → (⟨S100000x1, .f32⟩ : BufTy).Contents (Elt F)),
    binary main_v77 main_v78 main_v79 (maximumf : (⟨S100000x1, .f32⟩ : BufTy).Contents (Elt F) → (⟨S100000x1, .f32⟩ : BufTy).Contents (Elt F) → (⟨S100000x1, .f32⟩ : BufTy).Contents (Elt F)),
    unary main_v79 main_v80 (broadcastInDim S100000x128 ![0, 1] bcast_S100000x1_S100000x128_0_1 : (⟨S100000x1, .f32⟩ : BufTy).Contents (Elt F) → (⟨S100000x128, .f32⟩ : BufTy).Contents (Elt F)),
    binary main_v73 main_v80 main_v81 (Host.divf : (⟨S100000x128, .f32⟩ : BufTy).Contents (Elt F) → (⟨S100000x128, .f32⟩ : BufTy).Contents (Elt F) → (⟨S100000x128, .f32⟩ : BufTy).Contents (Elt F)),
    binary main_v81 main_arg6 main_v82 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_16 (constantI S_ 32 0#32),
    unary main_c_16 main_v83 (broadcastInDim S1700000 ![] bcast_S_S1700000 : (⟨S_, .i32⟩ : BufTy).Contents (Elt F) → (⟨S1700000, .i32⟩ : BufTy).Contents (Elt F)),
    binary main_v3 main_v83 main_v84 (cmpi .slt : (⟨S1700000, .i32⟩ : BufTy).Contents (Elt F) → (⟨S1700000, .i32⟩ : BufTy).Contents (Elt F) → (⟨S1700000, .i1⟩ : BufTy).Contents (Elt F)),
    nullary main_c_17 (constantI S_ 32 100000#32),
    unary main_c_17 main_v85 (broadcastInDim S1700000 ![] bcast_S_S1700000 : (⟨S_, .i32⟩ : BufTy).Contents (Elt F) → (⟨S1700000, .i32⟩ : BufTy).Contents (Elt F)),
    binary main_v3 main_v85 main_v86 (addi : (⟨S1700000, .i32⟩ : BufTy).Contents (Elt F) → (⟨S1700000, .i32⟩ : BufTy).Contents (Elt F) → (⟨S1700000, .i32⟩ : BufTy).Contents (Elt F)),
    ternary main_v84 main_v86 main_v3 main_v87 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v87 main_v88 (broadcastInDim S1700000x1 ![0] bcast_S1700000_S1700000x1_0 : (⟨S1700000, .i32⟩ : BufTy).Contents (Elt F) → (⟨S1700000x1, .i32⟩ : BufTy).Contents (Elt F)),
    binary main_v82 main_v88 main_v89 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v29 main_v90 (broadcastInDim S1700000x1 ![0] bcast_S1700000_S1700000x1_0 : (⟨S1700000, .f32⟩ : BufTy).Contents (Elt F) → (⟨S1700000x1, .f32⟩ : BufTy).Contents (Elt F)),
    unary main_v90 main_v91 (broadcastInDim S1700000x128 ![0, 1] bcast_S1700000x1_S1700000x128_0_1 : (⟨S1700000x1, .f32⟩ : BufTy).Contents (Elt F) → (⟨S1700000x128, .f32⟩ : BufTy).Contents (Elt F)),
    binary main_v89 main_v91 main_v92 (mulf : (⟨S1700000x128, .f32⟩ : BufTy).Contents (Elt F) → (⟨S1700000x128, .f32⟩ : BufTy).Contents (Elt F) → (⟨S1700000x128, .f32⟩ : BufTy).Contents (Elt F)),
    nullary main_cst_18 (constant S_ .f32 0x00000000#32),
    unary main_cst_18 main_v93 (broadcastInDim S100000x128 ![] bcast_S_S100000x128 : (⟨S_, .f32⟩ : BufTy).Contents (Elt F) → (⟨S100000x128, .f32⟩ : BufTy).Contents (Elt F)),
    unary main_v6 main_v94 (broadcastInDim S1700000x1 ![0] bcast_S1700000_S1700000x1_0 : (⟨S1700000, .i32⟩ : BufTy).Contents (Elt F) → (⟨S1700000x1, .i32⟩ : BufTy).Contents (Elt F)),
    ternary main_v93 main_v94 main_v92 main_v95 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg7 main_v96 (broadcastInDim S1x128 ![1] bcast_S128_S1x128_1 : (⟨S128, .f32⟩ : BufTy).Contents (Elt F) → (⟨S1x128, .f32⟩ : BufTy).Contents (Elt F)),
    unary main_v96 main_v97 (broadcastInDim S100000x128 ![0, 1] bcast_S1x128_S100000x128_0_1 : (⟨S1x128, .f32⟩ : BufTy).Contents (Elt F) → (⟨S100000x128, .f32⟩ : BufTy).Contents (Elt F)),
    binary main_v95 main_v97 main_v98 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S100000x128, .f32⟩) main_call3_v0) (broadcastInDim S100000x128 ![] bcast_S_S100000x128),
    TRef.binary (TRef.of (T := ⟨S100000x128, .f32⟩) main_v98) (TRef.of (T := ⟨S100000x128, .f32⟩) main_call3_v0) (TRef.of (T := ⟨S100000x128, .f32⟩) main_v99) maximumf,
    binary main_v99 main_v99 main_v100 (mulf : (⟨S100000x128, .f32⟩ : BufTy).Contents (Elt F) → (⟨S100000x128, .f32⟩ : BufTy).Contents (Elt F) → (⟨S100000x128, .f32⟩ : BufTy).Contents (Elt F)),
    nullary main_cst_19 (constant S_ .f32 0x00000000#32),
    binary main_v100 main_cst_19 main_v101 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v101 main_v102 (broadcastInDim S100000x1 ![0] bcast_S100000_S100000x1_0 : (⟨S100000, .f32⟩ : BufTy).Contents (Elt F) → (⟨S100000x1, .f32⟩ : BufTy).Contents (Elt F)),
    unary main_v102 main_v103 (Host.sqrt : (⟨S100000x1, .f32⟩ : BufTy).Contents (Elt F) → (⟨S100000x1, .f32⟩ : BufTy).Contents (Elt F)),
    nullary main_cst_20 (constant S_ .f32 0x2B8CBCCC#32),
    unary main_cst_20 main_v104 (broadcastInDim S100000x1 ![] bcast_S_S100000x1 : (⟨S_, .f32⟩ : BufTy).Contents (Elt F) → (⟨S100000x1, .f32⟩ : BufTy).Contents (Elt F)),
    binary main_v103 main_v104 main_v105 (maximumf : (⟨S100000x1, .f32⟩ : BufTy).Contents (Elt F) → (⟨S100000x1, .f32⟩ : BufTy).Contents (Elt F) → (⟨S100000x1, .f32⟩ : BufTy).Contents (Elt F)),
    unary main_v105 main_v106 (broadcastInDim S100000x128 ![0, 1] bcast_S100000x1_S100000x128_0_1 : (⟨S100000x1, .f32⟩ : BufTy).Contents (Elt F) → (⟨S100000x128, .f32⟩ : BufTy).Contents (Elt F)),
    binary main_v99 main_v106 main_v107 (Host.divf : (⟨S100000x128, .f32⟩ : BufTy).Contents (Elt F) → (⟨S100000x128, .f32⟩ : BufTy).Contents (Elt F) → (⟨S100000x128, .f32⟩ : BufTy).Contents (Elt F)),
    nary ![main_v55, main_v81, main_v107] main_v108 (fun u => concatenate S100000x384 1 [⟨S100000x128, u 0⟩, ⟨S100000x128, u 1⟩, ⟨S100000x128, u 2⟩] concatenates_S100000x128_S100000x128_S100000x128_S100000x384_d1),
    binary main_v108 main_arg8 main_v109 ((fun l r => Host.dotGeneral dot_S100000x384_S384x8_S100000x8_1_0_0_1_n_n none l r) : (⟨S100000x384, .f32⟩ : BufTy).Contents (Elt F) → (⟨S384x8, .f32⟩ : BufTy).Contents (Elt F) → (⟨S100000x8, .f32⟩ : BufTy).Contents (Elt F)),
    unary main_arg9 main_v110 (broadcastInDim S1x8 ![1] bcast_S8_S1x8_1 : (⟨S8, .f32⟩ : BufTy).Contents (Elt F) → (⟨S1x8, .f32⟩ : BufTy).Contents (Elt F)),
    unary main_v110 main_v111 (broadcastInDim S100000x8 ![0, 1] bcast_S1x8_S100000x8_0_1 : (⟨S1x8, .f32⟩ : BufTy).Contents (Elt F) → (⟨S100000x8, .f32⟩ : BufTy).Contents (Elt F)),
    binary main_v109 main_v111 main_v112 (addf : (⟨S100000x8, .f32⟩ : BufTy).Contents (Elt F) → (⟨S100000x8, .f32⟩ : BufTy).Contents (Elt F) → (⟨S100000x8, .f32⟩ : BufTy).Contents (Elt F)),
    TRef.nullary (TRef.of (T := ⟨S_, .f32⟩) main_call4_cst) (constant S_ .f32 0xFF800000#32),
    TRef.binary (TRef.of (T := ⟨S100000x8, .f32⟩) main_v112) (TRef.of (T := ⟨S_, .f32⟩) main_call4_cst) (TRef.of (T := ⟨S100000, .f32⟩) main_call4_v0) (fun x v => Host.reduce FloatOps.maximumf x v reducesTo_S100000x8_S100000_d1 h_S_),
    TRef.nullary (TRef.of (T := ⟨S_, .f32⟩) main_call4_cst_0) (constant S_ .f32 0xFF800000#32),
    TRef.unary (TRef.of (T := ⟨S_, .f32⟩) main_call4_cst_0) (TRef.of (T := ⟨S100000, .f32⟩) main_call4_v1) (broadcastInDim S100000 ![] bcast_S_S100000),
    TRef.binary (TRef.of (T := ⟨S100000, .f32⟩) main_call4_v1) (TRef.of (T := ⟨S100000, .f32⟩) main_call4_v0) (TRef.of (T := ⟨S100000, .f32⟩) main_call4_v2) maximumf,
    TRef.unary (TRef.of (T := ⟨S100000, .f32⟩) main_call4_v2) (TRef.of (T := ⟨S100000x1, .f32⟩) main_call4_v3) (broadcastInDim S100000x1 ![0] bcast_S100000_S100000x1_0),
    TRef.unary (TRef.of (T := ⟨S100000x1, .f32⟩) main_call4_v3) (TRef.of (T := ⟨S100000x8, .f32⟩) main_call4_v4) (broadcastInDim S100000x8 ![0, 1] bcast_S100000x1_S100000x8_0_1),
    TRef.binary (TRef.of (T := ⟨S100000x8, .f32⟩) main_v112) (TRef.of (T := ⟨S100000x8, .f32⟩) main_call4_v4) (TRef.of (T := ⟨S100000x8, .f32⟩) main_call4_v5) subf,
    TRef.unary (TRef.of (T := ⟨S100000x8, .f32⟩) main_call4_v5) (TRef.of (T := ⟨S100000x8, .f32⟩) main_call4_v6) Host.exp,
    TRef.nullary (TRef.of (T := ⟨S_, .f32⟩) main_call4_cst_1) (constant S_ .f32 0x00000000#32),
    TRef.binary (TRef.of (T := ⟨S100000x8, .f32⟩) main_call4_v6) (TRef.of (T := ⟨S_, .f32⟩) main_call4_cst_1) (TRef.of (T := ⟨S100000, .f32⟩) main_call4_v7) (fun x v => Host.reduceAdd x v reducesTo_S100000x8_S100000_d1 h_S_),
    TRef.unary (TRef.of (T := ⟨S100000, .f32⟩) main_call4_v7) (TRef.of (T := ⟨S100000x1, .f32⟩) main_call4_v8) (broadcastInDim S100000x1 ![0] bcast_S100000_S100000x1_0),
    TRef.unary (TRef.of (T := ⟨S100000x1, .f32⟩) main_call4_v8) (TRef.of (T := ⟨S100000x1, .f32⟩) main_call4_v9) Host.log,
    TRef.unary (TRef.of (T := ⟨S100000x1, .f32⟩) main_call4_v9) (TRef.of (T := ⟨S100000x8, .f32⟩) main_call4_v10) (broadcastInDim S100000x8 ![0, 1] bcast_S100000x1_S100000x8_0_1),
    TRef.binary (TRef.of (T := ⟨S100000x8, .f32⟩) main_call4_v5) (TRef.of (T := ⟨S100000x8, .f32⟩) main_call4_v10) (TRef.of (T := ⟨S100000x8, .f32⟩) main_v113) subf ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., nary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

end Cert.ReferenceIdeal.Value

end
-- ==== Proof.RefRunStaged.lean ====
/-
  The reference's run, read stretch by stretch. A run of the reference's @main leaves every buffer at the fold of its
  159 operations' results over the launch contents. The fold at the result buffer is not compared with the reference's
  value in one step: the operations are cut into ten stretches (the graph's edge list and degrees; the edges' weights;
  for each of the three layers its dense transform with the aggregation over the edges, then its closing stage; the
  logits; the logarithm of the softmax), each stretch contributes the one buffer the later stretches need, as the
  reference's stage function of the ten arguments, and the stretches are chained. The result: every weakly fair
  execution of @main terminates with the result buffer at `val_main_v113` of the arguments' launch contents and the
  arguments unchanged.
-/
import proofs.«112115_j58961311039942_2_alg».proof.Proof.RefRunStagedOps
import proofs.«112115_j58961311039942_2_alg».proof.Proof.RefRead

noncomputable section

namespace Cert.ReferenceIdeal.Value

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-! ## The ten stretches

Each stretch is stated with the fact it contributes: from any contents `X` in which the buffers the stretch reads hold
the reference's stage functions of the arguments (`val_…`, one per buffer, from the module that states the program one
operation at a time), the buffer the later stretches need holds its stage function after the stretch. The gathers, the
scatters and the row maximum are never opened: both sides apply them to the same operands. -/

/-- Operations 0–20: the edge list with the self loops appended (sources `main_v3`, targets `main_v6`), the nodes' degrees, and their inverse square roots where the degree is positive (`main_v14`). -/
abbrev opsA : List (HloOp τ sig (Elt F)) :=
  [ nullary main_v0 (iotaInDim S100000 32 0),
    unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v7 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S1700000x1 ![0] bcast_S1700000_S1700000x1_0 : (⟨S1700000, .i32⟩ : BufTy).Contents (Elt F) → (⟨S1700000x1, .i32⟩ : BufTy).Contents (Elt F)),
    ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v13) (TRef.of (T := ⟨S100000, .f32⟩) main_call0_v1) (TRef.of (T := ⟨S100000, .f32⟩) main_v14) select ]

/-- The operations of this stretch write none of these buffers. -/
theorem keepA (X : Valuation τ sig (Elt F)) :
    ∀ r ∈ [main_arg0, main_arg1, main_arg2, main_arg3, main_arg4, main_arg5, main_arg6, main_arg7, main_arg8, main_arg9], after opsA X (no_index (Proc.devRef .tc r)) = X (Proc.devRef .tc r) := by
  intro r hr
  simp only [List.mem_cons, List.mem_nil_iff, or_false] at hr
  rcases hr with rfl | rfl | rfl | rfl | rfl | rfl | rfl | rfl | rfl | rfl <;> after_results_simp

attribute [local irreducible] Host.gather Host.scatterAdd Host.reduce in
set_option maxRecDepth 8192 in
/-- The edge list and the inverse square roots of the degrees, as functions of the edge array. -/
theorem stageA (X : Valuation τ sig (Elt F)) :
    after opsA X (Proc.devRef .tc main_v3) = val_main_v3 (F := F) (X (Proc.devRef .tc main_arg1))
    ∧ after opsA X (Proc.devRef .tc main_v6) = val_main_v6 (F := F) (X (Proc.devRef .tc main_arg1))
    ∧ after opsA X (Proc.devRef .tc main_v14) = val_main_v14 (F := F) (X (Proc.devRef .tc main_arg1)) := by
  refine ⟨?_, ?_, ?_⟩
  · after_results_simp
    rfl
  · after_results_simp
    rfl
  · after_results_simp
    rfl

/-- Operations 21–39: the edges' weights (`main_v29`), the product of the two end nodes' inverse square roots of degree. -/
abbrev opsB : List (HloOp τ sig (Elt F)) :=
  [ nullary main_c (constantI S_ 32 0#32),
    unary main_c main_v15 (broadcastInDim S1700000 ![] bcast_S_S1700000 : (⟨S_, .i32⟩ : BufTy).Contents (Elt F) → (⟨S1700000, .i32⟩ : BufTy).Contents (Elt F)),
    binary main_v3 main_v15 main_v16 (cmpi .slt : (⟨S1700000, .i32⟩ : BufTy).Contents (Elt F) → (⟨S1700000, .i32⟩ : BufTy).Contents (Elt F) → (⟨S1700000, .i1⟩ : BufTy).Contents (Elt F)),
    nullary main_c_3 (constantI S_ 32 100000#32),
    unary main_c_3 main_v17 (broadcastInDim S1700000 ![] bcast_S_S1700000 : (⟨S_, .i32⟩ : BufTy).Contents (Elt F) → (⟨S1700000, .i32⟩ : BufTy).Contents (Elt F)),
    binary main_v3 main_v17 main_v18 (addi : (⟨S1700000, .i32⟩ : BufTy).Contents (Elt F) → (⟨S1700000, .i32⟩ : BufTy).Contents (Elt F) → (⟨S1700000, .i32⟩ : BufTy).Contents (Elt F)),
    ternary main_v16 main_v18 main_v3 main_v19 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v19 main_v20 (broadcastInDim S1700000x1 ![0] bcast_S1700000_S1700000x1_0 : (⟨S1700000, .i32⟩ : BufTy).Contents (Elt F) → (⟨S1700000x1, .i32⟩ : BufTy).Contents (Elt F)),
    binary main_v14 main_v20 main_v21 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_4 (constantI S_ 32 0#32),
    unary main_c_4 main_v22 (broadcastInDim S1700000 ![] bcast_S_S1700000 : (⟨S_, .i32⟩ : BufTy).Contents (Elt F) → (⟨S1700000, .i32⟩ : BufTy).Contents (Elt F)),
    binary main_v6 main_v22 main_v23 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v24 (broadcastInDim S1700000 ![] bcast_S_S1700000 : (⟨S_, .i32⟩ : BufTy).Contents (Elt F) → (⟨S1700000, .i32⟩ : BufTy).Contents (Elt F)),
    binary main_v6 main_v24 main_v25 (addi : (⟨S1700000, .i32⟩ : BufTy).Contents (Elt F) → (⟨S1700000, .i32⟩ : BufTy).Contents (Elt F) → (⟨S1700000, .i32⟩ : BufTy).Contents (Elt F)),
    ternary main_v23 main_v25 main_v6 main_v26 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v26 main_v27 (broadcastInDim S1700000x1 ![0] bcast_S1700000_S1700000x1_0 : (⟨S1700000, .i32⟩ : BufTy).Contents (Elt F) → (⟨S1700000x1, .i32⟩ : BufTy).Contents (Elt F)),
    binary main_v14 main_v27 main_v28 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v21 main_v28 main_v29 (mulf : (⟨S1700000, .f32⟩ : BufTy).Contents (Elt F) → (⟨S1700000, .f32⟩ : BufTy).Contents (Elt F) → (⟨S1700000, .f32⟩ : BufTy).Contents (Elt F)) ]

/-- The operations of this stretch write none of these buffers. -/
theorem keepB (X : Valuation τ sig (Elt F)) :
    ∀ r ∈ [main_arg0, main_arg1, main_arg2, main_arg3, main_arg4, main_arg5, main_arg6, main_arg7, main_arg8, main_arg9, main_v3, main_v6], after opsB X (no_index (Proc.devRef .tc r)) = X (Proc.devRef .tc r) := by
  intro r hr
  simp only [List.mem_cons, List.mem_nil_iff, or_false] at hr
  rcases hr with rfl | rfl | rfl | rfl | rfl | rfl | rfl | rfl | rfl | rfl | rfl | rfl <;> after_results_simp

attribute [local irreducible] Host.gather Host.scatterAdd Host.reduce in
set_option maxRecDepth 8192 in
/-- The edges' weights, from the edge list and the inverse square roots of the degrees. -/
theorem stageB (X : Valuation τ sig (Elt F)) (a1 : (⟨S2x1600000, .i32⟩ : BufTy).Contents (Elt F)) (h3 : X (Proc.devRef .tc main_v3) = val_main_v3 (F := F) a1) (h6 : X (Proc.devRef .tc main_v6) = val_main_v6 (F := F) a1)
    (h14 : X (Proc.devRef .tc main_v14) = val_main_v14 (F := F) a1) :
    after opsB X (Proc.devRef .tc main_v29) = val_main_v29 (F := F) a1 := by
  after_results_simp
  rw [h3, h6, h14]
  rfl

/-- Operations 40–56: the first layer's dense transform and its aggregation over the edges (`main_v43`). -/
abbrev opsC : List (HloOp τ sig (Elt F)) :=
  [ binary main_arg0 main_arg2 main_v30 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_6 (constantI S_ 32 0#32),
    unary main_c_6 main_v31 (broadcastInDim S1700000 ![] bcast_S_S1700000 : (⟨S_, .i32⟩ : BufTy).Contents (Elt F) → (⟨S1700000, .i32⟩ : BufTy).Contents (Elt F)),
    binary main_v3 main_v31 main_v32 (cmpi .slt : (⟨S1700000, .i32⟩ : BufTy).Contents (Elt F) → (⟨S1700000, .i32⟩ : BufTy).Contents (Elt F) → (⟨S1700000, .i1⟩ : BufTy).Contents (Elt F)),
    nullary main_c_7 (constantI S_ 32 100000#32),
    unary main_c_7 main_v33 (broadcastInDim S1700000 ![] bcast_S_S1700000 : (⟨S_, .i32⟩ : BufTy).Contents (Elt F) → (⟨S1700000, .i32⟩ : BufTy).Contents (Elt F)),
    binary main_v3 main_v33 main_v34 (addi : (⟨S1700000, .i32⟩ : BufTy).Contents (Elt F) → (⟨S1700000, .i32⟩ : BufTy).Contents (Elt F) → (⟨S1700000, .i32⟩ : BufTy).Contents (Elt F)),
    ternary main_v32 main_v34 main_v3 main_v35 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v35 main_v36 (broadcastInDim S1700000x1 ![0] bcast_S1700000_S1700000x1_0 : (⟨S1700000, .i32⟩ : BufTy).Contents (Elt F) → (⟨S1700000x1, .i32⟩ : BufTy).Contents (Elt F)),
    binary main_v30 main_v36 main_v37 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v29 main_v38 (broadcastInDim S1700000x1 ![0] bcast_S1700000_S1700000x1_0 : (⟨S1700000, .f32⟩ : BufTy).Contents (Elt F) → (⟨S1700000x1, .f32⟩ : BufTy).Contents (Elt F)),
    unary main_v38 main_v39 (broadcastInDim S1700000x128 ![0, 1] bcast_S1700000x1_S1700000x128_0_1 : (⟨S1700000x1, .f32⟩ : BufTy).Contents (Elt F) → (⟨S1700000x128, .f32⟩ : BufTy).Contents (Elt F)),
    binary main_v37 main_v39 main_v40 (mulf : (⟨S1700000x128, .f32⟩ : BufTy).Contents (Elt F) → (⟨S1700000x128, .f32⟩ : BufTy).Contents (Elt F) → (⟨S1700000x128, .f32⟩ : BufTy).Contents (Elt F)),
    nullary main_cst_8 (constant S_ .f32 0x00000000#32),
    unary main_cst_8 main_v41 (broadcastInDim S100000x128 ![] bcast_S_S100000x128 : (⟨S_, .f32⟩ : BufTy).Contents (Elt F) → (⟨S100000x128, .f32⟩ : BufTy).Contents (Elt F)),
    unary main_v6 main_v42 (broadcastInDim S1700000x1 ![0] bcast_S1700000_S1700000x1_0 : (⟨S1700000, .i32⟩ : BufTy).Contents (Elt F) → (⟨S1700000x1, .i32⟩ : BufTy).Contents (Elt F)),
    ternary main_v41 main_v42 main_v40 main_v43 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)) ]

/-- The operations of this stretch write none of these buffers. -/
theorem keepC (X : Valuation τ sig (Elt F)) :
    ∀ r ∈ [main_arg0, main_arg1, main_arg2, main_arg3, main_arg4, main_arg5, main_arg6, main_arg7, main_arg8, main_arg9, main_v3, main_v6, main_v29], after opsC X (no_index (Proc.devRef .tc r)) = X (Proc.devRef .tc r) := by
  intro r hr
  simp only [List.mem_cons, List.mem_nil_iff, or_false] at hr
  rcases hr with rfl | rfl | rfl | rfl | rfl | rfl | rfl | rfl | rfl | rfl | rfl | rfl | rfl <;> after_results_simp

attribute [local irreducible] Host.gather Host.scatterAdd Host.reduce in
set_option maxRecDepth 8192 in
/-- The first layer's aggregated features. -/
theorem stageC (X : Valuation τ sig (Elt F)) (a0 : (⟨S100000x128, .f32⟩ : BufTy).Contents (Elt F)) (a1 : (⟨S2x1600000, .i32⟩ : BufTy).Contents (Elt F)) (a2 : (⟨S128x128, .f32⟩ : BufTy).Contents (Elt F)) (e0 : X (Proc.devRef .tc main_arg0) = a0) (e2 : X (Proc.devRef .tc main_arg2) = a2)
    (h3 : X (Proc.devRef .tc main_v3) = val_main_v3 (F := F) a1) (h6 : X (Proc.devRef .tc main_v6) = val_main_v6 (F := F) a1) (h29 : X (Proc.devRef .tc main_v29) = val_main_v29 (F := F) a1) :
    after opsC X (Proc.devRef .tc main_v43) = val_main_v43 (F := F) a0 a1 a2 := by
  after_results_simp
  rw [e0, e2, h3, h6, h29]
  rfl

/-- Operations 57–72: the first layer's bias, maximum with zero and row normalisation (`main_v55`). -/
abbrev opsD : List (HloOp τ sig (Elt F)) :=
  [ unary main_arg3 main_v44 (broadcastInDim S1x128 ![1] bcast_S128_S1x128_1 : (⟨S128, .f32⟩ : BufTy).Contents (Elt F) → (⟨S1x128, .f32⟩ : BufTy).Contents (Elt F)),
    unary main_v44 main_v45 (broadcastInDim S100000x128 ![0, 1] bcast_S1x128_S100000x128_0_1 : (⟨S1x128, .f32⟩ : BufTy).Contents (Elt F) → (⟨S100000x128, .f32⟩ : BufTy).Contents (Elt F)),
    binary main_v43 main_v45 main_v46 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v46) (TRef.of (T := ⟨S100000x128, .f32⟩) main_call1_v0) (TRef.of (T := ⟨S100000x128, .f32⟩) main_v47) maximumf,
    binary main_v47 main_v47 main_v48 (mulf : (⟨S100000x128, .f32⟩ : BufTy).Contents (Elt F) → (⟨S100000x128, .f32⟩ : BufTy).Contents (Elt F) → (⟨S100000x128, .f32⟩ : BufTy).Contents (Elt F)),
    nullary main_cst_9 (constant S_ .f32 0x00000000#32),
    binary main_v48 main_cst_9 main_v49 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v49 main_v50 (broadcastInDim S100000x1 ![0] bcast_S100000_S100000x1_0 : (⟨S100000, .f32⟩ : BufTy).Contents (Elt F) → (⟨S100000x1, .f32⟩ : BufTy).Contents (Elt F)),
    unary main_v50 main_v51 (Host.sqrt : (⟨S100000x1, .f32⟩ : BufTy).Contents (Elt F) → (⟨S100000x1, .f32⟩ : BufTy).Contents (Elt F)),
    nullary main_cst_10 (constant S_ .f32 0x2B8CBCCC#32),
    unary main_cst_10 main_v52 (broadcastInDim S100000x1 ![] bcast_S_S100000x1 : (⟨S_, .f32⟩ : BufTy).Contents (Elt F) → (⟨S100000x1, .f32⟩ : BufTy).Contents (Elt F)),
    binary main_v51 main_v52 main_v53 (maximumf : (⟨S100000x1, .f32⟩ : BufTy).Contents (Elt F) → (⟨S100000x1, .f32⟩ : BufTy).Contents (Elt F) → (⟨S100000x1, .f32⟩ : BufTy).Contents (Elt F)),
    unary main_v53 main_v54 (broadcastInDim S100000x128 ![0, 1] bcast_S100000x1_S100000x128_0_1 : (⟨S100000x1, .f32⟩ : BufTy).Contents (Elt F) → (⟨S100000x128, .f32⟩ : BufTy).Contents (Elt F)),
    binary main_v47 main_v54 main_v55 (Host.divf : (⟨S100000x128, .f32⟩ : BufTy).Contents (Elt F) → (⟨S100000x128, .f32⟩ : BufTy).Contents (Elt F) → (⟨S100000x128, .f32⟩ : BufTy).Contents (Elt F)) ]

/-- The operations of this stretch write none of these buffers. -/
theorem keepD (X : Valuation τ sig (Elt F)) :
    ∀ r ∈ [main_arg0, main_arg1, main_arg2, main_arg3, main_arg4, main_arg5, main_arg6, main_arg7, main_arg8, main_arg9, main_v3, main_v6, main_v29], after opsD X (no_index (Proc.devRef .tc r)) = X (Proc.devRef .tc r) := by
  intro r hr
  simp only [List.mem_cons, List.mem_nil_iff, or_false] at hr
  rcases hr with rfl | rfl | rfl | rfl | rfl | rfl | rfl | rfl | rfl | rfl | rfl | rfl | rfl <;> after_results_simp

attribute [local irreducible] Host.gather Host.scatterAdd Host.reduce in
set_option maxRecDepth 8192 in
/-- The first layer's output. -/
theorem stageD (X : Valuation τ sig (Elt F)) (a0 : (⟨S100000x128, .f32⟩ : BufTy).Contents (Elt F)) (a1 : (⟨S2x1600000, .i32⟩ : BufTy).Contents (Elt F)) (a2 : (⟨S128x128, .f32⟩ : BufTy).Contents (Elt F)) (a3 : (⟨S128, .f32⟩ : BufTy).Contents (Elt F)) (e3 : X (Proc.devRef .tc main_arg3) = a3)
    (h43 : X (Proc.devRef .tc main_v43) = val_main_v43 (F := F) a0 a1 a2) :
    after opsD X (Proc.devRef .tc main_v55) = val_main_v55 (F := F) a0 a1 a2 a3 := by
  after_results_simp
  rw [e3, h43]
  rfl

/-- Operations 73–89: the second layer's dense transform and aggregation (`main_v69`). -/
abbrev opsE : List (HloOp τ sig (Elt F)) :=
  [ binary main_v55 main_arg4 main_v56 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_11 (constantI S_ 32 0#32),
    unary main_c_11 main_v57 (broadcastInDim S1700000 ![] bcast_S_S1700000 : (⟨S_, .i32⟩ : BufTy).Contents (Elt F) → (⟨S1700000, .i32⟩ : BufTy).Contents (Elt F)),
    binary main_v3 main_v57 main_v58 (cmpi .slt : (⟨S1700000, .i32⟩ : BufTy).Contents (Elt F) → (⟨S1700000, .i32⟩ : BufTy).Contents (Elt F) → (⟨S1700000, .i1⟩ : BufTy).Contents (Elt F)),
    nullary main_c_12 (constantI S_ 32 100000#32),
    unary main_c_12 main_v59 (broadcastInDim S1700000 ![] bcast_S_S1700000 : (⟨S_, .i32⟩ : BufTy).Contents (Elt F) → (⟨S1700000, .i32⟩ : BufTy).Contents (Elt F)),
    binary main_v3 main_v59 main_v60 (addi : (⟨S1700000, .i32⟩ : BufTy).Contents (Elt F) → (⟨S1700000, .i32⟩ : BufTy).Contents (Elt F) → (⟨S1700000, .i32⟩ : BufTy).Contents (Elt F)),
    ternary main_v58 main_v60 main_v3 main_v61 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v61 main_v62 (broadcastInDim S1700000x1 ![0] bcast_S1700000_S1700000x1_0 : (⟨S1700000, .i32⟩ : BufTy).Contents (Elt F) → (⟨S1700000x1, .i32⟩ : BufTy).Contents (Elt F)),
    binary main_v56 main_v62 main_v63 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v29 main_v64 (broadcastInDim S1700000x1 ![0] bcast_S1700000_S1700000x1_0 : (⟨S1700000, .f32⟩ : BufTy).Contents (Elt F) → (⟨S1700000x1, .f32⟩ : BufTy).Contents (Elt F)),
    unary main_v64 main_v65 (broadcastInDim S1700000x128 ![0, 1] bcast_S1700000x1_S1700000x128_0_1 : (⟨S1700000x1, .f32⟩ : BufTy).Contents (Elt F) → (⟨S1700000x128, .f32⟩ : BufTy).Contents (Elt F)),
    binary main_v63 main_v65 main_v66 (mulf : (⟨S1700000x128, .f32⟩ : BufTy).Contents (Elt F) → (⟨S1700000x128, .f32⟩ : BufTy).Contents (Elt F) → (⟨S1700000x128, .f32⟩ : BufTy).Contents (Elt F)),
    nullary main_cst_13 (constant S_ .f32 0x00000000#32),
    unary main_cst_13 main_v67 (broadcastInDim S100000x128 ![] bcast_S_S100000x128 : (⟨S_, .f32⟩ : BufTy).Contents (Elt F) → (⟨S100000x128, .f32⟩ : BufTy).Contents (Elt F)),
    unary main_v6 main_v68 (broadcastInDim S1700000x1 ![0] bcast_S1700000_S1700000x1_0 : (⟨S1700000, .i32⟩ : BufTy).Contents (Elt F) → (⟨S1700000x1, .i32⟩ : BufTy).Contents (Elt F)),
    ternary main_v67 main_v68 main_v66 main_v69 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)) ]

/-- The operations of this stretch write none of these buffers. -/
theorem keepE (X : Valuation τ sig (Elt F)) :
    ∀ r ∈ [main_arg0, main_arg1, main_arg2, main_arg3, main_arg4, main_arg5, main_arg6, main_arg7, main_arg8, main_arg9, main_v3, main_v6, main_v29, main_v55], after opsE X (no_index (Proc.devRef .tc r)) = X (Proc.devRef .tc r) := by
  intro r hr
  simp only [List.mem_cons, List.mem_nil_iff, or_false] at hr
  rcases hr with rfl | rfl | rfl | rfl | rfl | rfl | rfl | rfl | rfl | rfl | rfl | rfl | rfl | rfl <;> after_results_simp

attribute [local irreducible] Host.gather Host.scatterAdd Host.reduce in
set_option maxRecDepth 8192 in
/-- The second layer's aggregated features. -/
theorem stageE (X : Valuation τ sig (Elt F)) (a0 : (⟨S100000x128, .f32⟩ : BufTy).Contents (Elt F)) (a1 : (⟨S2x1600000, .i32⟩ : BufTy).Contents (Elt F)) (a2 : (⟨S128x128, .f32⟩ : BufTy).Contents (Elt F)) (a3 : (⟨S128, .f32⟩ : BufTy).Contents (Elt F)) (a4 : (⟨S128x128, .f32⟩ : BufTy).Contents (Elt F)) (e4 : X (Proc.devRef .tc main_arg4) = a4)
    (h55 : X (Proc.devRef .tc main_v55) = val_main_v55 (F := F) a0 a1 a2 a3)
    (h3 : X (Proc.devRef .tc main_v3) = val_main_v3 (F := F) a1) (h6 : X (Proc.devRef .tc main_v6) = val_main_v6 (F := F) a1) (h29 : X (Proc.devRef .tc main_v29) = val_main_v29 (F := F) a1) :
    after opsE X (Proc.devRef .tc main_v69) = val_main_v69 (F := F) a0 a1 a2 a3 a4 := by
  after_results_simp
  rw [e4, h55, h3, h6, h29]
  rfl

/-- Operations 90–105: the second layer's closing stage (`main_v81`). -/
abbrev opsF : List (HloOp τ sig (Elt F)) :=
  [ unary main_arg5 main_v70 (broadcastInDim S1x128 ![1] bcast_S128_S1x128_1 : (⟨S128, .f32⟩ : BufTy).Contents (Elt F) → (⟨S1x128, .f32⟩ : BufTy).Contents (Elt F)),
    unary main_v70 main_v71 (broadcastInDim S100000x128 ![0, 1] bcast_S1x128_S100000x128_0_1 : (⟨S1x128, .f32⟩ : BufTy).Contents (Elt F) → (⟨S100000x128, .f32⟩ : BufTy).Contents (Elt F)),
    binary main_v69 main_v71 main_v72 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x128, .f32⟩) main_call2_v0) (broadcastInDim S100000x128 ![] bcast_S_S100000x128),
    TRef.binary (TRef.of (T := ⟨S100000x128, .f32⟩) main_v72) (TRef.of (T := ⟨S100000x128, .f32⟩) main_call2_v0) (TRef.of (T := ⟨S100000x128, .f32⟩) main_v73) maximumf,
    binary main_v73 main_v73 main_v74 (mulf : (⟨S100000x128, .f32⟩ : BufTy).Contents (Elt F) → (⟨S100000x128, .f32⟩ : BufTy).Contents (Elt F) → (⟨S100000x128, .f32⟩ : BufTy).Contents (Elt F)),
    nullary main_cst_14 (constant S_ .f32 0x00000000#32),
    binary main_v74 main_cst_14 main_v75 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v75 main_v76 (broadcastInDim S100000x1 ![0] bcast_S100000_S100000x1_0 : (⟨S100000, .f32⟩ : BufTy).Contents (Elt F) → (⟨S100000x1, .f32⟩ : BufTy).Contents (Elt F)),
    unary main_v76 main_v77 (Host.sqrt : (⟨S100000x1, .f32⟩ : BufTy).Contents (Elt F) → (⟨S100000x1, .f32⟩ : BufTy).Contents (Elt F)),
    nullary main_cst_15 (constant S_ .f32 0x2B8CBCCC#32),
    unary main_cst_15 main_v78 (broadcastInDim S100000x1 ![] bcast_S_S100000x1 : (⟨S_, .f32⟩ : BufTy).Contents (Elt F) → (⟨S100000x1, .f32⟩ : BufTy).Contents (Elt F)),
    binary main_v77 main_v78 main_v79 (maximumf : (⟨S100000x1, .f32⟩ : BufTy).Contents (Elt F) → (⟨S100000x1, .f32⟩ : BufTy).Contents (Elt F) → (⟨S100000x1, .f32⟩ : BufTy).Contents (Elt F)),
    unary main_v79 main_v80 (broadcastInDim S100000x128 ![0, 1] bcast_S100000x1_S100000x128_0_1 : (⟨S100000x1, .f32⟩ : BufTy).Contents (Elt F) → (⟨S100000x128, .f32⟩ : BufTy).Contents (Elt F)),
    binary main_v73 main_v80 main_v81 (Host.divf : (⟨S100000x128, .f32⟩ : BufTy).Contents (Elt F) → (⟨S100000x128, .f32⟩ : BufTy).Contents (Elt F) → (⟨S100000x128, .f32⟩ : BufTy).Contents (Elt F)) ]

/-- The operations of this stretch write none of these buffers. -/
theorem keepF (X : Valuation τ sig (Elt F)) :
    ∀ r ∈ [main_arg0, main_arg1, main_arg2, main_arg3, main_arg4, main_arg5, main_arg6, main_arg7, main_arg8, main_arg9, main_v3, main_v6, main_v29, main_v55], after opsF X (no_index (Proc.devRef .tc r)) = X (Proc.devRef .tc r) := by
  intro r hr
  simp only [List.mem_cons, List.mem_nil_iff, or_false] at hr
  rcases hr with rfl | rfl | rfl | rfl | rfl | rfl | rfl | rfl | rfl | rfl | rfl | rfl | rfl | rfl <;> after_results_simp

attribute [local irreducible] Host.gather Host.scatterAdd Host.reduce in
set_option maxRecDepth 8192 in
/-- The second layer's output. -/
theorem stageF (X : Valuation τ sig (Elt F)) (a0 : (⟨S100000x128, .f32⟩ : BufTy).Contents (Elt F)) (a1 : (⟨S2x1600000, .i32⟩ : BufTy).Contents (Elt F)) (a2 : (⟨S128x128, .f32⟩ : BufTy).Contents (Elt F)) (a3 : (⟨S128, .f32⟩ : BufTy).Contents (Elt F)) (a4 : (⟨S128x128, .f32⟩ : BufTy).Contents (Elt F)) (a5 : (⟨S128, .f32⟩ : BufTy).Contents (Elt F)) (e5 : X (Proc.devRef .tc main_arg5) = a5)
    (h69 : X (Proc.devRef .tc main_v69) = val_main_v69 (F := F) a0 a1 a2 a3 a4) :
    after opsF X (Proc.devRef .tc main_v81) = val_main_v81 (F := F) a0 a1 a2 a3 a4 a5 := by
  after_results_simp
  rw [e5, h69]
  rfl

/-- Operations 106–122: the third layer's dense transform and aggregation (`main_v95`). -/
abbrev opsG : List (HloOp τ sig (Elt F)) :=
  [ binary main_v81 main_arg6 main_v82 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_16 (constantI S_ 32 0#32),
    unary main_c_16 main_v83 (broadcastInDim S1700000 ![] bcast_S_S1700000 : (⟨S_, .i32⟩ : BufTy).Contents (Elt F) → (⟨S1700000, .i32⟩ : BufTy).Contents (Elt F)),
    binary main_v3 main_v83 main_v84 (cmpi .slt : (⟨S1700000, .i32⟩ : BufTy).Contents (Elt F) → (⟨S1700000, .i32⟩ : BufTy).Contents (Elt F) → (⟨S1700000, .i1⟩ : BufTy).Contents (Elt F)),
    nullary main_c_17 (constantI S_ 32 100000#32),
    unary main_c_17 main_v85 (broadcastInDim S1700000 ![] bcast_S_S1700000 : (⟨S_, .i32⟩ : BufTy).Contents (Elt F) → (⟨S1700000, .i32⟩ : BufTy).Contents (Elt F)),
    binary main_v3 main_v85 main_v86 (addi : (⟨S1700000, .i32⟩ : BufTy).Contents (Elt F) → (⟨S1700000, .i32⟩ : BufTy).Contents (Elt F) → (⟨S1700000, .i32⟩ : BufTy).Contents (Elt F)),
    ternary main_v84 main_v86 main_v3 main_v87 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v87 main_v88 (broadcastInDim S1700000x1 ![0] bcast_S1700000_S1700000x1_0 : (⟨S1700000, .i32⟩ : BufTy).Contents (Elt F) → (⟨S1700000x1, .i32⟩ : BufTy).Contents (Elt F)),
    binary main_v82 main_v88 main_v89 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v29 main_v90 (broadcastInDim S1700000x1 ![0] bcast_S1700000_S1700000x1_0 : (⟨S1700000, .f32⟩ : BufTy).Contents (Elt F) → (⟨S1700000x1, .f32⟩ : BufTy).Contents (Elt F)),
    unary main_v90 main_v91 (broadcastInDim S1700000x128 ![0, 1] bcast_S1700000x1_S1700000x128_0_1 : (⟨S1700000x1, .f32⟩ : BufTy).Contents (Elt F) → (⟨S1700000x128, .f32⟩ : BufTy).Contents (Elt F)),
    binary main_v89 main_v91 main_v92 (mulf : (⟨S1700000x128, .f32⟩ : BufTy).Contents (Elt F) → (⟨S1700000x128, .f32⟩ : BufTy).Contents (Elt F) → (⟨S1700000x128, .f32⟩ : BufTy).Contents (Elt F)),
    nullary main_cst_18 (constant S_ .f32 0x00000000#32),
    unary main_cst_18 main_v93 (broadcastInDim S100000x128 ![] bcast_S_S100000x128 : (⟨S_, .f32⟩ : BufTy).Contents (Elt F) → (⟨S100000x128, .f32⟩ : BufTy).Contents (Elt F)),
    unary main_v6 main_v94 (broadcastInDim S1700000x1 ![0] bcast_S1700000_S1700000x1_0 : (⟨S1700000, .i32⟩ : BufTy).Contents (Elt F) → (⟨S1700000x1, .i32⟩ : BufTy).Contents (Elt F)),
    ternary main_v93 main_v94 main_v92 main_v95 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)) ]

/-- The operations of this stretch write none of these buffers. -/
theorem keepG (X : Valuation τ sig (Elt F)) :
    ∀ r ∈ [main_arg0, main_arg1, main_arg2, main_arg3, main_arg4, main_arg5, main_arg6, main_arg7, main_arg8, main_arg9, main_v3, main_v6, main_v29, main_v55, main_v81], after opsG X (no_index (Proc.devRef .tc r)) = X (Proc.devRef .tc r) := by
  intro r hr
  simp only [List.mem_cons, List.mem_nil_iff, or_false] at hr
  rcases hr with rfl | rfl | rfl | rfl | rfl | rfl | rfl | rfl | rfl | rfl | rfl | rfl | rfl | rfl | rfl <;> after_results_simp

attribute [local irreducible] Host.gather Host.scatterAdd Host.reduce in
set_option maxRecDepth 8192 in
/-- The third layer's aggregated features. -/
theorem stageG (X : Valuation τ sig (Elt F)) (a0 : (⟨S100000x128, .f32⟩ : BufTy).Contents (Elt F)) (a1 : (⟨S2x1600000, .i32⟩ : BufTy).Contents (Elt F)) (a2 : (⟨S128x128, .f32⟩ : BufTy).Contents (Elt F)) (a3 : (⟨S128, .f32⟩ : BufTy).Contents (Elt F)) (a4 : (⟨S128x128, .f32⟩ : BufTy).Contents (Elt F)) (a5 : (⟨S128, .f32⟩ : BufTy).Contents (Elt F)) (a6 : (⟨S128x128, .f32⟩ : BufTy).Contents (Elt F)) (e6 : X (Proc.devRef .tc main_arg6) = a6)
    (h81 : X (Proc.devRef .tc main_v81) = val_main_v81 (F := F) a0 a1 a2 a3 a4 a5)
    (h3 : X (Proc.devRef .tc main_v3) = val_main_v3 (F := F) a1) (h6 : X (Proc.devRef .tc main_v6) = val_main_v6 (F := F) a1) (h29 : X (Proc.devRef .tc main_v29) = val_main_v29 (F := F) a1) :
    after opsG X (Proc.devRef .tc main_v95) = val_main_v95 (F := F) a0 a1 a2 a3 a4 a5 a6 := by
  after_results_simp
  rw [e6, h81, h3, h6, h29]
  rfl

/-- Operations 123–138: the third layer's closing stage (`main_v107`). -/
abbrev opsH : List (HloOp τ sig (Elt F)) :=
  [ unary main_arg7 main_v96 (broadcastInDim S1x128 ![1] bcast_S128_S1x128_1 : (⟨S128, .f32⟩ : BufTy).Contents (Elt F) → (⟨S1x128, .f32⟩ : BufTy).Contents (Elt F)),
    unary main_v96 main_v97 (broadcastInDim S100000x128 ![0, 1] bcast_S1x128_S100000x128_0_1 : (⟨S1x128, .f32⟩ : BufTy).Contents (Elt F) → (⟨S100000x128, .f32⟩ : BufTy).Contents (Elt F)),
    binary main_v95 main_v97 main_v98 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S100000x128, .f32⟩) main_call3_v0) (broadcastInDim S100000x128 ![] bcast_S_S100000x128),
    TRef.binary (TRef.of (T := ⟨S100000x128, .f32⟩) main_v98) (TRef.of (T := ⟨S100000x128, .f32⟩) main_call3_v0) (TRef.of (T := ⟨S100000x128, .f32⟩) main_v99) maximumf,
    binary main_v99 main_v99 main_v100 (mulf : (⟨S100000x128, .f32⟩ : BufTy).Contents (Elt F) → (⟨S100000x128, .f32⟩ : BufTy).Contents (Elt F) → (⟨S100000x128, .f32⟩ : BufTy).Contents (Elt F)),
    nullary main_cst_19 (constant S_ .f32 0x00000000#32),
    binary main_v100 main_cst_19 main_v101 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v101 main_v102 (broadcastInDim S100000x1 ![0] bcast_S100000_S100000x1_0 : (⟨S100000, .f32⟩ : BufTy).Contents (Elt F) → (⟨S100000x1, .f32⟩ : BufTy).Contents (Elt F)),
    unary main_v102 main_v103 (Host.sqrt : (⟨S100000x1, .f32⟩ : BufTy).Contents (Elt F) → (⟨S100000x1, .f32⟩ : BufTy).Contents (Elt F)),
    nullary main_cst_20 (constant S_ .f32 0x2B8CBCCC#32),
    unary main_cst_20 main_v104 (broadcastInDim S100000x1 ![] bcast_S_S100000x1 : (⟨S_, .f32⟩ : BufTy).Contents (Elt F) → (⟨S100000x1, .f32⟩ : BufTy).Contents (Elt F)),
    binary main_v103 main_v104 main_v105 (maximumf : (⟨S100000x1, .f32⟩ : BufTy).Contents (Elt F) → (⟨S100000x1, .f32⟩ : BufTy).Contents (Elt F) → (⟨S100000x1, .f32⟩ : BufTy).Contents (Elt F)),
    unary main_v105 main_v106 (broadcastInDim S100000x128 ![0, 1] bcast_S100000x1_S100000x128_0_1 : (⟨S100000x1, .f32⟩ : BufTy).Contents (Elt F) → (⟨S100000x128, .f32⟩ : BufTy).Contents (Elt F)),
    binary main_v99 main_v106 main_v107 (Host.divf : (⟨S100000x128, .f32⟩ : BufTy).Contents (Elt F) → (⟨S100000x128, .f32⟩ : BufTy).Contents (Elt F) → (⟨S100000x128, .f32⟩ : BufTy).Contents (Elt F)) ]

/-- The operations of this stretch write none of these buffers. -/
theorem keepH (X : Valuation τ sig (Elt F)) :
    ∀ r ∈ [main_arg0, main_arg1, main_arg2, main_arg3, main_arg4, main_arg5, main_arg6, main_arg7, main_arg8, main_arg9, main_v55, main_v81], after opsH X (no_index (Proc.devRef .tc r)) = X (Proc.devRef .tc r) := by
  intro r hr
  simp only [List.mem_cons, List.mem_nil_iff, or_false] at hr
  rcases hr with rfl | rfl | rfl | rfl | rfl | rfl | rfl | rfl | rfl | rfl | rfl | rfl <;> after_results_simp

attribute [local irreducible] Host.gather Host.scatterAdd Host.reduce in
set_option maxRecDepth 8192 in
/-- The third layer's output. -/
theorem stageH (X : Valuation τ sig (Elt F)) (a0 : (⟨S100000x128, .f32⟩ : BufTy).Contents (Elt F)) (a1 : (⟨S2x1600000, .i32⟩ : BufTy).Contents (Elt F)) (a2 : (⟨S128x128, .f32⟩ : BufTy).Contents (Elt F)) (a3 : (⟨S128, .f32⟩ : BufTy).Contents (Elt F)) (a4 : (⟨S128x128, .f32⟩ : BufTy).Contents (Elt F)) (a5 : (⟨S128, .f32⟩ : BufTy).Contents (Elt F)) (a6 : (⟨S128x128, .f32⟩ : BufTy).Contents (Elt F)) (a7 : (⟨S128, .f32⟩ : BufTy).Contents (Elt F)) (e7 : X (Proc.devRef .tc main_arg7) = a7)
    (h95 : X (Proc.devRef .tc main_v95) = val_main_v95 (F := F) a0 a1 a2 a3 a4 a5 a6) :
    after opsH X (Proc.devRef .tc main_v107) = val_main_v107 (F := F) a0 a1 a2 a3 a4 a5 a6 a7 := by
  after_results_simp
  rw [e7, h95]
  rfl

/-- Operations 139–143: the three layers' outputs side by side, the last dense transform and its bias (`main_v112`). -/
abbrev opsI : List (HloOp τ sig (Elt F)) :=
  [ nary ![main_v55, main_v81, main_v107] main_v108 (fun u => concatenate S100000x384 1 [⟨S100000x128, u 0⟩, ⟨S100000x128, u 1⟩, ⟨S100000x128, u 2⟩] concatenates_S100000x128_S100000x128_S100000x128_S100000x384_d1),
    binary main_v108 main_arg8 main_v109 ((fun l r => Host.dotGeneral dot_S100000x384_S384x8_S100000x8_1_0_0_1_n_n none l r) : (⟨S100000x384, .f32⟩ : BufTy).Contents (Elt F) → (⟨S384x8, .f32⟩ : BufTy).Contents (Elt F) → (⟨S100000x8, .f32⟩ : BufTy).Contents (Elt F)),
    unary main_arg9 main_v110 (broadcastInDim S1x8 ![1] bcast_S8_S1x8_1 : (⟨S8, .f32⟩ : BufTy).Contents (Elt F) → (⟨S1x8, .f32⟩ : BufTy).Contents (Elt F)),
    unary main_v110 main_v111 (broadcastInDim S100000x8 ![0, 1] bcast_S1x8_S100000x8_0_1 : (⟨S1x8, .f32⟩ : BufTy).Contents (Elt F) → (⟨S100000x8, .f32⟩ : BufTy).Contents (Elt F)),
    binary main_v109 main_v111 main_v112 (addf : (⟨S100000x8, .f32⟩ : BufTy).Contents (Elt F) → (⟨S100000x8, .f32⟩ : BufTy).Contents (Elt F) → (⟨S100000x8, .f32⟩ : BufTy).Contents (Elt F)) ]

/-- The operations of this stretch write none of these buffers. -/
theorem keepI (X : Valuation τ sig (Elt F)) :
    ∀ r ∈ [main_arg0, main_arg1, main_arg2, main_arg3, main_arg4, main_arg5, main_arg6, main_arg7, main_arg8, main_arg9], after opsI X (no_index (Proc.devRef .tc r)) = X (Proc.devRef .tc r) := by
  intro r hr
  simp only [List.mem_cons, List.mem_nil_iff, or_false] at hr
  rcases hr with rfl | rfl | rfl | rfl | rfl | rfl | rfl | rfl | rfl | rfl <;> after_results_simp

attribute [local irreducible] Host.gather Host.scatterAdd Host.reduce in
set_option maxRecDepth 8192 in
/-- The logits. -/
theorem stageI (X : Valuation τ sig (Elt F)) (a0 : (⟨S100000x128, .f32⟩ : BufTy).Contents (Elt F)) (a1 : (⟨S2x1600000, .i32⟩ : BufTy).Contents (Elt F)) (a2 : (⟨S128x128, .f32⟩ : BufTy).Contents (Elt F)) (a3 : (⟨S128, .f32⟩ : BufTy).Contents (Elt F)) (a4 : (⟨S128x128, .f32⟩ : BufTy).Contents (Elt F)) (a5 : (⟨S128, .f32⟩ : BufTy).Contents (Elt F)) (a6 : (⟨S128x128, .f32⟩ : BufTy).Contents (Elt F)) (a7 : (⟨S128, .f32⟩ : BufTy).Contents (Elt F)) (a8 : (⟨S384x8, .f32⟩ : BufTy).Contents (Elt F)) (a9 : (⟨S8, .f32⟩ : BufTy).Contents (Elt F)) (e8 : X (Proc.devRef .tc main_arg8) = a8) (e9 : X (Proc.devRef .tc main_arg9) = a9)
    (h55 : X (Proc.devRef .tc main_v55) = val_main_v55 (F := F) a0 a1 a2 a3)
    (h81 : X (Proc.devRef .tc main_v81) = val_main_v81 (F := F) a0 a1 a2 a3 a4 a5)
    (h107 : X (Proc.devRef .tc main_v107) = val_main_v107 (F := F) a0 a1 a2 a3 a4 a5 a6 a7) :
    after opsI X (Proc.devRef .tc main_v112) = val_main_v112 (F := F) a0 a1 a2 a3 a4 a5 a6 a7 a8 a9 := by
  after_results_simp
  rw [e8, e9, show X (Proc.devRef .tc (![main_v55, main_v81, main_v107] 0)) = _ from h55,
    show X (Proc.devRef .tc (![main_v55, main_v81, main_v107] 1)) = _ from h81,
    show X (Proc.devRef .tc (![main_v55, main_v81, main_v107] 2)) = _ from h107]
  rfl

/-- Operations 144–158: the logarithm of the rows' softmax (`main_v113`). -/
abbrev opsJ : List (HloOp τ sig (Elt F)) :=
  [ TRef.nullary (TRef.of (T := ⟨S_, .f32⟩) main_call4_cst) (constant S_ .f32 0xFF800000#32),
    TRef.binary (TRef.of (T := ⟨S100000x8, .f32⟩) main_v112) (TRef.of (T := ⟨S_, .f32⟩) main_call4_cst) (TRef.of (T := ⟨S100000, .f32⟩) main_call4_v0) (fun x v => Host.reduce FloatOps.maximumf x v reducesTo_S100000x8_S100000_d1 h_S_),
    TRef.nullary (TRef.of (T := ⟨S_, .f32⟩) main_call4_cst_0) (constant S_ .f32 0xFF800000#32),
    TRef.unary (TRef.of (T := ⟨S_, .f32⟩) main_call4_cst_0) (TRef.of (T := ⟨S100000, .f32⟩) main_call4_v1) (broadcastInDim S100000 ![] bcast_S_S100000),
    TRef.binary (TRef.of (T := ⟨S100000, .f32⟩) main_call4_v1) (TRef.of (T := ⟨S100000, .f32⟩) main_call4_v0) (TRef.of (T := ⟨S100000, .f32⟩) main_call4_v2) maximumf,
    TRef.unary (TRef.of (T := ⟨S100000, .f32⟩) main_call4_v2) (TRef.of (T := ⟨S100000x1, .f32⟩) main_call4_v3) (broadcastInDim S100000x1 ![0] bcast_S100000_S100000x1_0),
    TRef.unary (TRef.of (T := ⟨S100000x1, .f32⟩) main_call4_v3) (TRef.of (T := ⟨S100000x8, .f32⟩) main_call4_v4) (broadcastInDim S100000x8 ![0, 1] bcast_S100000x1_S100000x8_0_1),
    TRef.binary (TRef.of (T := ⟨S100000x8, .f32⟩) main_v112) (TRef.of (T := ⟨S100000x8, .f32⟩) main_call4_v4) (TRef.of (T := ⟨S100000x8, .f32⟩) main_call4_v5) subf,
    TRef.unary (TRef.of (T := ⟨S100000x8, .f32⟩) main_call4_v5) (TRef.of (T := ⟨S100000x8, .f32⟩) main_call4_v6) Host.exp,
    TRef.nullary (TRef.of (T := ⟨S_, .f32⟩) main_call4_cst_1) (constant S_ .f32 0x00000000#32),
    TRef.binary (TRef.of (T := ⟨S100000x8, .f32⟩) main_call4_v6) (TRef.of (T := ⟨S_, .f32⟩) main_call4_cst_1) (TRef.of (T := ⟨S100000, .f32⟩) main_call4_v7) (fun x v => Host.reduceAdd x v reducesTo_S100000x8_S100000_d1 h_S_),
    TRef.unary (TRef.of (T := ⟨S100000, .f32⟩) main_call4_v7) (TRef.of (T := ⟨S100000x1, .f32⟩) main_call4_v8) (broadcastInDim S100000x1 ![0] bcast_S100000_S100000x1_0),
    TRef.unary (TRef.of (T := ⟨S100000x1, .f32⟩) main_call4_v8) (TRef.of (T := ⟨S100000x1, .f32⟩) main_call4_v9) Host.log,
    TRef.unary (TRef.of (T := ⟨S100000x1, .f32⟩) main_call4_v9) (TRef.of (T := ⟨S100000x8, .f32⟩) main_call4_v10) (broadcastInDim S100000x8 ![0, 1] bcast_S100000x1_S100000x8_0_1),
    TRef.binary (TRef.of (T := ⟨S100000x8, .f32⟩) main_call4_v5) (TRef.of (T := ⟨S100000x8, .f32⟩) main_call4_v10) (TRef.of (T := ⟨S100000x8, .f32⟩) main_v113) subf ]

/-- The operations of this stretch write none of these buffers. -/
theorem keepJ (X : Valuation τ sig (Elt F)) :
    ∀ r ∈ [main_arg0, main_arg1, main_arg2, main_arg3, main_arg4, main_arg5, main_arg6, main_arg7, main_arg8, main_arg9], after opsJ X (no_index (Proc.devRef .tc r)) = X (Proc.devRef .tc r) := by
  intro r hr
  simp only [List.mem_cons, List.mem_nil_iff, or_false] at hr
  rcases hr with rfl | rfl | rfl | rfl | rfl | rfl | rfl | rfl | rfl | rfl <;> after_results_simp

/-! The typed references of the inlined `log_softmax` move a value between a buffer's own type and the literal type it
    was printed at; at these literal buffers the two types are the same and the move is the identity. -/
theorem toBuf_call4_cst (v : (⟨S_, .f32⟩ : BufTy).Contents (Elt F)) :
    (TRef.of (sig := sig) (T := ⟨S_, .f32⟩) main_call4_cst).toBuf v = v := rfl
theorem toBuf_call4_v0 (v : (⟨S100000, .f32⟩ : BufTy).Contents (Elt F)) :
    (TRef.of (sig := sig) (T := ⟨S100000, .f32⟩) main_call4_v0).toBuf v = v := rfl
theorem toBuf_call4_cst_0 (v : (⟨S_, .f32⟩ : BufTy).Contents (Elt F)) :
    (TRef.of (sig := sig) (T := ⟨S_, .f32⟩) main_call4_cst_0).toBuf v = v := rfl
theorem toBuf_call4_v1 (v : (⟨S100000, .f32⟩ : BufTy).Contents (Elt F)) :
    (TRef.of (sig := sig) (T := ⟨S100000, .f32⟩) main_call4_v1).toBuf v = v := rfl
theorem toBuf_call4_v2 (v : (⟨S100000, .f32⟩ : BufTy).Contents (Elt F)) :
    (TRef.of (sig := sig) (T := ⟨S100000, .f32⟩) main_call4_v2).toBuf v = v := rfl
theorem toBuf_call4_v3 (v : (⟨S100000x1, .f32⟩ : BufTy).Contents (Elt F)) :
    (TRef.of (sig := sig) (T := ⟨S100000x1, .f32⟩) main_call4_v3).toBuf v = v := rfl
theorem toBuf_call4_v4 (v : (⟨S100000x8, .f32⟩ : BufTy).Contents (Elt F)) :
    (TRef.of (sig := sig) (T := ⟨S100000x8, .f32⟩) main_call4_v4).toBuf v = v := rfl
theorem toBuf_call4_v5 (v : (⟨S100000x8, .f32⟩ : BufTy).Contents (Elt F)) :
    (TRef.of (sig := sig) (T := ⟨S100000x8, .f32⟩) main_call4_v5).toBuf v = v := rfl
theorem toBuf_call4_v6 (v : (⟨S100000x8, .f32⟩ : BufTy).Contents (Elt F)) :
    (TRef.of (sig := sig) (T := ⟨S100000x8, .f32⟩) main_call4_v6).toBuf v = v := rfl
theorem toBuf_call4_cst_1 (v : (⟨S_, .f32⟩ : BufTy).Contents (Elt F)) :
    (TRef.of (sig := sig) (T := ⟨S_, .f32⟩) main_call4_cst_1).toBuf v = v := rfl
theorem toBuf_call4_v7 (v : (⟨S100000, .f32⟩ : BufTy).Contents (Elt F)) :
    (TRef.of (sig := sig) (T := ⟨S100000, .f32⟩) main_call4_v7).toBuf v = v := rfl
theorem toBuf_call4_v8 (v : (⟨S100000x1, .f32⟩ : BufTy).Contents (Elt F)) :
    (TRef.of (sig := sig) (T := ⟨S100000x1, .f32⟩) main_call4_v8).toBuf v = v := rfl
theorem toBuf_call4_v9 (v : (⟨S100000x1, .f32⟩ : BufTy).Contents (Elt F)) :
    (TRef.of (sig := sig) (T := ⟨S100000x1, .f32⟩) main_call4_v9).toBuf v = v := rfl
theorem toBuf_call4_v10 (v : (⟨S100000x8, .f32⟩ : BufTy).Contents (Elt F)) :
    (TRef.of (sig := sig) (T := ⟨S100000x8, .f32⟩) main_call4_v10).toBuf v = v := rfl
theorem toBuf_v113 (v : (⟨S100000x8, .f32⟩ : BufTy).Contents (Elt F)) :
    (TRef.of (sig := sig) (T := ⟨S100000x8, .f32⟩) main_v113).toBuf v = v := rfl
theorem ofBuf_v112 (v : (⟨S100000x8, .f32⟩ : BufTy).Contents (Elt F)) :
    (TRef.of (sig := sig) (T := ⟨S100000x8, .f32⟩) main_v112).ofBuf v = v := rfl
theorem ofBuf_call4_cst (v : (⟨S_, .f32⟩ : BufTy).Contents (Elt F)) :
    (TRef.of (sig := sig) (T := ⟨S_, .f32⟩) main_call4_cst).ofBuf v = v := rfl
theorem ofBuf_call4_cst_0 (v : (⟨S_, .f32⟩ : BufTy).Contents (Elt F)) :
    (TRef.of (sig := sig) (T := ⟨S_, .f32⟩) main_call4_cst_0).ofBuf v = v := rfl
theorem ofBuf_call4_v1 (v : (⟨S100000, .f32⟩ : BufTy).Contents (Elt F)) :
    (TRef.of (sig := sig) (T := ⟨S100000, .f32⟩) main_call4_v1).ofBuf v = v := rfl
theorem ofBuf_call4_v0 (v : (⟨S100000, .f32⟩ : BufTy).Contents (Elt F)) :
    (TRef.of (sig := sig) (T := ⟨S100000, .f32⟩) main_call4_v0).ofBuf v = v := rfl
theorem ofBuf_call4_v2 (v : (⟨S100000, .f32⟩ : BufTy).Contents (Elt F)) :
    (TRef.of (sig := sig) (T := ⟨S100000, .f32⟩) main_call4_v2).ofBuf v = v := rfl
theorem ofBuf_call4_v3 (v : (⟨S100000x1, .f32⟩ : BufTy).Contents (Elt F)) :
    (TRef.of (sig := sig) (T := ⟨S100000x1, .f32⟩) main_call4_v3).ofBuf v = v := rfl
theorem ofBuf_call4_v4 (v : (⟨S100000x8, .f32⟩ : BufTy).Contents (Elt F)) :
    (TRef.of (sig := sig) (T := ⟨S100000x8, .f32⟩) main_call4_v4).ofBuf v = v := rfl
theorem ofBuf_call4_v5 (v : (⟨S100000x8, .f32⟩ : BufTy).Contents (Elt F)) :
    (TRef.of (sig := sig) (T := ⟨S100000x8, .f32⟩) main_call4_v5).ofBuf v = v := rfl
theorem ofBuf_call4_v6 (v : (⟨S100000x8, .f32⟩ : BufTy).Contents (Elt F)) :
    (TRef.of (sig := sig) (T := ⟨S100000x8, .f32⟩) main_call4_v6).ofBuf v = v := rfl
theorem ofBuf_call4_cst_1 (v : (⟨S_, .f32⟩ : BufTy).Contents (Elt F)) :
    (TRef.of (sig := sig) (T := ⟨S_, .f32⟩) main_call4_cst_1).ofBuf v = v := rfl
theorem ofBuf_call4_v7 (v : (⟨S100000, .f32⟩ : BufTy).Contents (Elt F)) :
    (TRef.of (sig := sig) (T := ⟨S100000, .f32⟩) main_call4_v7).ofBuf v = v := rfl
theorem ofBuf_call4_v8 (v : (⟨S100000x1, .f32⟩ : BufTy).Contents (Elt F)) :
    (TRef.of (sig := sig) (T := ⟨S100000x1, .f32⟩) main_call4_v8).ofBuf v = v := rfl
theorem ofBuf_call4_v9 (v : (⟨S100000x1, .f32⟩ : BufTy).Contents (Elt F)) :
    (TRef.of (sig := sig) (T := ⟨S100000x1, .f32⟩) main_call4_v9).ofBuf v = v := rfl
theorem ofBuf_call4_v10 (v : (⟨S100000x8, .f32⟩ : BufTy).Contents (Elt F)) :
    (TRef.of (sig := sig) (T := ⟨S100000x8, .f32⟩) main_call4_v10).ofBuf v = v := rfl

attribute [local irreducible] Host.gather Host.scatterAdd Host.reduce in
set_option maxRecDepth 8192 in
/-- The result. -/
theorem stageJ (X : Valuation τ sig (Elt F)) (a0 : (⟨S100000x128, .f32⟩ : BufTy).Contents (Elt F)) (a1 : (⟨S2x1600000, .i32⟩ : BufTy).Contents (Elt F)) (a2 : (⟨S128x128, .f32⟩ : BufTy).Contents (Elt F)) (a3 : (⟨S128, .f32⟩ : BufTy).Contents (Elt F)) (a4 : (⟨S128x128, .f32⟩ : BufTy).Contents (Elt F)) (a5 : (⟨S128, .f32⟩ : BufTy).Contents (Elt F)) (a6 : (⟨S128x128, .f32⟩ : BufTy).Contents (Elt F)) (a7 : (⟨S128, .f32⟩ : BufTy).Contents (Elt F)) (a8 : (⟨S384x8, .f32⟩ : BufTy).Contents (Elt F)) (a9 : (⟨S8, .f32⟩ : BufTy).Contents (Elt F))
    (h112 : X (Proc.devRef .tc main_v112) = val_main_v112 (F := F) a0 a1 a2 a3 a4 a5 a6 a7 a8 a9) :
    after opsJ X (Proc.devRef .tc main_v113) = val_main_v113 (F := F) a0 a1 a2 a3 a4 a5 a6 a7 a8 a9 := by
  after_results_simp
  try rw [toBuf_v113]
  try rw [ofBuf_call4_v5]
  try rw [ofBuf_call4_v10]
  try rw [toBuf_call4_v10]
  try rw [ofBuf_call4_v9]
  try rw [toBuf_call4_v9]
  try rw [ofBuf_call4_v8]
  try rw [toBuf_call4_v8]
  try rw [ofBuf_call4_v7]
  try rw [toBuf_call4_v7]
  try rw [ofBuf_call4_v6]
  try rw [ofBuf_call4_cst_1]
  try rw [toBuf_call4_cst_1]
  try rw [toBuf_call4_v6]
  try rw [toBuf_call4_v5]
  try rw [ofBuf_v112]
  try rw [ofBuf_call4_v4]
  try rw [toBuf_call4_v4]
  try rw [ofBuf_call4_v3]
  try rw [toBuf_call4_v3]
  try rw [ofBuf_call4_v2]
  try rw [toBuf_call4_v2]
  try rw [ofBuf_call4_v1]
  try rw [ofBuf_call4_v0]
  try rw [toBuf_call4_v1]
  try rw [ofBuf_call4_cst_0]
  try rw [toBuf_call4_cst_0]
  try rw [toBuf_call4_v0]
  try rw [ofBuf_call4_cst]
  try rw [toBuf_call4_cst]
  rw [h112]
  rfl

/-! ## The stretches in a row -/

/-- The contents after two stretches of operations are the contents after the second, from those after the first. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

/-- The 159 operations are the ten stretches, one after the other. -/
theorem ops_split : (ops : List (HloOp τ sig (Elt F)))
    = opsA ++ (opsB ++ (opsC ++ (opsD ++ (opsE ++ (opsF ++ (opsG ++ (opsH ++ (opsI ++ opsJ)))))))) := rfl

/-- After the 159 operations the result buffer holds the reference's value, stage by stage: the last stage's function
    `val_main_v113` of the ten arguments' contents. Each stretch's fact is applied to the contents left by the stretches
    before it; a buffer an earlier stretch wrote, or an argument, is read through the stretches between, which do not
    write it. -/
theorem value (V : Valuation τ sig (Elt F)) :
    after ops V (Proc.devRef .tc main_v113) = val_main_v113 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) := by
  rw [ops_split]
  simp only [after_append]
  have hA := stageA V
  have hB := stageB _ _ hA.1 hA.2.1 hA.2.2
  have hC := stageC _ (V (Proc.devRef .tc main_arg0)) _ (V (Proc.devRef .tc main_arg2)) (by simp (disch := decide) only [keepA, keepB, keepC, keepD, keepE, keepF, keepG, keepH]) (by simp (disch := decide) only [keepA, keepB, keepC, keepD, keepE, keepF, keepG, keepH])
    (by simp (disch := decide) only [keepA, keepB, keepC, keepD, keepE, keepF, keepG, keepH]; exact hA.1) (by simp (disch := decide) only [keepA, keepB, keepC, keepD, keepE, keepF, keepG, keepH]; exact hA.2.1) hB
  have hD := stageD _ _ _ _ (V (Proc.devRef .tc main_arg3)) (by simp (disch := decide) only [keepA, keepB, keepC, keepD, keepE, keepF, keepG, keepH]) hC
  have hE := stageE _ _ _ _ _ (V (Proc.devRef .tc main_arg4)) (by simp (disch := decide) only [keepA, keepB, keepC, keepD, keepE, keepF, keepG, keepH]) hD
    (by simp (disch := decide) only [keepA, keepB, keepC, keepD, keepE, keepF, keepG, keepH]; exact hA.1) (by simp (disch := decide) only [keepA, keepB, keepC, keepD, keepE, keepF, keepG, keepH]; exact hA.2.1) (by simp (disch := decide) only [keepA, keepB, keepC, keepD, keepE, keepF, keepG, keepH]; exact hB)
  have hF := stageF _ _ _ _ _ _ (V (Proc.devRef .tc main_arg5)) (by simp (disch := decide) only [keepA, keepB, keepC, keepD, keepE, keepF, keepG, keepH]) hE
  have hG := stageG _ _ _ _ _ _ _ (V (Proc.devRef .tc main_arg6)) (by simp (disch := decide) only [keepA, keepB, keepC, keepD, keepE, keepF, keepG, keepH]) hF
    (by simp (disch := decide) only [keepA, keepB, keepC, keepD, keepE, keepF, keepG, keepH]; exact hA.1) (by simp (disch := decide) only [keepA, keepB, keepC, keepD, keepE, keepF, keepG, keepH]; exact hA.2.1) (by simp (disch := decide) only [keepA, keepB, keepC, keepD, keepE, keepF, keepG, keepH]; exact hB)
  have hH := stageH _ _ _ _ _ _ _ _ (V (Proc.devRef .tc main_arg7)) (by simp (disch := decide) only [keepA, keepB, keepC, keepD, keepE, keepF, keepG, keepH]) hG
  have hI := stageI _ _ _ _ _ _ _ _ _ (V (Proc.devRef .tc main_arg8)) (V (Proc.devRef .tc main_arg9)) (by simp (disch := decide) only [keepA, keepB, keepC, keepD, keepE, keepF, keepG, keepH]) (by simp (disch := decide) only [keepA, keepB, keepC, keepD, keepE, keepF, keepG, keepH])
    (by simp (disch := decide) only [keepA, keepB, keepC, keepD, keepE, keepF, keepG, keepH]; exact hD) (by simp (disch := decide) only [keepA, keepB, keepC, keepD, keepE, keepF, keepG, keepH]; exact hF) hH
  exact stageJ _ _ _ _ _ _ _ _ _ _ _ hI

/-- The ten arguments are written by no operation. -/
theorem args_kept (V : Valuation τ sig (Elt F)) :
    ∀ r ∈ [main_arg0, main_arg1, main_arg2, main_arg3, main_arg4, main_arg5, main_arg6, main_arg7, main_arg8, main_arg9], after ops V (Proc.devRef .tc r) = V (Proc.devRef .tc r) := by
  intro r hr
  rw [ops_split]
  simp only [after_append, List.mem_cons, List.mem_nil_iff, or_false] at hr ⊢
  rcases hr with rfl | rfl | rfl | rfl | rfl | rfl | rfl | rfl | rfl | rfl <;>
    simp (disch := decide) only [keepA, keepB, keepC, keepD, keepE, keepF, keepG, keepH, keepI, keepJ]

/-! ## The run -/

/-- The result's value as a function of the launch contents of the ten arguments. -/
def res_main_v113 (m : (ℓ : Loc nD τ sig) → Buf (Elt F) ℓ) (c : Dev nD) : Buf (Elt F) ((c.tc : Thread nD τ).loc main_v113) :=
  val_main_v113 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))

/-- The same value, named by its position among the values @main returns. -/
abbrev res_out0 (m : (ℓ : Loc nD τ sig) → Buf (Elt F) ℓ) (c : Dev nD) : Buf (Elt F) ((c.tc : Thread nD τ).loc main_v113) := res_main_v113 m c

/-- On every device, for any float values, from any memory with zero counters: every weakly fair execution of @main
    terminates with the result at `res_main_v113` of the launch contents and the ten arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v113) = res_main_v113 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_v113).trans ((value (launchContents m c)).trans (by unfold res_main_v113; rfl)),
      (h c main_arg0).trans (args_kept (launchContents m c) main_arg0 (by decide)),
      (h c main_arg1).trans (args_kept (launchContents m c) main_arg1 (by decide)),
      (h c main_arg2).trans (args_kept (launchContents m c) main_arg2 (by decide)),
      (h c main_arg3).trans (args_kept (launchContents m c) main_arg3 (by decide)),
      (h c main_arg4).trans (args_kept (launchContents m c) main_arg4 (by decide)),
      (h c main_arg5).trans (args_kept (launchContents m c) main_arg5 (by decide)),
      (h c main_arg6).trans (args_kept (launchContents m c) main_arg6 (by decide)),
      (h c main_arg7).trans (args_kept (launchContents m c) main_arg7 (by decide)),
      (h c main_arg8).trans (args_kept (launchContents m c) main_arg8 (by decide)),
      (h c main_arg9).trans (args_kept (launchContents m c) main_arg9 (by decide))⟩)
    (run_seq scopedRefs_eq scopedSems_eq defs main (fun _ => ops) main_eq (fun _ => ops_sub) m ρ)

end Cert.ReferenceIdeal.Value

end
-- ==== Proof.lean ====
/-
  The certificate: the kernel program and its idealization run, terminate and leave their arguments unchanged (the
  generated frames); the idealization rewrote nothing; and, run from memories that agree on the ten arguments, the
  idealized kernel program and the idealized reference end with the same result array on the extended reals. Both
  results are one function of the arguments: three rounds of [dense transform, message passing over the edge list with
  symmetric degree weights, bias, clamp at zero, row normalisation], then the logarithm of the softmax of a last dense
  transform of the three layers' outputs side by side. The kernel computes the last transform as three products against
  three row blocks of the weight and adds them; the reference computes one product against the concatenation; on the
  extended reals a sum may be regrouped freely, so the two agree without any finiteness assumption.
-/
import proofs.«112115_j58961311039942_2_alg».proof.Defs
import proofs.«112115_j58961311039942_2_alg».proof.Proof.Gen.Kernel
import proofs.«112115_j58961311039942_2_alg».proof.Proof.Gen.Kernel.Frame
import proofs.«112115_j58961311039942_2_alg».proof.Proof.Gen.KernelIdeal
import proofs.«112115_j58961311039942_2_alg».proof.Proof.Gen.KernelIdeal.Frame
import proofs.«112115_j58961311039942_2_alg».proof.Proof.Gen.ReferenceIdeal
import proofs.«112115_j58961311039942_2_alg».proof.Proof.Gen.Pre_finite_inputs
import proofs.«112115_j58961311039942_2_alg».proof.Proof.KernelRun
import proofs.«112115_j58961311039942_2_alg».proof.Proof.KernelValue
import proofs.«112115_j58961311039942_2_alg».proof.Proof.RefValue
import proofs.«112115_j58961311039942_2_alg».proof.Proof.RefRunStaged
import Idealize.ShloMosaic.Adequacy
import Idealize.ShloMosaic.Init

noncomputable section

namespace Cert.Proof

open Idealize.ShloMosaic Idealize.ShloMosaic.TcCoe Idealize.SL.Sem

/-- The reference terminates with its arguments unchanged: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both idealized programs end at the specification's function of the arguments they agree on. -/
theorem algebraic : Cert.algebraic_KernelIdeal_ReferenceIdeal := by
  intro m ρ m' ρ' _ hagree
  refine ⟨fun c => Cert.KernelIdeal.Gen.W11 m ρ c (Proc.devRef .tc Cert.KernelIdeal.main_v81), Cert.KernelIdeal.Val.run_named (F := Ideal) m ρ, ?_⟩
  refine (θ_run Cert.ReferenceIdeal.defs _ _).mono (fun _ h c => ⟨(h c).1.trans ?_, (h c).2⟩) (Cert.ReferenceIdeal.Value.run (F := Ideal) m' ρ')
  unfold Cert.ReferenceIdeal.Value.res_main_v113
  rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2]
  exact (Cert.RefSide.ref_value _ _ _ _ _ _ _ _ _ _).trans (Cert.KernelIdeal.Val.W11_v81 m ρ c).symm

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    frame_ri, trivial, algebraic⟩

end Cert.Proof

end
